-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x1x8 : Shape := ⟨3, ![4096, 1, 8]⟩
abbrev S4096 : Shape := ⟨1, ![4096]⟩
abbrev S4096x50x8 : Shape := ⟨3, ![4096, 50, 8]⟩
abbrev S1000x64 : Shape := ⟨2, ![1000, 64]⟩
abbrev S_ : Shape := ⟨0, ![]⟩

class Facts : Prop where
  bcast_S_S4096x1x8 : S_.BroadcastsInDim S4096x1x8 (![] : Fin 0 → Fin S4096x1x8.rank)
  reducesTo_S4096x1x8_S_d0_1_2 : S4096x1x8.ReducesTo [0, 1, 2] S_
  h_S_ : 0 < S_.numel
  bcast_S_S4096x50x8 : S_.BroadcastsInDim S4096x50x8 (![] : Fin 0 → Fin S4096x50x8.rank)
  reducesTo_S4096x50x8_S_d0_1_2 : S4096x50x8.ReducesTo [0, 1, 2] S_
  bcast_S_S1000x64 : S_.BroadcastsInDim S1000x64 (![] : Fin 0 → Fin S1000x64.rank)
  reducesTo_S1000x64_S_d0_1 : S1000x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg2 main_v19
  let main_c_7 : IVec S_ 32 := constantI S_ 32 999#32
  let main_v21 : IVec S4096 32 := broadcastInDim S4096 ![] bcast_S_S4096 main_c_7
  let main_v22 : IVec S4096 1 := cmpi .sle main_arg2 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  main_v25

def fn {F : FTy → Type} [FloatOps F] (main_arg0 : FVec F S4096x1x8 .f32) (main_arg1 : FVec F S4096x1x8 .f32) (main_arg2 : IVec S4096 32) (main_arg3 : FVec F S4096x50x8 .f32) (main_arg4 : FVec F S1000x64 .f32) : IVec S_ 1 :=
  let main_v0 : FVec F S4096x1x8 .f32 := Host.absf main_arg0
  let main_cst : FVec F S_ .f32 := constant S_ .f32 0x7F800000#32
  let main_v1 : FVec F S4096x1x8 .f32 := broadcastInDim S4096x1x8 ![] bcast_S_S4096x1x8 main_cst
  let main_v2 : IVec S4096x1x8 1 := cmpf .olt main_v0 main_v1
  let main_c : IVec S_ 1 := constantI S_ 1 1#1
  let main_v3 : IVec S_ 1 := (fun x v => Host.reduce IntOp.andi x v reducesTo_S4096x1x8_S_d0_1_2 h_S_) main_v2 main_c
  let main_v4 : FVec F S4096x1x8 .f32 := Host.absf main_arg1
  let main_cst_0 : FVec F S_ .f32 := constant S_ .f32 0x7F800000#32
  let main_v5 : FVec F S4096x1x8 .f32 := broadcastInDim S4096x1x8 ![] bcast_S_S4096x1x8 main_cst_0
  let main_v6 : IVec S4096x1x8 1 := cmpf .olt main_v4 main_v5
  let main_c_1 : IVec S_ 1 := constantI S_ 1 1#1
  let main_v7 : IVec S_ 1 := (fun x v => Host.reduce IntOp.andi x v reducesTo_S4096x1x8_S_d0_1_2 h_S_) main_v6 main_c_1
  let main_v8 : IVec S_ 1 := andi main_v3 main_v7
  let main_v9 : FVec F S4096x50x8 .f32 := Host.absf main_arg3
  let main_cst_2 : FVec F S_ .f32 := constant S_ .f32 0x7F800000#32
  let main_v10 : FVec F S4096x50x8 .f32 := broadcastInDim S4096x50x8 ![] bcast_S_S4096x50x8 main_cst_2
  let main_v11 : IVec S4096x50x8 1 := cmpf .olt main_v9 main_v10
  let main_c_3 : IVec S_ 1 := constantI S_ 1 1#1
  let main_v12 : IVec S_ 1 := (fun x v => Host.reduce IntOp.andi x v reducesTo_S4096x50x8_S_d0_1_2 h_S_) main_v11 main_c_3
  let main_v13 : IVec S_ 1 := andi main_v8 main_v12
  let main_v14 : FVec F S1000x64 .f32 := Host.absf main_arg4
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg2 main_v13 main_v16
-- ==== Kernel.lean ====
abbrev S4096x1x8 : Shape := ⟨3, ![4096, 1, 8]⟩
abbrev S4096 : Shape := ⟨1, ![4096]⟩
abbrev S4096x50x8 : Shape := ⟨3, ![4096, 50, 8]⟩
abbrev S1000x64 : Shape := ⟨2, ![1000, 64]⟩
abbrev S4096x8 : Shape := ⟨2, ![4096, 8]⟩
abbrev S4096x400 : Shape := ⟨2, ![4096, 400]⟩
abbrev S_ : Shape := ⟨0, ![]⟩
abbrev S1000x128 : Shape := ⟨2, ![1000, 128]⟩
abbrev S4096x128 : Shape := ⟨2, ![4096, 128]⟩
abbrev S128 : Shape := ⟨1, ![128]⟩
abbrev S128x128 : Shape := ⟨2, ![128, 128]⟩
abbrev S4096x50x96 : Shape := ⟨3, ![4096, 50, 96]⟩
abbrev S512x8 : Shape := ⟨2, ![512, 8]⟩
abbrev S512x128 : Shape := ⟨2, ![512, 128]⟩
abbrev S512x400 : Shape := ⟨2, ![512, 400]⟩
abbrev S512x50x96 : Shape := ⟨3, ![512, 50, 96]⟩
abbrev S512x64 : Shape := ⟨2, ![512, 64]⟩
abbrev S512x88 : Shape := ⟨2, ![512, 88]⟩
abbrev S512x1x88 : Shape := ⟨3, ![512, 1, 88]⟩
abbrev S512x50x88 : Shape := ⟨3, ![512, 50, 88]⟩
abbrev S512x50x8 : Shape := ⟨3, ![512, 50, 8]⟩

abbrev nBuf : Table → Nat
  | .hbm => 13
  | .local .tc .vmem => 10
  | .local .scVector .vmem => 2
  | _ => 0

abbrev bufTy : (tb : Table) → Fin (nBuf tb) → BufTy
  | .hbm, ⟨0, _⟩ => ⟨S4096x1x8, .f32⟩
  | .hbm, ⟨1, _⟩ => ⟨S4096x1x8, .f32⟩
  | .hbm, ⟨2, _⟩ => ⟨S4096, .i32⟩
  | .hbm, ⟨3, _⟩ => ⟨S4096x50x8, .f32⟩
  | .hbm, ⟨4, _⟩ => ⟨S1000x64, .f32⟩
  | .hbm, ⟨5, _⟩ => ⟨S4096x8, .f32⟩
  | .hbm, ⟨6, _⟩ => ⟨S4096x8, .f32⟩
  | .hbm, ⟨7, _⟩ => ⟨S4096x400, .f32⟩
  | .hbm, ⟨8, _⟩ => ⟨S_, .i32⟩
  | .hbm, ⟨9, _⟩ => ⟨S_, .f32⟩
  | .hbm, ⟨10, _⟩ => ⟨S1000x128, .f32⟩
  | .hbm, ⟨11, _⟩ => ⟨S4096x128, .f32⟩
  | .hbm, ⟨12, _⟩ => ⟨S4096x50x96, .f32⟩
  | .local .tc .vmem, ⟨0, _⟩ => ⟨S512x8, .f32⟩
  | .local .tc .vmem, ⟨1, _⟩ => ⟨S512x8, .f32⟩
  | .local .tc .vmem, ⟨2, _⟩ => ⟨S512x8, .f32⟩
  | .local .tc .vmem, ⟨3, _⟩ => ⟨S512x8, .f32⟩
  | .local .tc .vmem, ⟨4, _⟩ => ⟨S512x128, .f32⟩
  | .local .tc .vmem, ⟨5, _⟩ => ⟨S512x128, .f32⟩
  | .local .tc .vmem, ⟨6, _⟩ => ⟨S512x400, .f32⟩
  | .local .tc .vmem, ⟨7, _⟩ => ⟨S512x400, .f32⟩
  | .local .tc .vmem, ⟨8, _⟩ => ⟨S512x50x96, .f32⟩
  | .local .tc .vmem, ⟨9, _⟩ => ⟨S512x50x96, .f32⟩
  | .local .scVector .vmem, ⟨0, _⟩ => ⟨S128, .i32⟩
  | .local .scVector .vmem, ⟨1, _⟩ => ⟨S128x128, .f32⟩
  | _, _ => ⟨S4096x1x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v3_scv : Ref sig .scVector := ⟨.hbm, 10, rfl⟩
abbrev main_arg2_scv : Ref sig .scVector := ⟨.hbm, 2, rfl⟩
abbrev main_v4_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x400 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x50x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x1x8_S4096x8 : S4096x1x8.ShapeCasts S4096x8
  shapeCasts_S4096x50x8_S4096x400 : S4096x50x8.ShapeCasts S4096x400
  pads_S1000x64_S1000x128_000_0640 : S1000x64.Pads (![0, 0] : Fin 2 → Nat) ![0, 64] ![0, 0] S1000x128
  h_S_ : 0 < S_.numel
  inb_S1000x128_S1000x128_0_0 : ∀ a, (![0, 0] : Fin 2 → Nat) a + S1000x128.size a ≤ S1000x128.size a
  gathers_S1000x128_S128x128 : S1000x128.Gathers 0 S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x64 : S512x128.Slices ![0, 0] S512x64
  inb_S512x8_S512x8_0_0 : ∀ a, (![0, 0] : Fin 2 → Nat) a + S512x8.size a ≤ S512x8.size a
  h_S512x8 : 0 < S512x8.numel
  shapeCasts_S512x8_S512x8 : S512x8.ShapeCasts S512x8
  concatenates_S512x8_S512x8_S512x8_S512x64_S512x88_d1 : Shape.Concatenates [S512x8, S512x8, S512x8, S512x64] S512x88 1
  shapeCasts_S512x88_S512x1x88 : S512x88.ShapeCasts S512x1x88
  shapeCasts_S512x1x88_S512x1x88 : S512x1x88.ShapeCasts S512x1x88
  broadcasts_S512x1x88_S512x50x88 : S512x1x88.Broadcasts S512x50x88
  inb_S512x400_S512x400_0_0 : ∀ a, (![0, 0] : Fin 2 → Nat) a + S512x400.size a ≤ S512x400.size a
  h_S512x400 : 0 < S512x400.numel
  shapeCasts_S512x400_S512x400 : S512x400.ShapeCasts S512x400
  shapeCasts_S512x400_S512x50x8 : S512x400.ShapeCasts S512x50x8
  concatenates_S512x50x88_S512x50x8_S512x50x96_d2 : Shape.Concatenates [S512x50x88, S512x50x8] S512x50x96 2
  inb_S512x50x96_S512x50x96_0_0_0 : ∀ a, (![0, 0, 0] : Fin 3 → Nat) a + S512x50x96.size a ≤ S512x50x96.size a
  h_S512x50x96 : 0 < S512x50x96.numel
  hcc0_scratch2 : 0 + S_.numel ≤ 13
  hcc0_scoped0 : 1 + S_.numel ≤ 13
  hcc0_scoped1 : 2 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_off2_inb : ∀ i : grid0.Coords, ∀ a, (k0_off2 i) a + S128x128.size a ≤ S4096x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8.size a ≤ S4096x8.size a
  hwx1_0 : ∀ i : grid1.Coords, EltTy.bits .f32 = 32 ∨ (Rect.block (s := S4096x8) S512x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8.size a ≤ S4096x8.size a
  hwx1_1 : ∀ i : grid1.Coords, EltTy.bits .f32 = 32 ∨ (Rect.block (s := S4096x8) S512x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x400.size a ≤ S4096x400.size a
  hwx1_3 : ∀ i : grid1.Coords, EltTy.bits .f32 = 32 ∨ (Rect.block (s := S4096x400) S512x400.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x50x96.size a ≤ S4096x50x96.size a
  hwx1_4 : ∀ i : grid1.Coords, EltTy.bits .f32 = 32 ∨ (Rect.block (s := S4096x50x96) S512x50x96.size (cc1_transform_4 i) (hinb1_4 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

abbrev win1_0 : Pipeline.Window sig grid1 :=
  Pipeline.Window.ofSpec (Memref.whole main_v0) S512x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x400.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x50x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x1x8 : Shape := ⟨3, ![4096, 1, 8]⟩
abbrev S4096 : Shape := ⟨1, ![4096]⟩
abbrev S4096x50x8 : Shape := ⟨3, ![4096, 50, 8]⟩
abbrev S1000x64 : Shape := ⟨2, ![1000, 64]⟩
abbrev S4096x8 : Shape := ⟨2, ![4096, 8]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x64 : Shape := ⟨2, ![4096, 64]⟩
abbrev S4096x88 : Shape := ⟨2, ![4096, 88]⟩
abbrev S4096x1x88 : Shape := ⟨3, ![4096, 1, 88]⟩
abbrev S4096x50x88 : Shape := ⟨3, ![4096, 50, 88]⟩
abbrev S4096x50x96 : Shape := ⟨3, ![4096, 50, 96]⟩

abbrev nBuf : Space → Nat
  | .hbm => 36
  | .vmem => 0
  | .smem => 0
  | _ => 0

abbrev bufTy : (tb : Table) → Fin (tcTables nBuf tb) → BufTy
  | .hbm, ⟨0, _⟩ => ⟨S4096x1x8, .f32⟩
  | .hbm, ⟨1, _⟩ => ⟨S4096x1x8, .f32⟩
  | .hbm, ⟨2, _⟩ => ⟨S4096, .i32⟩
  | .hbm, ⟨3, _⟩ => ⟨S4096x50x8, .f32⟩
  | .hbm, ⟨4, _⟩ => ⟨S1000x64, .f32⟩
  | .hbm, ⟨5, _⟩ => ⟨S4096x8, .f32⟩
  | .hbm, ⟨6, _⟩ => ⟨S4096x8, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S1x1, .i32⟩
  | .hbm, ⟨20, _⟩ => ⟨S4096x1, .i32⟩
  | .hbm, ⟨21, _⟩ => ⟨S4096x1, .i1⟩
  | .hbm, ⟨22, _⟩ => ⟨S4096x1, .i1⟩
  | .hbm, ⟨23, _⟩ => ⟨S_, .i1⟩
  | .hbm, ⟨24, _⟩ => ⟨S4096, .i1⟩
  | .hbm, ⟨25, _⟩ => ⟨S4096x64, .f32⟩
  | .hbm, ⟨26, _⟩ => ⟨S4096x64, .i1⟩
  | .hbm, ⟨27, _⟩ => ⟨S_, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x8, .f32⟩
  | .hbm, ⟨32, _⟩ => ⟨S4096x88, .f32⟩
  | .hbm, ⟨33, _⟩ => ⟨S4096x1x88, .f32⟩
  | .hbm, ⟨34, _⟩ => ⟨S4096x50x88, .f32⟩
  | .hbm, ⟨35, _⟩ => ⟨S4096x50x96, .f32⟩
  | _, _ => ⟨S4096x1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩

abbrev nD : Nat := 1
abbrev τ : Topo := Topo.v7x

variable {F : FTy → Type} [FloatOps F]

class Facts₀ : Prop where
  shapeCasts_S4096x1x8_S4096x8 : S4096x1x8.ShapeCasts S4096x8
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x64_0 : S4096.BroadcastsInDim S4096x64 (![0] : Fin 1 → Fin S4096x64.rank)
  bcast_S_S4096x64 : S_.BroadcastsInDim S4096x64 (![] : Fin 0 → Fin S4096x64.rank)
  bcast_S_S4096x8 : S_.BroadcastsInDim S4096x8 (![] : Fin 0 → Fin S4096x8.rank)
  concatenates_S4096x8_S4096x8_S4096x8_S4096x64_S4096x88_d1 : Shape.Concatenates [S4096x8, S4096x8, S4096x8, S4096x64] S4096x88 1
  bcast_S4096x88_S4096x1x88_0_2 : S4096x88.BroadcastsInDim S4096x1x88 (![0, 2] : Fin 2 → Fin S4096x1x88.rank)
  bcast_S4096x1x88_S4096x50x88_0_1_2 : S4096x1x88.BroadcastsInDim S4096x50x88 (![0, 1, 2] : Fin 3 → Fin S4096x50x88.rank)
  concatenates_S4096x50x88_S4096x50x8_S4096x50x96_d2 : Shape.Concatenates [S4096x50x88, S4096x50x8] S4096x50x96 2
  gather_S1000x64_S4096x1_S4096x64_1_0_n_n_0_1_164_wf : GatherDims.WF S1000x64 S4096x1 S4096x64 [1] [0] [] [0] [] 1 ![1, 64]

variable [Facts₀]

def gather_S1000x64_S4096x1_S4096x64_1_0_n_n_0_1_164 : GatherDims S1000x64 S4096x1 S4096x64 where
  offsetDims := [1]
  collapsedSliceDims := [0]
  operandBatchingDims := []
  startIndicesBatchingDims := []
  startIndexMap := [0]
  indexVectorDim := 1
  sliceSizes := ![1, 64]
  wf := gather_S1000x64_S4096x1_S4096x64_1_0_n_n_0_1_164_wf

class Facts : Prop extends Facts₀ where

variable [Facts]
-- ==== Proof.KSetup.lean ====
/-
  The kernel program as the SparseCore launch theorem reads it, and the ghost-state algebra every part of the
  kernel's run is stated over: the launch handshakes' rounds, the TensorCore pipeline's staging rounds, and the
  counters of the vector subcores' own transfers, side by side in one product.
-/
import proofs.«208745_g22711787061521_fold_wed_m_611_20_alg».proof.KernelIdeal
import proofs.«208745_g22711787061521_fold_wed_m_611_20_alg».proof.Proof.Gen.KernelIdeal
import proofs.«208745_g22711787061521_fold_wed_m_611_20_alg».proof.Proof.Gen.KernelIdeal.Skeleton
import proofs.«208745_g22711787061521_fold_wed_m_611_20_alg».proof.Proof.Gen.KernelIdeal.Launch
import proofs.«208745_g22711787061521_fold_wed_m_611_20_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipeline's staging cells' rounds. -/
abbrev UP : Type := URounds (GSem nD τ sig) Unit
/-- Handshakes, staging cells, and the transfers' counters (found by instance in the right factor). -/
abbrev UU : Type := UH × (UP × Counters)

abbrev MM (F : FTy → Type) : Type := MT nD τ sig (HIx 1) (Elt F) ℕ UU ℕ

abbrev EH : Emb UH (MM F) := embL
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MM F)).LandsIn (upEmb : UEmb _ (MM F)) := by unfold EP; infer_instance

end Cert.KernelIdeal.Setup

end
-- ==== Proof.Spec.lean ====
/-
  The specification of the result, index by index, over the literal shapes of the five arguments.
  Generic in the float instance; it names no program.

  out[b, t, j] = 1.0                       for  0 ≤ j <  8
               = y[b, 0, j - 8]            for  8 ≤ j < 16
               = x[b, 0, j - 16]           for 16 ≤ j < 24
               = table[ids[b], j - 24]     for 24 ≤ j < 88
               = time[b, t, j - 88]        for 88 ≤ j < 96

  The row of the table is the identifier read as a natural number; so that the definition is total
  the row is cut off at the last one (`row`), which changes nothing for an identifier below 1000
  (`row_val`).
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- The table row an identifier names: the word as a natural number, cut off at row 999. -/
def row (v : BitVec 32) : Fin 1000 := ⟨min v.toNat 999, by omega⟩

/-- For an identifier below 1000 the row is the identifier. -/
theorem row_val (v : BitVec 32) (h : v.toNat < 1000) : (row v).val = v.toNat := by
  show min v.toNat 999 = v.toNat
  omega

/-- For an identifier below 1000 the row is the identifier, as an element of `Fin 1000`. -/
theorem row_eq (v : BitVec 32) (h : v.toNat < 1000) : row v = ⟨v.toNat, h⟩ := Fin.ext (row_val v h)

/-- The float 1.0: the word 0x3F800000. -/
abbrev one : F .f32 := FloatOps.ofBits .f32 0x3F800000#32

/-- The result at coordinates `(b, t, j)`. -/
def outAt (y x : (⟨⟨3, ![4096, 1, 8]⟩, .f32⟩ : BufTy).Contents (Elt F))
    (ids : (⟨⟨1, ![4096]⟩, .i32⟩ : BufTy).Contents (Elt F))
    (time : (⟨⟨3, ![4096, 50, 8]⟩, .f32⟩ : BufTy).Contents (Elt F))
    (table : (⟨⟨2, ![1000, 64]⟩, .f32⟩ : BufTy).Contents (Elt F))
    (b : Fin 4096) (t : Fin 50) (j : Fin 96) : F .f32 :=
  if h8 : j.val < 8 then one
  else if h16 : j.val < 16 then y (ix3 b (0 : Fin 1) (⟨j.val - 8, by omega⟩ : Fin 8))
  else if h24 : j.val < 24 then x (ix3 b (0 : Fin 1) (⟨j.val - 16, by omega⟩ : Fin 8))
  else if h88 : j.val < 88 then table (ix2 (row (ids (ix1 b))) (⟨j.val - 24, by omega⟩ : Fin 64))
  else time (ix3 b t (⟨j.val - 88, by omega⟩ : Fin 8))

/-- The specified result: `outAt` at the three coordinates of the index. -/
def out (y x : (⟨⟨3, ![4096, 1, 8]⟩, .f32⟩ : BufTy).Contents (Elt F))
    (ids : (⟨⟨1, ![4096]⟩, .i32⟩ : BufTy).Contents (Elt F))
    (time : (⟨⟨3, ![4096, 50, 8]⟩, .f32⟩ : BufTy).Contents (Elt F))
    (table : (⟨⟨2, ![1000, 64]⟩, .f32⟩ : BufTy).Contents (Elt F)) :
    (⟨⟨3, ![4096, 50, 96]⟩, .f32⟩ : BufTy).Contents (Elt F) :=
  fun i => outAt y x ids time table (i 0) (i 1) (i 2)

/-- The specified result at an index given by its coordinates. -/
theorem out_ix3 (y x : (⟨⟨3, ![4096, 1, 8]⟩, .f32⟩ : BufTy).Contents (Elt F))
    (ids : (⟨⟨1, ![4096]⟩, .i32⟩ : BufTy).Contents (Elt F))
    (time : (⟨⟨3, ![4096, 50, 8]⟩, .f32⟩ : BufTy).Contents (Elt F))
    (table : (⟨⟨2, ![1000, 64]⟩, .f32⟩ : BufTy).Contents (Elt F))
    (b : Fin 4096) (t : Fin 50) (j : Fin 96) :
    out y x ids time table (ix3 b t j) = outAt y x ids time table b t j := rfl

/-- To prove an array is the specified one: prove it coordinate by coordinate. -/
theorem eq_out (y x : (⟨⟨3, ![4096, 1, 8]⟩, .f32⟩ : BufTy).Contents (Elt F))
    (ids : (⟨⟨1, ![4096]⟩, .i32⟩ : BufTy).Contents (Elt F))
    (time : (⟨⟨3, ![4096, 50, 8]⟩, .f32⟩ : BufTy).Contents (Elt F))
    (table : (⟨⟨2, ![1000, 64]⟩, .f32⟩ : BufTy).Contents (Elt F))
    (A : (⟨⟨3, ![4096, 50, 96]⟩, .f32⟩ : BufTy).Contents (Elt F))
    (h : ∀ (b : Fin 4096) (t : Fin 50) (j : Fin 96), A (ix3 b t j) = outAt y x ids time table b t j) :
    A = out y x ids time table := by
  funext i
  rw [eq_ix3 i]
  exact h (i 0) (i 1) (i 2)

/-! The five ranges of the last coordinate, each as an equation. -/

section Ranges
variable (y x : (⟨⟨3, ![4096, 1, 8]⟩, .f32⟩ : BufTy).Contents (Elt F))
  (ids : (⟨⟨1, ![4096]⟩, .i32⟩ : BufTy).Contents (Elt F))
  (time : (⟨⟨3, ![4096, 50, 8]⟩, .f32⟩ : BufTy).Contents (Elt F))
  (table : (⟨⟨2, ![1000, 64]⟩, .f32⟩ : BufTy).Contents (Elt F))
  (b : Fin 4096) (t : Fin 50) (j : Fin 96)

theorem outAt_ones (h : j.val < 8) : outAt y x ids time table b t j = one := by
  unfold outAt; rw [dif_pos h]

theorem outAt_y (h0 : 8 ≤ j.val) (h : j.val < 16) :
    outAt y x ids time table b t j = y (ix3 b (0 : Fin 1) (⟨j.val - 8, by omega⟩ : Fin 8)) := by
  unfold outAt; rw [dif_neg (by omega), dif_pos h]

theorem outAt_x (h0 : 16 ≤ j.val) (h : j.val < 24) :
    outAt y x ids time table b t j = x (ix3 b (0 : Fin 1) (⟨j.val - 16, by omega⟩ : Fin 8)) := by
  unfold outAt; rw [dif_neg (by omega), dif_neg (by omega), dif_pos h]

theorem outAt_table (h0 : 24 ≤ j.val) (h : j.val < 88) :
    outAt y x ids time table b t j = table (ix2 (row (ids (ix1 b))) (⟨j.val - 24, by omega⟩ : Fin 64)) := by
  unfold outAt; rw [dif_neg (by omega), dif_neg (by omega), dif_neg (by omega), dif_pos h]

theorem outAt_time (h0 : 88 ≤ j.val) :
    outAt y x ids time table b t j = time (ix3 b t (⟨j.val - 88, by omega⟩ : Fin 8)) := by
  unfold outAt; rw [dif_neg (by omega), dif_neg (by omega), dif_neg (by omega), dif_neg (by omega)]

end Ranges

end Cert.Spec

end
-- ==== Proof.KShared.lean ====
/-
  Shared vocabulary of the kernel's run: the arrays' locations, the memrefs a vector subcore's task is called
  with, the block of the gathered array a task writes (rows [128·(2s+c), +128) for subcore s of SparseCore c, spelt
  through the printed offset function), the array of gathered rows as ONE function of the table and the indices,
  and the read shares the tasks hold of the arrays they all read.
-/
import proofs.«208745_g22711787061521_fold_wed_m_611_20_alg».proof.Proof.KSetup
import proofs.«208745_g22711787061521_fold_wed_m_611_20_alg».proof.Proof.Spec
import Idealize.ShloMosaic.Lib.Transfers
import Idealize.ShloMosaic.Lib.ValueIdx

noncomputable section

namespace Cert.KernelIdeal.Setup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- The padded table, the indices, the gathered rows, as locations of device `d`. -/
abbrev tbLoc (d : Dev nD) : Loc nD τ sig := (SparseCore.T d).loc main_v3
abbrev idLoc (d : Dev nD) : Loc nD τ sig := (SparseCore.T d).loc main_arg2
abbrev gaLoc (d : Dev nD) : Loc nD τ sig := (SparseCore.T d).loc main_v4

/-- The memrefs the body table calls a task with. -/
abbrev tbW : Memref sig .scVector .hbm S1000x128 .f32 := Memref.whole main_v3_scv
abbrev idW : Memref sig .scVector .hbm S4096 .i32 := Memref.whole main_arg2_scv
abbrev gaW : Memref sig .scVector .hbm S4096x128 .f32 := Memref.whole main_v4_scv
abbrev sIdx : Memref sig .scVector .vmem S128 .i32 := Memref.whole cc0_scratch0
abbrev sRows : Memref sig .scVector .vmem S128x128 .f32 := Memref.whole cc0_scratch1

/-- The processor a grid point of the SparseCore kernel names. -/
abbrev cV (L : grid0.Coords) : Fin τ.nSC := (L 0).castLE hcore0
abbrev jV (L : grid0.Coords) : Fin τ.nSub := (L 1).castLE hsub0
def coordsV (c : Fin (grid0.bound 0)) (s : Fin (grid0.bound 1)) : grid0.Coords :=
  fun | 0 => c | 1 => s | ⟨_ + 2, h⟩ => absurd h (Nat.not_lt.2 (Nat.le_add_left _ _))

/-- The block of the gathered array the task at `L` writes, as the program slices it. -/
abbrev gaK (L : grid0.Coords) : Memref sig .scVector .hbm S128x128 .f32 :=
  (gaW).slice (Rect.unit (s := S4096x128) (k0_off2 L) S128x128.size (k0_off2_inb L)) (fun _ => rfl)
abbrev gaSet (L : grid0.Coords) : Finset S4096x128.Idx := (gaK L).view.set
/-- The indices' slice the task at `L` fetches, as the program slices it. -/
abbrev idK (L : grid0.Coords) : Memref sig .scVector .hbm S128 .i32 :=
  (idW).slice (Rect.unit (s := S4096) (k0_off1 L) S128.size (k0_off1_inb L)) (fun _ => rfl)

/-- The gathered array as one function of the (padded) table's contents and the indices: row `r` is the table's row
    `ids r` (read through `Cert.Spec.row`, which is the index itself when it is below 1000). -/
def gath (tb : S1000x128.Idx → F .f32) (ids : S4096.Idx → BitVec 32) : S4096x128.Idx → F .f32 :=
  fun j => tb (ix2 (Cert.Spec.row (ids (ix1 (j 0)))) (j 1))

/-- What the assembling call writes, as one function of the four arrays it reads (the two coordinate features `a0`,
    `a1`, the gathered rows `a4`, the time features laid out 400 to a row `a2`): entry (b, t, j) is 1 for j < 8, then
    `a0 (b, j-8)`, `a1 (b, j-16)`, the first 64 columns of `a4`'s row b, and `a2 (b, 8t + (j-88))`. -/
def asmAt (a0 a1 : S4096x8.Idx → F .f32) (a4 : S4096x128.Idx → F .f32) (a2 : S4096x400.Idx → F .f32) [FloatOps F]
    (b : Fin 4096) (t : Fin 50) (j : Fin 96) : F .f32 :=
  if h8 : j.val < 8 then Cert.Spec.one
  else if h16 : j.val < 16 then a0 (ix2 b (⟨j.val - 8, by omega⟩ : Fin 8))
  else if h24 : j.val < 24 then a1 (ix2 b (⟨j.val - 16, by omega⟩ : Fin 8))
  else if h88 : j.val < 88 then a4 (ix2 b (⟨j.val - 24, by omega⟩ : Fin 128))
  else a2 (ix2 b (⟨8 * t.val + (j.val - 88), by omega⟩ : Fin 400))
def asm (a0 a1 : S4096x8.Idx → F .f32) (a4 : S4096x128.Idx → F .f32) (a2 : S4096x400.Idx → F .f32) [FloatOps F] :
    S4096x50x96.Idx → F .f32 :=
  fun i => asmAt a0 a1 a4 a2 (i 0) (i 1) (i 2)

/-- The read share of an array every task reads, for subcore `i` of SparseCore `c`: the whole array's full
    share dealt first among the two SparseCores, then among a SparseCore's sixteen subcores. -/
abbrev qSC (c : Fin 2) : PosShare TreeShare := Transfers.shareTok fullShare 2 c
abbrev qTile (c : Fin 2) (i : Fin 16) : PosShare TreeShare := Transfers.shareTok (qSC c) 16 i

end Cert.KernelIdeal.Setup

end
-- ==== Proof.KPay.lean ====
/-
  What the launch handshakes of the one SparseCore call carry. The TensorCore hands each SparseCore a read share of
  the padded table and of the index array (whole arrays, read by every task) and the sixteen 128-row blocks of the
  gathered array its subcores write; a sequencer hands each subcore a read share of both and its own block; each
  comes back with the block holding the table's rows at the block's indices, stated through the ONE whole-array
  function `gath`.
-/
import proofs.«208745_g22711787061521_fold_wed_m_611_20_alg».proof.Proof.KShared

noncomputable section

namespace Cert.KernelIdeal.Setup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (m : (ℓ : Loc nD τ sig) → Buf (Elt F) ℓ) [FloatOps F]

/-- The embedding table as launched. -/
abbrev a4Loc (d : Dev nD) : Loc nD τ sig := (SparseCore.T d).loc main_arg4

/-- The padded table's contents when the SparseCore call starts: the launch table with 64 columns of the converted
    integer zero appended to every row. -/
def tbV (d : Dev nD) : Buf (Elt F) (tbLoc d) :=
  pad S1000x128 ![0, 0] ![0, 64] ![0, 0] (m (a4Loc d)) (sitofp .f32 (constantI S_ 32 0#32)) Facts₀.pads_S1000x64_S1000x128_000_0640 Facts₀.h_S_

/-- The gathered array after the call. -/
def gaV (d : Dev nD) : Buf (Elt F) (gaLoc d) := gath (tbV m d) (m (idLoc d))

/-- The grid point of subcore `i` of SparseCore `c`. -/
abbrev Lof (c : Fin 2) (i : Fin 16) : grid0.Coords := coordsV c i

/-- A task's holdings: a read share of the table and of the indices, its block of the gathered array at `f`. -/
abbrev tilePts (d : Dev nD) (c : Fin 2) (i : Fin 16) (f : Buf (Elt F) (gaLoc d)) : sProp 𝕄 :=
  iprop((tbLoc d ↦{qTile c i} tbV m d) ∗ (idLoc d ↦{qTile c i} m (idLoc d)) ∗ (gaLoc d ↦[gaSet (Lof c i)]{fullShare} f))
/-- A SparseCore's holdings: a read share of both arrays, its sixteen blocks at `f`. -/
abbrev corePts (d : Dev nD) (c : Fin 2) (f : Buf (Elt F) (gaLoc d)) : sProp 𝕄 :=
  iprop((tbLoc d ↦{qSC c} tbV m d) ∗ (idLoc d ↦{qSC c} m (idLoc d)) ∗ bigSep Finset.univ fun i : Fin 16 => gaLoc d ↦[gaSet (Lof c i)]{fullShare} f)

def P : (K (F := F)).Pay (nD := nD) (Val := Elt F) (Name := ℕ) (U := UU) where
  st := fun q d c => match q with | 0 => corePts m d (Fin.cast nCore_zero c) (m (gaLoc d))
  dn := fun q d c => match q with | 0 => corePts m d (Fin.cast nCore_zero c) (gaV m d)
  go := fun q d c i => match q with | 0 => tilePts m d (Fin.cast nCore_zero c) (Fin.cast nSub_zero i) (m (gaLoc d))
  td := fun q d c i => match q with | 0 => tilePts m d (Fin.cast nCore_zero c) (Fin.cast nSub_zero i) (gaV m d)
  x := fun _ _ => iprop(emp)

instance P_storable : (P (F := F) m).IsStorable where
  st q d c := match q with
    | 0 => (inferInstance : BI.Storable (upEmb : UEmb _ 𝕄) (corePts m d (Fin.cast nCore_zero c) (m (gaLoc d))))
  dn q d c := match q with
    | 0 => (inferInstance : BI.Storable (upEmb : UEmb _ 𝕄) (corePts m d (Fin.cast nCore_zero c) (gaV m d)))
  go q d c i := match q with
    | 0 => (inferInstance : BI.Storable (upEmb : UEmb _ 𝕄) (tilePts m d (Fin.cast nCore_zero c) (Fin.cast nSub_zero i) (m (gaLoc d))))
  td q d c i := match q with
    | 0 => (inferInstance : BI.Storable (upEmb : UEmb _ 𝕄) (tilePts m d (Fin.cast nCore_zero c) (Fin.cast nSub_zero i) (gaV m d)))

end Cert.KernelIdeal.Setup

end
-- ==== Proof.KSplit.lean ====
/-
  How the arrays divide among the tasks. The gathered array's 4096 rows are cut into 32 blocks of 128 rows; the task on
  subcore `i` of SparseCore `c` writes block `2i + c`, so the 2 × 16 tasks' blocks are pairwise disjoint and cover the
  array. The table and the indices are only read: their full share is dealt as read shares, first to the two
  SparseCores, then by each sequencer to its sixteen subcores, and joined back on the way out.
-/
import proofs.«208745_g22711787061521_fold_wed_m_611_20_alg».proof.Proof.KPay

noncomputable section

namespace Cert.KernelIdeal.Setup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## The blocks -/

theorem hdiv32 : 32 ∣ S4096x128.size 0 := ⟨128, rfl⟩
abbrev blk (j : Fin 32) : Rect S4096x128 := Rect.part (s := S4096x128) (a₀ := 0) hdiv32 j

/-- The number of the block the task at grid point `L` writes: twice the subcore plus the SparseCore. -/
def blkOf (L : grid0.Coords) : Fin 32 :=
  ⟨2 * (L 1).val + (L 0).val, by
    have h0 : (L 0).val < 2 := (L 0).isLt
    have h1 : (L 1).val < 16 := (L 1).isLt
    omega⟩

theorem rect_eq (L : grid0.Coords) :
    Rect.unit (s := S4096x128) (k0_off2 L) S128x128.size (k0_off2_inb L) = blk (blkOf L) := by
  unfold blk Rect.part Rect.block
  congr 1 <;> funext a
  · rw [k0_off2_eq]
    match a with
    | 0 => simp [Shape.partIx, Shape.partSize, blkOf]; omega
    | 1 => simp [Shape.partIx, Shape.partSize]
  · match a with
    | 0 => simp [Shape.partSize]
    | 1 => simp [Shape.partSize]

theorem gaSet_eq (L : grid0.Coords) : gaSet L = (blk (blkOf L)).set := by
  show ((View.whole (main_v4_scv : Ref sig .scVector)).slice (Rect.unit (s := S4096x128) (k0_off2 L) S128x128.size (k0_off2_inb L))).set = _
  rw [View.set_slice_whole, rect_eq]

theorem blkOf_Lof (c : Fin 2) (i : Fin 16) : (blkOf (Lof c i)).val = 2 * i.val + c.val := rfl

theorem blkOf_inj {p p' : Fin 2 × Fin 16} (h : blkOf (Lof p.1 p.2) = blkOf (Lof p'.1 p'.2)) : p = p' := by
  have e := congrArg Fin.val h
  rw [blkOf_Lof, blkOf_Lof] at e
  have h1 := p.1.isLt; have h2 := p'.1.isLt
  exact Prod.ext (Fin.ext (by omega)) (Fin.ext (by omega))

theorem blocks_disjoint : ∀ p ∈ (Finset.univ : Finset (Fin 2 × Fin 16)), ∀ p' ∈ (Finset.univ : Finset (Fin 2 × Fin 16)), p ≠ p' →
    Disjoint (gaSet (Lof p.1 p.2)) (gaSet (Lof p'.1 p'.2)) :=
  fun p _ p' _ h => by
    rw [gaSet_eq, gaSet_eq]
    exact Rect.part_disjoint hdiv32 fun e => h (blkOf_inj e)

theorem blocks_cover : (Finset.univ : Finset (Fin 2 × Fin 16)).biUnion (fun p => gaSet (Lof p.1 p.2)) = Finset.univ := by
  ext j
  simp only [Finset.mem_biUnion, Finset.mem_univ, true_and, iff_true]
  obtain ⟨b, hb⟩ := Rect.exists_mem_part hdiv32 j
  have hb32 : b.val < 32 := b.isLt
  refine ⟨(⟨b.val % 2, Nat.mod_lt _ (by omega)⟩, ⟨b.val / 2, by omega⟩), ?_⟩
  rw [gaSet_eq]
  have e : blkOf (Lof (⟨b.val % 2, Nat.mod_lt _ (by omega)⟩ : Fin 2) (⟨b.val / 2, by omega⟩ : Fin 16)) = b :=
    Fin.ext (by rw [blkOf_Lof]; show 2 * (b.val / 2) + b.val % 2 = b.val; omega)
  rw [e]; exact hb

/-- The gathered array held whole is its 2 × 16 blocks held. -/
theorem ga_blocks (d : Dev nD) (f : Buf (Elt F) (gaLoc d)) :
    (gaLoc d ↦{fullShare} f : sProp 𝕄)
      = bigSep Finset.univ fun c : Fin 2 => bigSep Finset.univ fun i : Fin 16 => gaLoc d ↦[gaSet (Lof c i)]{fullShare} f := by
  rw [← bigSep_univ_prod (fun p : Fin 2 × Fin 16 => (gaLoc d ↦[gaSet (Lof p.1 p.2)]{fullShare} f : sProp 𝕄)),
    ← pointsTo_biUnion Finset.univ (ℓ := gaLoc d) (fun p : Fin 2 × Fin 16 => gaSet (Lof p.1 p.2)) blocks_disjoint, blocks_cover]
  try rfl

/-! ## A sequencer's split among its subcores -/

variable (m : (ℓ : Loc nD τ sig) → Buf (Elt F) ℓ) [FloatOps F]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem core_split (d : Dev nD) (c : Fin 2) (f g : Buf (Elt F) (gaLoc d)) :
    corePts m d c f ⊢ |={Set.univ}=> iprop((bigSep Finset.univ fun i : Fin 16 => tilePts m d c i f)
      ∗ ((bigSep Finset.univ fun i : Fin 16 => tilePts m d c i g) -∗ corePts m d c g)) := by
  rw [bigSep_sep', bigSep_sep', bigSep_sep', bigSep_sep']
  iintro ⟨Ht, Hi, Hg⟩
  ihave Ht2 := (Transfers.pointsTo_toks_split (qSC c) 16) $$ Ht
  icases Ht2 with ⟨Htd, Htt⟩
  ihave Hi2 := (Transfers.pointsTo_toks_split (qSC c) 16) $$ Hi
  icases Hi2 with ⟨Hid, Hit⟩
  imodintro
  isplitl [Htt Hit Hg]
  · isplitl [Htt]; · iexact Htt
    isplitl [Hit]; · iexact Hit
    iexact Hg
  iintro ⟨Htt, Hit, Hg⟩
  isplitl [Htd Htt]
  · iapply (Transfers.pointsTo_toks_join (qSC c) 16)
    isplitl [Htd]; · iexact Htd
    iexact Htt
  isplitl [Hid Hit]
  · iapply (Transfers.pointsTo_toks_join (qSC c) 16)
    isplitl [Hid]; · iexact Hid
    iexact Hit
  iexact Hg

theorem vecSplit : (K (F := F)).VecSplit' (P m) 0 := by
  intro d c
  show corePts m d (Fin.cast nCore_zero c) (m (gaLoc d)) ⊢ |={Set.univ}=> iprop(
      (bigSep Finset.univ fun i : Fin ((K (F := F)).nSub 0) => tilePts m d (Fin.cast nCore_zero c) (Fin.cast nSub_zero i) (m (gaLoc d)))
      ∗ ((bigSep Finset.univ fun i : Fin ((K (F := F)).nSub 0) => tilePts m d (Fin.cast nCore_zero c) (Fin.cast nSub_zero i) (gaV m d))
          -∗ corePts m d (Fin.cast nCore_zero c) (gaV m d)))
  rw [bigSep_tasks (F := F) (fun i => tilePts m d (Fin.cast nCore_zero c) i (m (gaLoc d))),
    bigSep_tasks (F := F) (fun i => tilePts m d (Fin.cast nCore_zero c) i (gaV m d))]
  exact core_split m d _ _ _

end Cert.KernelIdeal.Setup

end
-- ==== Proof.KValPay.lean ====
/-
  The value the assembling call stores, read at one index.

  The body builds a 512 x 50 x 96 block from four blocks it has loaded: a block of gathered rows (512 x 128), two
  blocks of coordinate features (512 x 8 each) and a block of time features laid out 400 to a row (512 x 400).  It
  joins, along the last axis, eight columns of the constant 1.0, the two feature blocks and the first 64 columns of
  the gathered rows into 88 columns; repeats those 88 columns for each of the 50 steps; and appends, for step t,
  the eight entries 8t .. 8t+7 of the time row.  So entry (p, t, j) of the block is

      1.0                      for  0 <= j <  8
      v4 (p, j - 8)            for  8 <= j < 16
      v6 (p, j - 16)           for 16 <= j < 24
      v1 (p, j - 24)           for 24 <= j < 88
      v12 (p, 8 t + (j - 88))  for 88 <= j < 96.

  Every operation involved only moves elements, so the statement holds for every float instance.
-/
import proofs.«208745_g22711787061521_fold_wed_m_611_20_alg».proof.Proof.KShared
import Idealize.ShloMosaic.Lib.Pipeline.Value
import Idealize.ShloMosaic.Lib.ValueLayout

noncomputable section

namespace Cert.KernelIdeal.KVal

open Cert.KernelIdeal Cert.KernelIdeal.Gen Cert.KernelIdeal.Setup

open Idealize.ShloMosaic Idealize.ShloMosaic.ValueIdx

variable {F : FTy → Type} [FloatOps F]

section Layout
variable {α : Type}

/-- Four pieces of widths 8, 8, 8, 64 joined along the columns, read at (p, c): the piece whose span holds c,
    at c less the widths before it. -/
theorem cat88_apply (x0 x1 x2 : S512x8.Idx → α) (x3 : S512x64.Idx → α)
    (h : Shape.Concatenates ([⟨S512x8, x0⟩, ⟨S512x8, x1⟩, ⟨S512x8, x2⟩, ⟨S512x64, x3⟩].map
      (fun q : (s : Shape) × (s.Idx → α) => q.1)) S512x88 1)
    (p : Fin 512) (c : Fin 88) :
    concatenate S512x88 1 [⟨S512x8, x0⟩, ⟨S512x8, x1⟩, ⟨S512x8, x2⟩, ⟨S512x64, x3⟩] h (ix2 p c) =
      if h8 : c.val < 8 then x0 (ix2 p (⟨c.val, h8⟩ : Fin 8))
      else if h16 : c.val < 16 then x1 (ix2 p (⟨c.val - 8, by omega⟩ : Fin 8))
      else if h24 : c.val < 24 then x2 (ix2 p (⟨c.val - 16, by omega⟩ : Fin 8))
      else x3 (ix2 p (⟨c.val - 24, by omega⟩ : Fin 64)) := by
  by_cases h8 : c.val < 8
  · rw [dif_pos h8]
    refine concatenate_apply_piece (1 : Fin 2) _ h (ix2 p c) 0 (by show (0 : Nat) < 4; omega) S512x8 x0 rfl rfl 0 rfl
      (ix2 p (⟨c.val, h8⟩ : Fin 8)) ?_ ?_
    · intro b; match b with
      | ⟨0, _⟩ => intro _; rfl
      | ⟨1, _⟩ => intro hb; exact absurd rfl hb
    · show 0 + c.val = c.val; omega
  rw [dif_neg h8]
  by_cases h16 : c.val < 16
  · rw [dif_pos h16]
    refine concatenate_apply_piece (1 : Fin 2) _ h (ix2 p c) 1 (by show (1 : Nat) < 4; omega) S512x8 x1 rfl rfl 8 rfl
      (ix2 p (⟨c.val - 8, by omega⟩ : Fin 8)) ?_ ?_
    · intro b; match b with
      | ⟨0, _⟩ => intro _; rfl
      | ⟨1, _⟩ => intro hb; exact absurd rfl hb
    · show 8 + (c.val - 8) = c.val; omega
  rw [dif_neg h16]
  by_cases h24 : c.val < 24
  · rw [dif_pos h24]
    refine concatenate_apply_piece (1 : Fin 2) _ h (ix2 p c) 2 (by show (2 : Nat) < 4; omega) S512x8 x2 rfl rfl 16 rfl
      (ix2 p (⟨c.val - 16, by omega⟩ : Fin 8)) ?_ ?_
    · intro b; match b with
      | ⟨0, _⟩ => intro _; rfl
      | ⟨1, _⟩ => intro hb; exact absurd rfl hb
    · show 16 + (c.val - 16) = c.val; omega
  rw [dif_neg h24]
  have hc : c.val < 88 := c.isLt
  refine concatenate_apply_piece (1 : Fin 2) _ h (ix2 p c) 3 (by show (3 : Nat) < 4; omega) S512x64 x3 rfl rfl 24 rfl
    (ix2 p (⟨c.val - 24, by omega⟩ : Fin 64)) ?_ ?_
  · intro b; match b with
    | ⟨0, _⟩ => intro _; rfl
    | ⟨1, _⟩ => intro hb; exact absurd rfl hb
  · show 24 + (c.val - 24) = c.val; omega

/-- Two pieces of depths 88 and 8 joined along the last axis, read at (p, t, j). -/
theorem cat96_apply (x0 : S512x50x88.Idx → α) (x1 : S512x50x8.Idx → α)
    (h : Shape.Concatenates [S512x50x88, S512x50x8] S512x50x96 2) (p : Fin 512) (t : Fin 50) (j : Fin 96) :
    concatenate S512x50x96 2 [⟨S512x50x88, x0⟩, ⟨S512x50x8, x1⟩] h (ix3 p t j) =
      if h88 : j.val < 88 then x0 (ix3 p t (⟨j.val, h88⟩ : Fin 88))
      else x1 (ix3 p t (⟨j.val - 88, by omega⟩ : Fin 8)) := by
  by_cases h88 : j.val < 88
  · rw [dif_pos h88]
    refine concatenate_pair_apply_left (2 : Fin 3) x0 x1 h (ix3 p t j) rfl (ix3 p t (⟨j.val, h88⟩ : Fin 88)) ?_
    intro b; match b with
    | ⟨0, _⟩ => rfl
    | ⟨1, _⟩ => rfl
    | ⟨2, _⟩ => rfl
  · rw [dif_neg h88]
    have hj : j.val < 96 := j.isLt
    refine concatenate_pair_apply_right (2 : Fin 3) x0 x1 h (ix3 p t j) rfl rfl
      (ix3 p t (⟨j.val - 88, by omega⟩ : Fin 8)) ?_ ?_
    · intro b; match b with
      | ⟨0, _⟩ => intro _; rfl
      | ⟨1, _⟩ => intro _; rfl
      | ⟨2, _⟩ => intro hb; exact absurd rfl hb
    · show (j.val - 88) + 88 = j.val; omega

/-- A 512 x 88 array given a unit middle axis and repeated along it 50 times reads, at (p, t, c), the array at (p, c). -/
theorem rep50_apply (x : S512x88.Idx → α) (h1 : S512x88.ShapeCasts S512x1x88) (h2 : S512x1x88.ShapeCasts S512x1x88)
    (h3 : S512x1x88.Broadcasts S512x50x88) (p : Fin 512) (t : Fin 50) (c : Fin 88) :
    broadcastTo S512x50x88 (shapeCast S512x1x88 (shapeCast S512x1x88 x h1) h2) h3 (ix3 p t c) = x (ix2 p c) := by
  rw [shapeCast_self]
  refine (broadcastTo_apply _ h3 (ix3 p t c) (ix3 p (0 : Fin 1) c) ?_).trans ?_
  · intro a; match a with
    | ⟨0, _⟩ => rfl
    | ⟨1, _⟩ => rfl
    | ⟨2, _⟩ => rfl
  · refine shapeCast_apply x h1 _ (ix2 p c) ?_
    rw [Shape.rowMajor_val_two, Shape.rowMajor_val_three]
    show p.val * 88 + c.val = (p.val * 1 + 0) * 88 + c.val
    omega

/-- A 512 x 400 array read as 512 x 50 x 8 has, at (p, t, e), the array's entry (p, 8 t + e). -/
theorem split400_apply (x : S512x400.Idx → α) (h1 : S512x400.ShapeCasts S512x400) (h2 : S512x400.ShapeCasts S512x50x8)
    (p : Fin 512) (t : Fin 50) (e : Fin 8) :
    shapeCast S512x50x8 (shapeCast S512x400 x h1) h2 (ix3 p t e) =
      x (ix2 p (⟨8 * t.val + e.val, by omega⟩ : Fin 400)) := by
  rw [shapeCast_self]
  refine shapeCast_apply x h2 _ _ ?_
  rw [Shape.rowMajor_val_two, Shape.rowMajor_val_three]
  show p.val * 400 + (8 * t.val + e.val) = (p.val * 50 + t.val) * 8 + e.val
  omega

/-- The first 64 columns of a 512 x 128 array, read at (p, c). -/
theorem first64_apply (x : S512x128.Idx → α) (h1 : S512x128.ShapeCasts S512x128)
    (h2 : S512x128.Slices ![0, 0] S512x64) (p : Fin 512) (c : Fin 64) :
    extractStridedSlice S512x64 ![0, 0] (shapeCast S512x128 x h1) h2 (ix2 p c) =
      x (ix2 p (⟨c.val, by omega⟩ : Fin 128)) := by
  rw [shapeCast_self]
  refine extractStridedSlice_apply _ x h2 (ix2 p c) _ ?_
  intro a; match a with
  | ⟨0, _⟩ => show p.val = 0 + p.val; omega
  | ⟨1, _⟩ => show c.val = 0 + c.val; omega

end Layout

/-- **The stored block at (p, t, j)**: the constant 1.0 in the first eight columns, then the two feature blocks, the
    first 64 columns of the gathered rows, and entries 8 t .. 8 t + 7 of the time row. -/
theorem k1_pay1_apply (v1 : Vec F S512x128 .f32) (v4 v6 : Vec F S512x8 .f32) (v12 : Vec F S512x400 .f32)
    (p : Fin 512) (t : Fin 50) (j : Fin 96) :
    k1_pay1 v1 v4 v6 v12 (ix3 p t j) =
      if h8 : j.val < 8 then Cert.Spec.one
      else if h16 : j.val < 16 then v4 (ix2 p (⟨j.val - 8, by omega⟩ : Fin 8))
      else if h24 : j.val < 24 then v6 (ix2 p (⟨j.val - 16, by omega⟩ : Fin 8))
      else if h88 : j.val < 88 then v1 (ix2 p (⟨j.val - 24, by omega⟩ : Fin 128))
      else v12 (ix2 p (⟨8 * t.val + (j.val - 88), by omega⟩ : Fin 400)) := by
  unfold k1_pay1
  rw [cat96_apply]
  by_cases h88 : j.val < 88
  · rw [dif_pos h88, rep50_apply, cat88_apply]
    by_cases h8 : j.val < 8
    · rw [dif_pos h8, dif_pos h8]; rfl
    rw [dif_neg h8, dif_neg h8]
    by_cases h16 : j.val < 16
    · rw [dif_pos h16, dif_pos h16, shapeCast_self]
    rw [dif_neg h16, dif_neg h16]
    by_cases h24 : j.val < 24
    · rw [dif_pos h24, dif_pos h24, shapeCast_self]
    rw [dif_neg h24, dif_neg h24, dif_pos h88, first64_apply]
  · rw [dif_neg h88, dif_neg (by omega), dif_neg (by omega), dif_neg (by omega), dif_neg h88, split400_apply]

end Cert.KernelIdeal.KVal

end
-- ==== Proof.KValHost.lean ====
/-
  The operations the program's entry function performs on the host before the two device calls, read at an index.

  Three of them only re-index: the two coordinate-feature arrays lose their unit middle axis, (b, 0, k) becoming
  (b, k); the time features are laid out 400 to a row, (b, t, e) becoming (b, 8 t + e).  The fourth widens the table
  from 64 to 128 columns by appending 64 columns of a padding value; the first 64 columns of every row are the
  table's own.

  Each statement is about the very term the program applies (a row-major re-indexing, or a padding with low
  padding (0, 0), high padding (0, 64) and no interior padding), for any proof of its side condition.
-/
import proofs.«208745_g22711787061521_fold_wed_m_611_20_alg».proof.Proof.KShared
import Idealize.ShloMosaic.Lib.Pipeline.Value
import Idealize.ShloMosaic.Lib.KernelVsHost

noncomputable section

namespace Cert.KernelIdeal.KVal

open Cert.KernelIdeal Cert.KernelIdeal.Gen Cert.KernelIdeal.Setup

open Idealize.ShloMosaic Idealize.ShloMosaic.ValueIdx

variable {F : FTy → Type}

/-! ## The three host values, as the program computes them -/

/-- A 4096 x 1 x 8 array without its unit axis. -/
abbrev flat8 (a : S4096x1x8.Idx → F .f32) : S4096x8.Idx → F .f32 :=
  shapeCast S4096x8 a shapeCasts_S4096x1x8_S4096x8

/-- A 4096 x 50 x 8 array laid out 400 to a row. -/
abbrev flat400 (a : S4096x50x8.Idx → F .f32) : S4096x400.Idx → F .f32 :=
  shapeCast S4096x400 a shapeCasts_S4096x50x8_S4096x400

/-- The table widened to 128 columns by 64 columns of the padding value `z`. -/
abbrev padTb (tb : S1000x64.Idx → F .f32) (z : S_.Idx → F .f32) : S1000x128.Idx → F .f32 :=
  pad S1000x128 ![0, 0] ![0, 64] ![0, 0] tb z pads_S1000x64_S1000x128_000_0640 h_S_

/-! ## Read at an index -/

section ReadAt
variable {α : Type}

/-- Dropping the unit middle axis: entry (b, k) is the operand's entry (b, 0, k). -/
theorem reshape8_apply (a : S4096x1x8.Idx → α) (h : S4096x1x8.ShapeCasts S4096x8) (b : Fin 4096) (k : Fin 8) :
    shapeCast S4096x8 a h (ix2 b k) = a (ix3 b (0 : Fin 1) k) :=
  shapeCast_apply a h _ _ (by
    rw [Shape.rowMajor_val_three, Shape.rowMajor_val_two]
    show (b.val * 1 + 0) * 8 + k.val = b.val * 8 + k.val
    omega)

/-- Laying the last two axes out in one row of 400: entry (b, 8 t + e) is the operand's entry (b, t, e). -/
theorem reshape400_apply (a : S4096x50x8.Idx → α) (h : S4096x50x8.ShapeCasts S4096x400)
    (b : Fin 4096) (t : Fin 50) (e : Fin 8) :
    shapeCast S4096x400 a h (ix2 b (⟨8 * t.val + e.val, by omega⟩ : Fin 400)) = a (ix3 b t e) :=
  shapeCast_apply a h _ _ (by
    rw [Shape.rowMajor_val_three, Shape.rowMajor_val_two]
    show (b.val * 50 + t.val) * 8 + e.val = b.val * 400 + (8 * t.val + e.val)
    omega)

/-- The same, for any column m of the row: it is the operand's entry (b, m / 8, m % 8). -/
theorem reshape400_apply' (a : S4096x50x8.Idx → α) (h : S4096x50x8.ShapeCasts S4096x400)
    (b : Fin 4096) (m : Fin 400) :
    shapeCast S4096x400 a h (ix2 b m) =
      a (ix3 b (⟨m.val / 8, by omega⟩ : Fin 50) (⟨m.val % 8, by omega⟩ : Fin 8)) :=
  shapeCast_apply a h _ _ (by
    rw [Shape.rowMajor_val_three, Shape.rowMajor_val_two]
    show (b.val * 50 + m.val / 8) * 8 + m.val % 8 = b.val * 400 + m.val
    omega)

/-- Widening by 64 columns on the right: in the first 64 columns the widened table is the table. -/
theorem pad64_apply (tb : S1000x64.Idx → α) {u : Shape} (z : u.Idx → α)
    (h : S1000x64.Pads (![0, 0] : Fin 2 → Nat) ![0, 64] ![0, 0] S1000x128) (hu : 0 < u.numel)
    (r : Fin 1000) (c : Fin 128) (hc : c.val < 64) :
    pad S1000x128 ![0, 0] ![0, 64] ![0, 0] tb z h hu (ix2 r c) = tb (ix2 r (⟨c.val, hc⟩ : Fin 64)) :=
  pad_apply_of_inside _ _ _ tb z h hu (ix2 r c) (ix2 r (⟨c.val, hc⟩ : Fin 64)) (fun a => match a with
    | ⟨0, _⟩ => by show r.val = 0 + r.val * (0 + 1); omega
    | ⟨1, _⟩ => by show c.val = 0 + c.val * (0 + 1); omega)

/-- In the last 64 columns the widened table is the padding value. -/
theorem pad64_apply_ge (tb : S1000x64.Idx → α) {u : Shape} (z : u.Idx → α)
    (h : S1000x64.Pads (![0, 0] : Fin 2 → Nat) ![0, 64] ![0, 0] S1000x128) (hu : 0 < u.numel)
    (r : Fin 1000) (c : Fin 128) (hc : 64 ≤ c.val) :
    pad S1000x128 ![0, 0] ![0, 64] ![0, 0] tb z h hu (ix2 r c) = z (Shape.Idx.first hu) :=
  pad_apply_of_not_inside _ _ _ tb z h hu (ix2 r c) (1 : Fin 2) (by
    show ¬(0 ≤ c.val ∧ (c.val - 0) % (0 + 1) = 0 ∧ (c.val - 0) / (0 + 1) < 64)
    omega)

end ReadAt

/-! ## The same, for the three named host values -/

theorem flat8_apply (a : S4096x1x8.Idx → F .f32) (b : Fin 4096) (k : Fin 8) :
    flat8 a (ix2 b k) = a (ix3 b (0 : Fin 1) k) := reshape8_apply a _ b k

theorem flat400_apply (a : S4096x50x8.Idx → F .f32) (b : Fin 4096) (t : Fin 50) (e : Fin 8) :
    flat400 a (ix2 b (⟨8 * t.val + e.val, by omega⟩ : Fin 400)) = a (ix3 b t e) := reshape400_apply a _ b t e

theorem padTb_apply (tb : S1000x64.Idx → F .f32) (z : S_.Idx → F .f32) (r : Fin 1000) (c : Fin 128) (hc : c.val < 64) :
    padTb tb z (ix2 r c) = tb (ix2 r (⟨c.val, hc⟩ : Fin 64)) := pad64_apply tb z _ _ r c hc

end Cert.KernelIdeal.KVal

end
-- ==== Proof.KValBridge.lean ====
/-
  The assembled array is the specified one.

  Fed with the host's re-indexed feature arrays, the rows gathered from the widened table and the re-laid time
  features, the assembling call's result agrees entry by entry with the specification: the two differ only in how
  the entries are addressed.  For (b, t, j):

     j < 8         both are the constant 1.0;
     8 <= j < 16   entry (b, j - 8) of y without its unit axis is y (b, 0, j - 8); the same for x on 16 <= j < 24;
     24 <= j < 88  the gathered row b is row `row (ids b)` of the widened table, whose column j - 24 < 64 is the
                   table's own;
     88 <= j       entry (b, 8 t + (j - 88)) of the re-laid time features is time (b, t, j - 88).

  The row of the table is named by the same function on both sides, so no bound on the identifiers is needed here.
-/
import proofs.«208745_g22711787061521_fold_wed_m_611_20_alg».proof.Proof.KValPay
import proofs.«208745_g22711787061521_fold_wed_m_611_20_alg».proof.Proof.KValHost

noncomputable section

namespace Cert.KernelIdeal.KVal

open Cert.KernelIdeal Cert.KernelIdeal.Gen Cert.KernelIdeal.Setup

open Idealize.ShloMosaic Idealize.ShloMosaic.ValueIdx

variable {F : FTy → Type} [FloatOps F]

/-- The gathered array at (b, c): the table's row `row (ids b)`, column c. -/
theorem gath_apply (tb : S1000x128.Idx → F .f32) (ids : S4096.Idx → BitVec 32) (b : Fin 4096) (c : Fin 128) :
    Setup.gath tb ids (ix2 b c) = tb (ix2 (Cert.Spec.row (ids (ix1 b))) c) := rfl

/-- The assembled array at (b, t, j). -/
theorem asm_ix3 (a0 a1 : S4096x8.Idx → F .f32) (a4 : S4096x128.Idx → F .f32) (a2 : S4096x400.Idx → F .f32)
    (b : Fin 4096) (t : Fin 50) (j : Fin 96) :
    Setup.asm a0 a1 a4 a2 (ix3 b t j) = Setup.asmAt a0 a1 a4 a2 b t j := rfl

/-- **The assembled array is the specified one.** -/
theorem asm_eq_out (y x : (⟨⟨3, ![4096, 1, 8]⟩, .f32⟩ : BufTy).Contents (Elt F))
    (ids : (⟨⟨1, ![4096]⟩, .i32⟩ : BufTy).Contents (Elt F))
    (time : (⟨⟨3, ![4096, 50, 8]⟩, .f32⟩ : BufTy).Contents (Elt F))
    (table : (⟨⟨2, ![1000, 64]⟩, .f32⟩ : BufTy).Contents (Elt F))
    (z : S_.Idx → F .f32) :
    Setup.asm (flat8 y) (flat8 x) (Setup.gath (padTb table z) ids) (flat400 time) =
      Cert.Spec.out y x ids time table := by
  refine Cert.Spec.eq_out y x ids time table _ fun b t j => ?_
  rw [asm_ix3]
  unfold Setup.asmAt Cert.Spec.outAt
  by_cases h8 : j.val < 8
  · rw [dif_pos h8, dif_pos h8]
  rw [dif_neg h8, dif_neg h8]
  by_cases h16 : j.val < 16
  · rw [dif_pos h16, dif_pos h16]
    exact flat8_apply y b _
  rw [dif_neg h16, dif_neg h16]
  by_cases h24 : j.val < 24
  · rw [dif_pos h24, dif_pos h24]
    exact flat8_apply x b _
  rw [dif_neg h24, dif_neg h24]
  by_cases h88 : j.val < 88
  · rw [dif_pos h88, dif_pos h88, gath_apply]
    exact padTb_apply table z _ _ (by show j.val - 24 < 64; omega)
  · rw [dif_neg h88, dif_neg h88]
    have hj : j.val < 96 := j.isLt
    exact flat400_apply time b t (⟨j.val - 88, by omega⟩ : Fin 8)

end Cert.KernelIdeal.KVal

end
-- ==== Proof.KLaunchA.lean ====
/-
  The launch element of the ghost state and how the final memory reads the claim. At the launch the handshakes'
  rounds go to the launch theorem, the pipeline's staging cells' rounds and duty tokens are dealt to each device's
  TensorCore for the assembling call, and the transfers' counters need nothing. At the end each TensorCore holds its
  five argument arrays at their launch contents and the result at the assembled function of them.
-/
import proofs.«208745_g22711787061521_fold_wed_m_611_20_alg».proof.Proof.KSplit
import proofs.«208745_g22711787061521_fold_wed_m_611_20_alg».proof.Proof.KValBridge

noncomputable section

namespace Cert.KernelIdeal.Setup

open Cert.KernelIdeal Cert.KernelIdeal.Gen Cert.KernelIdeal.KVal

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The launch element -/

/-- What the launch deals device `d`'s TensorCore for the assembling call: its staging cells' ghost state and the
    duty tokens of the transfers its loop issues. -/
def G (d : Dev nD) : sProp 𝕄 := iprop(Pipeline.cellsGhost cfgs EP 0 d ∗ Pipeline.toksInit cfgs EP 0 d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem ownU_split3 (a : UH) (b : UP) : (ownU ((a, (b, 1)) : UU) : sProp 𝕄) ⊢ iprop(BI.own (EH a) ∗ BI.own (EP b)) :=
  ownU_pair a ((b, 1) : UP × Counters)

theorem bigSep_emp' {I : Type} (s : Finset I) : (bigSep s fun _ => iprop(emp)) = (iprop(emp) : sProp 𝕄) := bigSep_emp_const s

variable (m : (ℓ : Loc nD τ sig) → Buf (Elt F) ℓ) [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split3 _ _) $$ Hu
  icases H with ⟨HH, HP⟩
  have e1 : (bigSep Finset.univ fun c : Dev nD => bigSep Finset.univ fun p : Fin 1 => (Pipeline.cellsGhost cfgs EP p c : sProp 𝕄))
      = bigSep Finset.univ fun c : Dev nD => (Pipeline.cellsGhost cfgs EP 0 c : sProp 𝕄) :=
    bigSep_congr fun c _ => bigSep_univ_of_subsingleton (0 : Fin 1)
  have e2 : (bigSep Finset.univ fun c : Dev nD => bigSep Finset.univ fun p : Fin 1 => (Pipeline.toksInit cfgs EP p c : sProp 𝕄))
      = bigSep Finset.univ fun c : Dev nD => (Pipeline.toksInit cfgs EP 0 c : sProp 𝕄) :=
    bigSep_congr fun c _ => bigSep_univ_of_subsingleton (0 : Fin 1)
  imod (Pipeline.fund_ghost cfgs EP cellOf_inj) $$ HP with ⟨Hg, Ht⟩
  ihave Hg' := (Entails.of_eq e1) $$ Hg
  ihave Ht' := (Entails.of_eq e2) $$ Ht
  imodintro
  isplitl [HH]; · iexact HH
  isplitl [Hg' Ht']
  · unfold G
    rw [bigSep_sep']
    isplitl [Hg']; · iexact Hg'
    iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The end -/

abbrev a0Loc (d : Dev nD) : Loc nD τ sig := (SparseCore.T d).loc main_arg0
abbrev a1Loc (d : Dev nD) : Loc nD τ sig := (SparseCore.T d).loc main_arg1
abbrev a3Loc (d : Dev nD) : Loc nD τ sig := (SparseCore.T d).loc main_arg3
abbrev v5Loc (d : Dev nD) : Loc nD τ sig := (SparseCore.T d).loc main_v5

/-- The result: the assembled function of the flattened coordinate features, the gathered rows of the padded table,
    and the flattened time features. -/
def outV (d : Dev nD) : Buf (Elt F) (v5Loc d) :=
  asm (flat8 (m (a0Loc d))) (flat8 (m (a1Loc d))) (gaV m d) (flat400 (m (a3Loc d)))

abbrev FIN (d : Dev nD) : sProp 𝕄 :=
  iprop((v5Loc d ↦{fullShare} outV m d) ∗ (a0Loc d ↦{fullShare} m (a0Loc d)) ∗ (a1Loc d ↦{fullShare} m (a1Loc d))
    ∗ (idLoc d ↦{fullShare} m (idLoc d)) ∗ (a3Loc d ↦{fullShare} m (a3Loc d)) ∗ (a4Loc d ↦{fullShare} m (a4Loc d)))

def fq (d : Dev nD) (s' : Phys nD τ sig (Elt F)) : Prop :=
  s'.mem.mem (v5Loc d) = outV m d ∧ s'.mem.mem (a0Loc d) = m (a0Loc d) ∧ s'.mem.mem (a1Loc d) = m (a1Loc d)
    ∧ s'.mem.mem (idLoc d) = m (idLoc d) ∧ s'.mem.mem (a3Loc d) = m (a3Loc d) ∧ s'.mem.mem (a4Loc d) = m (a4Loc d)

omit [FloatOps F] in
theorem agree1 (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H5, H0, H1, H2, H3, H4⟩, HSI⟩
  ihave H := (agree1 _ _ s') $$ [H5 HSI]
  · isplitl [H5] <;> iassumption
  icases H with ⟨%e5, HSI⟩
  ihave H := (agree1 _ _ s') $$ [H0 HSI]
  · isplitl [H0] <;> iassumption
  icases H with ⟨%e0, HSI⟩
  ihave H := (agree1 _ _ s') $$ [H1 HSI]
  · isplitl [H1] <;> iassumption
  icases H with ⟨%e1, HSI⟩
  ihave H := (agree1 _ _ s') $$ [H2 HSI]
  · isplitl [H2] <;> iassumption
  icases H with ⟨%e2, HSI⟩
  ihave H := (agree1 _ _ s') $$ [H3 HSI]
  · isplitl [H3] <;> iassumption
  icases H with ⟨%e3, HSI⟩
  ihave H := (agree1 _ _ s') $$ [H4 HSI]
  · isplitl [H4] <;> iassumption
  icases H with ⟨%e4, -⟩
  ipureintro; exact ⟨e5, e0, e1, e2, e3, e4⟩

end Cert.KernelIdeal.Setup

end
-- ==== Proof.KPost.lean ====
/-
  What the kernel's run ends with: on every device the result holds the assembled function of the launch contents
  of the five arguments, and the five arguments hold their launch contents.  That assembled function is the
  specification: the host's re-indexings, the padded table's first 64 columns and the gathered rows only address
  the same entries in another way.
-/
import proofs.«208745_g22711787061521_fold_wed_m_611_20_alg».proof.Proof.KLaunchA

noncomputable section

namespace Cert.KernelIdeal.Setup

open Cert.KernelIdeal Cert.KernelIdeal.Gen Cert.KernelIdeal.KVal

open Idealize.ShloMosaic Idealize.ShloMosaic.ValueIdx
open Idealize.ShloMosaic.SparseCore (S V T)
open Idealize.SL.Sem

variable {F : FTy → Type}

variable (m : (ℓ : Loc nD τ sig) → Buf (Elt F) ℓ) [FloatOps F]

/-- The post of the kernel's run: the result at the assembled function of the launch memory, the five arguments
    unchanged. -/
def QC : PUnit × MemSt nD τ sig (Elt F) → Prop := fun r => ∀ c : Dev nD,
  r.2.mem (v5Loc c) = outV m c ∧ r.2.mem (a0Loc c) = m (a0Loc c) ∧ r.2.mem (a1Loc c) = m (a1Loc c)
    ∧ r.2.mem (idLoc c) = m (idLoc c) ∧ r.2.mem (a3Loc c) = m (a3Loc c) ∧ r.2.mem (a4Loc c) = m (a4Loc c)

/-- The padded table as launched is the launch table widened by the converted integer zero. -/
theorem tbV_eq (d : Dev nD) : tbV m d = padTb (m (a4Loc d)) (sitofp .f32 (constantI S_ 32 0#32)) := rfl

/-- **The assembled function of the launch memory is the specified result.** -/
theorem outV_eq_spec (d : Dev nD) :
    outV m d = Cert.Spec.out (m (a0Loc d)) (m (a1Loc d)) (m (idLoc d)) (m (a3Loc d)) (m (a4Loc d)) := by
  unfold outV gaV
  rw [tbV_eq]
  exact asm_eq_out (m (a0Loc d)) (m (a1Loc d)) (m (idLoc d)) (m (a3Loc d)) (m (a4Loc d)) _

end Cert.KernelIdeal.Setup

end
-- ==== Proof.PreIds.lean ====
/-
  From the precondition to the range of the identifiers. The precondition's last conjunct is
  `jnp.all((0 ≤ ids) & (ids ≤ 999))`, signed; a word in [0, 999] signed is below 1000 unsigned.
  Generic in the float instance: the conjuncts over the float arguments are not used.
-/
import proofs.«208745_g22711787061521_fold_wed_m_611_20_alg».proof.Pre_input_domain
import Idealize.ShloMosaic.Lib.ReduceAll
import Idealize.ShloMosaic.Lib.ValueIdx

noncomputable section

namespace Cert.PreIds

open Idealize.ShloMosaic Idealize.ShloMosaic.ValueIdx
open Cert.Pre_input_domain

variable {F : FTy → Type} [FloatOps F] [Cert.Pre_input_domain.Facts]

/-- The scalar shape has one index. -/
instance subsingleton_S_ : Subsingleton S_.Idx := ⟨fun a b => funext fun d => d.elim0⟩

/-- A word in [0, 999] signed is below 1000 unsigned. -/
theorem toNat_lt_of_toInt (w : BitVec 32) (h0 : 0 ≤ w.toInt) (h1 : w.toInt ≤ 999) : w.toNat < 1000 := by
  have h32 := w.isLt
  unfold BitVec.toInt at h0 h1
  split at h1 <;> omega

/-- THE PRECONDITION DECODED at an identifier: it lies in [0, 999], signed. -/
theorem ids_toInt (a0 a1 : FVec F S4096x1x8 .f32) (a2 : IVec S4096 32) (a3 : FVec F S4096x50x8 .f32)
    (a4 : FVec F S1000x64 .f32)
    (h : Cert.Pre_input_domain.fn (F := F) a0 a1 a2 a3 a4 = (fun _ => 1#1)) (b : S4096.Idx) :
    0 ≤ (a2 b).toInt ∧ (a2 b).toInt ≤ 999 := by
  have e := congrFun h ix0
  dsimp only [Cert.Pre_input_domain.fn, Cert.Pre_input_domain.fn_part1] at e
  -- the last conjunct: the reduction by `and` of the identifiers' mask is 1
  have e1 := (IntOp.andi_eq_one.1 e).2
  -- so the mask is 1 at every identifier
  have e2 := Host.reduce_andi_all _ _ _ _ ix0 e1 b
  obtain ⟨hge, hle⟩ := IntOp.andi_eq_one.1 e2
  have hge' : (0#32).toInt ≤ (a2 b).toInt := IntOp.cmpi_sge.1 hge
  have hle' : (a2 b).toInt ≤ (999#32).toInt := IntOp.cmpi_sle.1 hle
  have z0 : (0#32 : BitVec 32).toInt = 0 := by decide
  have z1 : (999#32 : BitVec 32).toInt = 999 := by decide
  rw [z0] at hge'
  rw [z1] at hle'
  exact ⟨hge', hle'⟩

/-- THE PRECONDITION DECODED at an identifier, unsigned: it names a row of the table. -/
theorem ids_lt (a0 a1 : FVec F S4096x1x8 .f32) (a2 : IVec S4096 32) (a3 : FVec F S4096x50x8 .f32)
    (a4 : FVec F S1000x64 .f32)
    (h : Cert.Pre_input_domain.fn (F := F) a0 a1 a2 a3 a4 = (fun _ => 1#1)) (b : S4096.Idx) :
    (a2 b).toNat < 1000 :=
  toNat_lt_of_toInt _ (ids_toInt a0 a1 a2 a3 a4 h b).1 (ids_toInt a0 a1 a2 a3 a4 h b).2

end Cert.PreIds

end
-- ==== Proof.RefTerm.lean ====
/-
  The reference's result as a pure term of its five argument arrays: the composition of the
  operations of its @main (the outlined `take` and `where` written in line), stage by stage.
  Generic in the float instance.
-/
import proofs.«208745_g22711787061521_fold_wed_m_611_20_alg».proof.Proof.Gen.ReferenceIdeal

noncomputable section

namespace Cert.ReferenceIdeal.HandRun

open Cert.ReferenceIdeal Idealize.ShloMosaic
open Cert.ReferenceIdeal.Facts₀

variable {F : FTy → Type} [FloatOps F]

/-! ## The pure term -/

/-- The identifiers with the negative ones wrapped: `where(ids < 0, ids + 1000, ids)`. -/
def refIds (a2 : IVec S4096 32) : IVec S4096 32 :=
  select (cmpi .slt a2 (broadcastInDim S4096 ![] bcast_S_S4096 (constantI S_ 32 0#32)))
    (addi a2 (broadcastInDim S4096 ![] bcast_S_S4096 (constantI S_ 32 1000#32))) a2

/-- The gather's start indices: the wrapped identifiers as a column. -/
def refIdx (a2 : IVec S4096 32) : IVec S4096x1 32 :=
  broadcastInDim S4096x1 ![0] bcast_S4096_S4096x1_0 (refIds a2)

/-- The in-range mask: `all((idx ≥ 0) & (idx ≤ 999), axis = 1)`. -/
def refMask (a2 : IVec S4096 32) : IVec S4096 1 :=
  Host.reduce IntOp.andi
    (andi (cmpi .sge (refIdx a2) (broadcastInDim S4096x1 ![] bcast_S_S4096x1 (constantI S_ 32 0#32)))
      (cmpi .sle (refIdx a2) (broadcastInDim S4096x1 ![0, 1] bcast_S1x1_S4096x1_0_1
        (broadcastInDim S1x1 ![1] bcast_S1_S1x1_1 (constantI S1 32 999#32)))))
    (constantI S_ 1 1#1) reducesTo_S4096x1_S4096_d1 h_S_

/-- The gathered rows. -/
def refGather (a2 : IVec S4096 32) (a4 : FVec F S1000x64 .f32) : FVec F S4096x64 .f32 :=
  Host.gather gather_S1000x64_S4096x1_S4096x64_1_0_n_n_0_1_164 a4 (refIdx a2)

/-- `jnp.take` in fill mode: the gathered row where the identifier is in range, NaN elsewhere. -/
def refTake (a2 : IVec S4096 32) (a4 : FVec F S1000x64 .f32) : FVec F S4096x64 .f32 :=
  select (broadcastInDim S4096x64 ![0] bcast_S4096_S4096x64_0 (refMask a2)) (refGather a2 a4)
    (broadcastInDim S4096x64 ![] bcast_S_S4096x64 (constant S_ .f32 0x7FC00000#32))

/-- The 88 columns that do not depend on the time step: ones, y, x, the table row. -/
def refQuery (a0 a1 : FVec F S4096x1x8 .f32) (a2 : IVec S4096 32) (a4 : FVec F S1000x64 .f32) : FVec F S4096x88 .f32 :=
  concatenate S4096x88 1
    [⟨S4096x8, (broadcastInDim S4096x8 ![] bcast_S_S4096x8 (constant S_ .f32 0x3F800000#32) : FVec F S4096x8 .f32)⟩,
     ⟨S4096x8, (shapeCast S4096x8 a0 shapeCasts_S4096x1x8_S4096x8 : FVec F S4096x8 .f32)⟩,
     ⟨S4096x8, (shapeCast S4096x8 a1 shapeCasts_S4096x1x8_S4096x8 : FVec F S4096x8 .f32)⟩,
     ⟨S4096x64, refTake a2 a4⟩]
    concatenates_S4096x8_S4096x8_S4096x8_S4096x64_S4096x88_d1

/-- The reference's result as a pure term of its five argument arrays. -/
def refOut (a0 a1 : FVec F S4096x1x8 .f32) (a2 : IVec S4096 32) (a3 : FVec F S4096x50x8 .f32)
    (a4 : FVec F S1000x64 .f32) : FVec F S4096x50x96 .f32 :=
  concatenate S4096x50x96 2
    [⟨S4096x50x88, (broadcastInDim S4096x50x88 ![0, 1, 2] bcast_S4096x1x88_S4096x50x88_0_1_2
        (broadcastInDim S4096x1x88 ![0, 2] bcast_S4096x88_S4096x1x88_0_2 (refQuery a0 a1 a2 a4)) : FVec F S4096x50x88 .f32)⟩,
     ⟨S4096x50x8, a3⟩]
    concatenates_S4096x50x88_S4096x50x8_S4096x50x96_d2

end Cert.ReferenceIdeal.HandRun

end
-- ==== Proof.KClaims.lean ====
/-
  The five claims, from the two runs.

  The kernel's run ends with the result at the assembled function of the launch memory and the arguments unchanged;
  the reference's run ends with its result at the reference's own term of its launch memory and its arguments
  unchanged.  The assembled function IS the specified one; the reference's term is the specified one when the
  identifiers are in range; and memories that agree on the arguments give the same specified result.  So the two
  results are equal, and each frame is its run with the result forgotten.  The precondition enters only through the
  range of the identifiers.
-/
import proofs.«208745_g22711787061521_fold_wed_m_611_20_alg».proof.Defs
import proofs.«208745_g22711787061521_fold_wed_m_611_20_alg».proof.Proof.KPost
import proofs.«208745_g22711787061521_fold_wed_m_611_20_alg».proof.Proof.PreIds
import proofs.«208745_g22711787061521_fold_wed_m_611_20_alg».proof.Proof.RefTerm
import proofs.«208745_g22711787061521_fold_wed_m_611_20_alg».proof.Proof.Gen.Pre_input_domain

noncomputable section

namespace Cert.Claims

open Idealize.ShloMosaic Idealize.ShloMosaic.ValueIdx Idealize.SL.Sem
open Cert.KernelIdeal.Setup

/-- The specified result depends only on the five arrays. -/
theorem out_congr {F : FTy → Type} [FloatOps F]
    {y y' x x' : (⟨⟨3, ![4096, 1, 8]⟩, .f32⟩ : BufTy).Contents (Elt F)}
    {ids ids' : (⟨⟨1, ![4096]⟩, .i32⟩ : BufTy).Contents (Elt F)}
    {time time' : (⟨⟨3, ![4096, 50, 8]⟩, .f32⟩ : BufTy).Contents (Elt F)}
    {table table' : (⟨⟨2, ![1000, 64]⟩, .f32⟩ : BufTy).Contents (Elt F)}
    (hy : y = y') (hx : x = x') (hi : ids = ids') (ht : time = time') (hb : table = table') :
    Cert.Spec.out y x ids time table = Cert.Spec.out y' x' ids' time' table' := by
  subst hy hx hi ht hb; rfl

/-- A range that holds of every identifier holds of every identifier of an equal array. -/
theorem range_of_eq {ids ids' : (⟨1, ![4096]⟩ : Shape).Idx → BitVec 32} (e : ids' = ids)
    (h : ∀ b, 0 ≤ (ids b).toInt ∧ (ids b).toInt ≤ 999) : ∀ b, 0 ≤ (ids' b).toInt ∧ (ids' b).toInt ≤ 999 := by
  subst e; exact h

/-! ## What the claims take of the two programs -/

/-- The kernel's run: under the identifiers' range, the result at the assembled function of the launch memory and the
    arguments unchanged. -/
abbrev KernelRun : Prop :=
  ∀ (m : (ℓ : Loc Cert.KernelIdeal.nD Cert.KernelIdeal.τ Cert.KernelIdeal.sig) → Buf (Elt Ideal) ℓ)
    (ρ : Dev Cert.KernelIdeal.nD → PrngReg),
    (∀ (d : Dev Cert.KernelIdeal.nD) (b : Cert.KernelIdeal.S4096.Idx), (m (idLoc d) b).toNat < 1000) →
    θ_run (Cert.KernelIdeal.defs (F := Ideal)) (Cert.KernelIdeal.threads (F := Ideal)) ⟨m, fun _ => 0, ρ⟩ (QC m)

/-- The reference's run: the result at the reference's own term of the launch memory, the arguments unchanged. -/
abbrev ReferenceRun : Prop :=
  ∀ (m' : (ℓ : Loc Cert.ReferenceIdeal.nD Cert.ReferenceIdeal.τ Cert.ReferenceIdeal.sig) → Buf (Elt Ideal) ℓ)
    (g' : Dev Cert.ReferenceIdeal.nD → PrngReg),
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v7) =
          Cert.ReferenceIdeal.HandRun.refOut (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

/-- The reference's value: with every identifier in [0, 999], its term is the specified result. -/
abbrev ReferenceValue : Prop :=
  ∀ (a0 a1 : FVec Ideal Cert.ReferenceIdeal.S4096x1x8 .f32) (a2 : IVec Cert.ReferenceIdeal.S4096 32)
    (a3 : FVec Ideal Cert.ReferenceIdeal.S4096x50x8 .f32) (a4 : FVec Ideal Cert.ReferenceIdeal.S1000x64 .f32),
    (∀ b : Cert.ReferenceIdeal.S4096.Idx, 0 ≤ (a2 b).toInt ∧ (a2 b).toInt ≤ 999) →
    Cert.ReferenceIdeal.HandRun.refOut (F := Ideal) a0 a1 a2 a3 a4 = Cert.Spec.out (F := Ideal) a0 a1 a2 a3 a4

/-! ## The claims -/

/-- The precondition gives the identifiers' range on the kernel's side. -/
theorem hin_of_pre (m : (ℓ : Loc Cert.KernelIdeal.nD Cert.KernelIdeal.τ Cert.KernelIdeal.sig) → Buf (Elt Ideal) ℓ)
    (hpre : Cert.Pre_KernelIdeal m) (d : Dev Cert.KernelIdeal.nD) (b : Cert.KernelIdeal.S4096.Idx) :
    (m (idLoc d) b).toNat < 1000 :=
  Cert.PreIds.ids_lt _ _ _ _ _ (hpre d) b

/-- The kernel at the ideal instance runs and leaves its arguments unchanged. -/
theorem frame_KernelIdeal (hrun : KernelRun) : Cert.frame_KernelIdeal := by
  intro m g hpre
  refine (θ_run _ _ _).mono (fun r h c => ?_) (hrun m g (hin_of_pre m hpre))
  obtain ⟨h5, h0, h1, h2, h3, h4⟩ := h c
  exact ⟨h0, h1, h2, h3, h4⟩

/-- The reference runs and leaves its arguments unchanged. -/
theorem frame_ReferenceIdeal (href : ReferenceRun) : Cert.frame_ReferenceIdeal := by
  intro m' g' hpre
  exact (θ_run _ _ _).mono (fun r h c => (h c).2) (href m' g')

/-- The idealization rewrote no operation. -/
theorem preserves : Cert.preserves_Kernel_KernelIdeal := trivial

/-- From memories that agree on the arguments, the kernel and the reference end with equal results. -/
theorem algebraic (hrun : KernelRun) (href : ReferenceRun) (hval : ReferenceValue) :
    Cert.algebraic_KernelIdeal_ReferenceIdeal := by
  intro m g m' g' hpre hagree
  refine ⟨fun c => outV m c, ?_, ?_⟩
  · refine (θ_run _ _ _).mono (fun r h c => ?_) (hrun m g (hin_of_pre m hpre))
    obtain ⟨h5, h0, h1, h2, h3, h4⟩ := h c
    exact ⟨h5, h0, h1, h2, h3, h4⟩
  · refine (θ_run _ _ _).mono (fun r h c => ?_) (href m' g')
    obtain ⟨h7, h0, h1, h2, h3, h4⟩ := h c
    obtain ⟨e0, e1, e2, e3, e4⟩ := hagree c
    refine ⟨?_, h0, h1, h2, h3, h4⟩
    have hr := range_of_eq e2 (fun b => Cert.PreIds.ids_toInt _ _ _ _ _ (hpre c) b)
    exact h7.trans ((hval _ _ _ _ _ hr).trans ((out_congr e0 e1 e2 e3 e4).trans (outV_eq_spec m c).symm))

end Cert.Claims

end
-- ==== Proof.WSetup.lean ====
/-
  The kernel program as the SparseCore launch theorem reads it, and the ghost-state algebra every part of the
  kernel's run is stated over: the launch handshakes' rounds, the TensorCore pipeline's staging rounds, and the
  counters of the vector subcores' own transfers, side by side in one product.
-/
import proofs.«208745_g22711787061521_fold_wed_m_611_20_alg».proof.Kernel
import proofs.«208745_g22711787061521_fold_wed_m_611_20_alg».proof.Proof.Gen.Kernel
import proofs.«208745_g22711787061521_fold_wed_m_611_20_alg».proof.Proof.Gen.Kernel.Skeleton
import proofs.«208745_g22711787061521_fold_wed_m_611_20_alg».proof.Proof.Gen.Kernel.Launch
import proofs.«208745_g22711787061521_fold_wed_m_611_20_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipeline's staging cells' rounds. -/
abbrev UP : Type := URounds (GSem nD τ sig) Unit
/-- Handshakes, staging cells, and the transfers' counters (found by instance in the right factor). -/
abbrev UU : Type := UH × (UP × Counters)

abbrev MM (F : FTy → Type) : Type := MT nD τ sig (HIx 1) (Elt F) ℕ UU ℕ

abbrev EH : Emb UH (MM F) := embL
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MM F)).LandsIn (upEmb : UEmb _ (MM F)) := by unfold EP; infer_instance

end Cert.Kernel.Setup

end
-- ==== Proof.WShared.lean ====
/-
  Shared vocabulary of the kernel's run: the arrays' locations, the memrefs a vector subcore's task is called
  with, the block of the gathered array a task writes (rows [128·(2s+c), +128) for subcore s of SparseCore c, spelt
  through the printed offset function), the array of gathered rows as ONE function of the table and the indices,
  and the read shares the tasks hold of the arrays they all read.
-/
import proofs.«208745_g22711787061521_fold_wed_m_611_20_alg».proof.Proof.WSetup
import proofs.«208745_g22711787061521_fold_wed_m_611_20_alg».proof.Proof.Spec
import Idealize.ShloMosaic.Lib.Transfers
import Idealize.ShloMosaic.Lib.ValueIdx

noncomputable section

namespace Cert.Kernel.Setup

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- The padded table, the indices, the gathered rows, as locations of device `d`. -/
abbrev tbLoc (d : Dev nD) : Loc nD τ sig := (SparseCore.T d).loc main_v3
abbrev idLoc (d : Dev nD) : Loc nD τ sig := (SparseCore.T d).loc main_arg2
abbrev gaLoc (d : Dev nD) : Loc nD τ sig := (SparseCore.T d).loc main_v4

/-- The memrefs the body table calls a task with. -/
abbrev tbW : Memref sig .scVector .hbm S1000x128 .f32 := Memref.whole main_v3_scv
abbrev idW : Memref sig .scVector .hbm S4096 .i32 := Memref.whole main_arg2_scv
abbrev gaW : Memref sig .scVector .hbm S4096x128 .f32 := Memref.whole main_v4_scv
abbrev sIdx : Memref sig .scVector .vmem S128 .i32 := Memref.whole cc0_scratch0
abbrev sRows : Memref sig .scVector .vmem S128x128 .f32 := Memref.whole cc0_scratch1

/-- The processor a grid point of the SparseCore kernel names. -/
abbrev cV (L : grid0.Coords) : Fin τ.nSC := (L 0).castLE hcore0
abbrev jV (L : grid0.Coords) : Fin τ.nSub := (L 1).castLE hsub0
def coordsV (c : Fin (grid0.bound 0)) (s : Fin (grid0.bound 1)) : grid0.Coords :=
  fun | 0 => c | 1 => s | ⟨_ + 2, h⟩ => absurd h (Nat.not_lt.2 (Nat.le_add_left _ _))

/-- The block of the gathered array the task at `L` writes, as the program slices it. -/
abbrev gaK (L : grid0.Coords) : Memref sig .scVector .hbm S128x128 .f32 :=
  (gaW).slice (Rect.unit (s := S4096x128) (k0_off2 L) S128x128.size (k0_off2_inb L)) (fun _ => rfl)
abbrev gaSet (L : grid0.Coords) : Finset S4096x128.Idx := (gaK L).view.set
/-- The indices' slice the task at `L` fetches, as the program slices it. -/
abbrev idK (L : grid0.Coords) : Memref sig .scVector .hbm S128 .i32 :=
  (idW).slice (Rect.unit (s := S4096) (k0_off1 L) S128.size (k0_off1_inb L)) (fun _ => rfl)

/-- The gathered array as one function of the (padded) table's contents and the indices: row `r` is the table's row
    `ids r` (read through `Cert.Spec.row`, which is the index itself when it is below 1000). -/
def gath (tb : S1000x128.Idx → F .f32) (ids : S4096.Idx → BitVec 32) : S4096x128.Idx → F .f32 :=
  fun j => tb (ix2 (Cert.Spec.row (ids (ix1 (j 0)))) (j 1))

/-- What the assembling call writes, as one function of the four arrays it reads (the two coordinate features `a0`,
    `a1`, the gathered rows `a4`, the time features laid out 400 to a row `a2`): entry (b, t, j) is 1 for j < 8, then
    `a0 (b, j-8)`, `a1 (b, j-16)`, the first 64 columns of `a4`'s row b, and `a2 (b, 8t + (j-88))`. -/
def asmAt (a0 a1 : S4096x8.Idx → F .f32) (a4 : S4096x128.Idx → F .f32) (a2 : S4096x400.Idx → F .f32) [FloatOps F]
    (b : Fin 4096) (t : Fin 50) (j : Fin 96) : F .f32 :=
  if h8 : j.val < 8 then Cert.Spec.one
  else if h16 : j.val < 16 then a0 (ix2 b (⟨j.val - 8, by omega⟩ : Fin 8))
  else if h24 : j.val < 24 then a1 (ix2 b (⟨j.val - 16, by omega⟩ : Fin 8))
  else if h88 : j.val < 88 then a4 (ix2 b (⟨j.val - 24, by omega⟩ : Fin 128))
  else a2 (ix2 b (⟨8 * t.val + (j.val - 88), by omega⟩ : Fin 400))
def asm (a0 a1 : S4096x8.Idx → F .f32) (a4 : S4096x128.Idx → F .f32) (a2 : S4096x400.Idx → F .f32) [FloatOps F] :
    S4096x50x96.Idx → F .f32 :=
  fun i => asmAt a0 a1 a4 a2 (i 0) (i 1) (i 2)

/-- The read share of an array every task reads, for subcore `i` of SparseCore `c`: the whole array's full
    share dealt first among the two SparseCores, then among a SparseCore's sixteen subcores. -/
abbrev qSC (c : Fin 2) : PosShare TreeShare := Transfers.shareTok fullShare 2 c
abbrev qTile (c : Fin 2) (i : Fin 16) : PosShare TreeShare := Transfers.shareTok (qSC c) 16 i

end Cert.Kernel.Setup

end
-- ==== Proof.WPay.lean ====
/-
  What the launch handshakes of the one SparseCore call carry. The TensorCore hands each SparseCore a read share of
  the padded table and of the index array (whole arrays, read by every task) and the sixteen 128-row blocks of the
  gathered array its subcores write; a sequencer hands each subcore a read share of both and its own block; each
  comes back with the block holding the table's rows at the block's indices, stated through the ONE whole-array
  function `gath`.
-/
import proofs.«208745_g22711787061521_fold_wed_m_611_20_alg».proof.Proof.WShared

noncomputable section

namespace Cert.Kernel.Setup

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (m : (ℓ : Loc nD τ sig) → Buf (Elt F) ℓ) [FloatOps F]

/-- The embedding table as launched. -/
abbrev a4Loc (d : Dev nD) : Loc nD τ sig := (SparseCore.T d).loc main_arg4

/-- The padded table's contents when the SparseCore call starts: the launch table with 64 columns of the converted
    integer zero appended to every row. -/
def tbV (d : Dev nD) : Buf (Elt F) (tbLoc d) :=
  pad S1000x128 ![0, 0] ![0, 64] ![0, 0] (m (a4Loc d)) (sitofp .f32 (constantI S_ 32 0#32)) Facts₀.pads_S1000x64_S1000x128_000_0640 Facts₀.h_S_

/-- The gathered array after the call. -/
def gaV (d : Dev nD) : Buf (Elt F) (gaLoc d) := gath (tbV m d) (m (idLoc d))

/-- The grid point of subcore `i` of SparseCore `c`. -/
abbrev Lof (c : Fin 2) (i : Fin 16) : grid0.Coords := coordsV c i

/-- A task's holdings: a read share of the table and of the indices, its block of the gathered array at `f`. -/
abbrev tilePts (d : Dev nD) (c : Fin 2) (i : Fin 16) (f : Buf (Elt F) (gaLoc d)) : sProp 𝕄 :=
  iprop((tbLoc d ↦{qTile c i} tbV m d) ∗ (idLoc d ↦{qTile c i} m (idLoc d)) ∗ (gaLoc d ↦[gaSet (Lof c i)]{fullShare} f))
/-- A SparseCore's holdings: a read share of both arrays, its sixteen blocks at `f`. -/
abbrev corePts (d : Dev nD) (c : Fin 2) (f : Buf (Elt F) (gaLoc d)) : sProp 𝕄 :=
  iprop((tbLoc d ↦{qSC c} tbV m d) ∗ (idLoc d ↦{qSC c} m (idLoc d)) ∗ bigSep Finset.univ fun i : Fin 16 => gaLoc d ↦[gaSet (Lof c i)]{fullShare} f)

def P : (K (F := F)).Pay (nD := nD) (Val := Elt F) (Name := ℕ) (U := UU) where
  st := fun q d c => match q with | 0 => corePts m d (Fin.cast nCore_zero c) (m (gaLoc d))
  dn := fun q d c => match q with | 0 => corePts m d (Fin.cast nCore_zero c) (gaV m d)
  go := fun q d c i => match q with | 0 => tilePts m d (Fin.cast nCore_zero c) (Fin.cast nSub_zero i) (m (gaLoc d))
  td := fun q d c i => match q with | 0 => tilePts m d (Fin.cast nCore_zero c) (Fin.cast nSub_zero i) (gaV m d)
  x := fun _ _ => iprop(emp)

instance P_storable : (P (F := F) m).IsStorable where
  st q d c := match q with
    | 0 => (inferInstance : BI.Storable (upEmb : UEmb _ 𝕄) (corePts m d (Fin.cast nCore_zero c) (m (gaLoc d))))
  dn q d c := match q with
    | 0 => (inferInstance : BI.Storable (upEmb : UEmb _ 𝕄) (corePts m d (Fin.cast nCore_zero c) (gaV m d)))
  go q d c i := match q with
    | 0 => (inferInstance : BI.Storable (upEmb : UEmb _ 𝕄) (tilePts m d (Fin.cast nCore_zero c) (Fin.cast nSub_zero i) (m (gaLoc d))))
  td q d c i := match q with
    | 0 => (inferInstance : BI.Storable (upEmb : UEmb _ 𝕄) (tilePts m d (Fin.cast nCore_zero c) (Fin.cast nSub_zero i) (gaV m d)))

end Cert.Kernel.Setup

end
-- ==== Proof.WSplit.lean ====
/-
  How the arrays divide among the tasks. The gathered array's 4096 rows are cut into 32 blocks of 128 rows; the task on
  subcore `i` of SparseCore `c` writes block `2i + c`, so the 2 × 16 tasks' blocks are pairwise disjoint and cover the
  array. The table and the indices are only read: their full share is dealt as read shares, first to the two
  SparseCores, then by each sequencer to its sixteen subcores, and joined back on the way out.
-/
import proofs.«208745_g22711787061521_fold_wed_m_611_20_alg».proof.Proof.WPay

noncomputable section

namespace Cert.Kernel.Setup

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## The blocks -/

theorem hdiv32 : 32 ∣ S4096x128.size 0 := ⟨128, rfl⟩
abbrev blk (j : Fin 32) : Rect S4096x128 := Rect.part (s := S4096x128) (a₀ := 0) hdiv32 j

/-- The number of the block the task at grid point `L` writes: twice the subcore plus the SparseCore. -/
def blkOf (L : grid0.Coords) : Fin 32 :=
  ⟨2 * (L 1).val + (L 0).val, by
    have h0 : (L 0).val < 2 := (L 0).isLt
    have h1 : (L 1).val < 16 := (L 1).isLt
    omega⟩

theorem rect_eq (L : grid0.Coords) :
    Rect.unit (s := S4096x128) (k0_off2 L) S128x128.size (k0_off2_inb L) = blk (blkOf L) := by
  unfold blk Rect.part Rect.block
  congr 1 <;> funext a
  · rw [k0_off2_eq]
    match a with
    | 0 => simp [Shape.partIx, Shape.partSize, blkOf]; omega
    | 1 => simp [Shape.partIx, Shape.partSize]
  · match a with
    | 0 => simp [Shape.partSize]
    | 1 => simp [Shape.partSize]

theorem gaSet_eq (L : grid0.Coords) : gaSet L = (blk (blkOf L)).set := by
  show ((View.whole (main_v4_scv : Ref sig .scVector)).slice (Rect.unit (s := S4096x128) (k0_off2 L) S128x128.size (k0_off2_inb L))).set = _
  rw [View.set_slice_whole, rect_eq]

theorem blkOf_Lof (c : Fin 2) (i : Fin 16) : (blkOf (Lof c i)).val = 2 * i.val + c.val := rfl

theorem blkOf_inj {p p' : Fin 2 × Fin 16} (h : blkOf (Lof p.1 p.2) = blkOf (Lof p'.1 p'.2)) : p = p' := by
  have e := congrArg Fin.val h
  rw [blkOf_Lof, blkOf_Lof] at e
  have h1 := p.1.isLt; have h2 := p'.1.isLt
  exact Prod.ext (Fin.ext (by omega)) (Fin.ext (by omega))

theorem blocks_disjoint : ∀ p ∈ (Finset.univ : Finset (Fin 2 × Fin 16)), ∀ p' ∈ (Finset.univ : Finset (Fin 2 × Fin 16)), p ≠ p' →
    Disjoint (gaSet (Lof p.1 p.2)) (gaSet (Lof p'.1 p'.2)) :=
  fun p _ p' _ h => by
    rw [gaSet_eq, gaSet_eq]
    exact Rect.part_disjoint hdiv32 fun e => h (blkOf_inj e)

theorem blocks_cover : (Finset.univ : Finset (Fin 2 × Fin 16)).biUnion (fun p => gaSet (Lof p.1 p.2)) = Finset.univ := by
  ext j
  simp only [Finset.mem_biUnion, Finset.mem_univ, true_and, iff_true]
  obtain ⟨b, hb⟩ := Rect.exists_mem_part hdiv32 j
  have hb32 : b.val < 32 := b.isLt
  refine ⟨(⟨b.val % 2, Nat.mod_lt _ (by omega)⟩, ⟨b.val / 2, by omega⟩), ?_⟩
  rw [gaSet_eq]
  have e : blkOf (Lof (⟨b.val % 2, Nat.mod_lt _ (by omega)⟩ : Fin 2) (⟨b.val / 2, by omega⟩ : Fin 16)) = b :=
    Fin.ext (by rw [blkOf_Lof]; show 2 * (b.val / 2) + b.val % 2 = b.val; omega)
  rw [e]; exact hb

/-- The gathered array held whole is its 2 × 16 blocks held. -/
theorem ga_blocks (d : Dev nD) (f : Buf (Elt F) (gaLoc d)) :
    (gaLoc d ↦{fullShare} f : sProp 𝕄)
      = bigSep Finset.univ fun c : Fin 2 => bigSep Finset.univ fun i : Fin 16 => gaLoc d ↦[gaSet (Lof c i)]{fullShare} f := by
  rw [← bigSep_univ_prod (fun p : Fin 2 × Fin 16 => (gaLoc d ↦[gaSet (Lof p.1 p.2)]{fullShare} f : sProp 𝕄)),
    ← pointsTo_biUnion Finset.univ (ℓ := gaLoc d) (fun p : Fin 2 × Fin 16 => gaSet (Lof p.1 p.2)) blocks_disjoint, blocks_cover]
  try rfl

/-! ## A sequencer's split among its subcores -/

variable (m : (ℓ : Loc nD τ sig) → Buf (Elt F) ℓ) [FloatOps F]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem core_split (d : Dev nD) (c : Fin 2) (f g : Buf (Elt F) (gaLoc d)) :
    corePts m d c f ⊢ |={Set.univ}=> iprop((bigSep Finset.univ fun i : Fin 16 => tilePts m d c i f)
      ∗ ((bigSep Finset.univ fun i : Fin 16 => tilePts m d c i g) -∗ corePts m d c g)) := by
  rw [bigSep_sep', bigSep_sep', bigSep_sep', bigSep_sep']
  iintro ⟨Ht, Hi, Hg⟩
  ihave Ht2 := (Transfers.pointsTo_toks_split (qSC c) 16) $$ Ht
  icases Ht2 with ⟨Htd, Htt⟩
  ihave Hi2 := (Transfers.pointsTo_toks_split (qSC c) 16) $$ Hi
  icases Hi2 with ⟨Hid, Hit⟩
  imodintro
  isplitl [Htt Hit Hg]
  · isplitl [Htt]; · iexact Htt
    isplitl [Hit]; · iexact Hit
    iexact Hg
  iintro ⟨Htt, Hit, Hg⟩
  isplitl [Htd Htt]
  · iapply (Transfers.pointsTo_toks_join (qSC c) 16)
    isplitl [Htd]; · iexact Htd
    iexact Htt
  isplitl [Hid Hit]
  · iapply (Transfers.pointsTo_toks_join (qSC c) 16)
    isplitl [Hid]; · iexact Hid
    iexact Hit
  iexact Hg

theorem vecSplit : (K (F := F)).VecSplit' (P m) 0 := by
  intro d c
  show corePts m d (Fin.cast nCore_zero c) (m (gaLoc d)) ⊢ |={Set.univ}=> iprop(
      (bigSep Finset.univ fun i : Fin ((K (F := F)).nSub 0) => tilePts m d (Fin.cast nCore_zero c) (Fin.cast nSub_zero i) (m (gaLoc d)))
      ∗ ((bigSep Finset.univ fun i : Fin ((K (F := F)).nSub 0) => tilePts m d (Fin.cast nCore_zero c) (Fin.cast nSub_zero i) (gaV m d))
          -∗ corePts m d (Fin.cast nCore_zero c) (gaV m d)))
  rw [bigSep_tasks (F := F) (fun i => tilePts m d (Fin.cast nCore_zero c) i (m (gaLoc d))),
    bigSep_tasks (F := F) (fun i => tilePts m d (Fin.cast nCore_zero c) i (gaV m d))]
  exact core_split m d _ _ _

end Cert.Kernel.Setup

end
-- ==== Proof.WValPay.lean ====
/-
  The value the assembling call stores, read at one index.

  The body builds a 512 x 50 x 96 block from four blocks it has loaded: a block of gathered rows (512 x 128), two
  blocks of coordinate features (512 x 8 each) and a block of time features laid out 400 to a row (512 x 400).  It
  joins, along the last axis, eight columns of the constant 1.0, the two feature blocks and the first 64 columns of
  the gathered rows into 88 columns; repeats those 88 columns for each of the 50 steps; and appends, for step t,
  the eight entries 8t .. 8t+7 of the time row.  So entry (p, t, j) of the block is

      1.0                      for  0 <= j <  8
      v4 (p, j - 8)            for  8 <= j < 16
      v6 (p, j - 16)           for 16 <= j < 24
      v1 (p, j - 24)           for 24 <= j < 88
      v12 (p, 8 t + (j - 88))  for 88 <= j < 96.

  Every operation involved only moves elements, so the statement holds for every float instance.
-/
import proofs.«208745_g22711787061521_fold_wed_m_611_20_alg».proof.Proof.WShared
import Idealize.ShloMosaic.Lib.Pipeline.Value
import Idealize.ShloMosaic.Lib.ValueLayout

noncomputable section

namespace Cert.Kernel.KVal

open Cert.Kernel Cert.Kernel.Gen Cert.Kernel.Setup

open Idealize.ShloMosaic Idealize.ShloMosaic.ValueIdx

variable {F : FTy → Type} [FloatOps F]

section Layout
variable {α : Type}

/-- Four pieces of widths 8, 8, 8, 64 joined along the columns, read at (p, c): the piece whose span holds c,
    at c less the widths before it. -/
theorem cat88_apply (x0 x1 x2 : S512x8.Idx → α) (x3 : S512x64.Idx → α)
    (h : Shape.Concatenates ([⟨S512x8, x0⟩, ⟨S512x8, x1⟩, ⟨S512x8, x2⟩, ⟨S512x64, x3⟩].map
      (fun q : (s : Shape) × (s.Idx → α) => q.1)) S512x88 1)
    (p : Fin 512) (c : Fin 88) :
    concatenate S512x88 1 [⟨S512x8, x0⟩, ⟨S512x8, x1⟩, ⟨S512x8, x2⟩, ⟨S512x64, x3⟩] h (ix2 p c) =
      if h8 : c.val < 8 then x0 (ix2 p (⟨c.val, h8⟩ : Fin 8))
      else if h16 : c.val < 16 then x1 (ix2 p (⟨c.val - 8, by omega⟩ : Fin 8))
      else if h24 : c.val < 24 then x2 (ix2 p (⟨c.val - 16, by omega⟩ : Fin 8))
      else x3 (ix2 p (⟨c.val - 24, by omega⟩ : Fin 64)) := by
  by_cases h8 : c.val < 8
  · rw [dif_pos h8]
    refine concatenate_apply_piece (1 : Fin 2) _ h (ix2 p c) 0 (by show (0 : Nat) < 4; omega) S512x8 x0 rfl rfl 0 rfl
      (ix2 p (⟨c.val, h8⟩ : Fin 8)) ?_ ?_
    · intro b; match b with
      | ⟨0, _⟩ => intro _; rfl
      | ⟨1, _⟩ => intro hb; exact absurd rfl hb
    · show 0 + c.val = c.val; omega
  rw [dif_neg h8]
  by_cases h16 : c.val < 16
  · rw [dif_pos h16]
    refine concatenate_apply_piece (1 : Fin 2) _ h (ix2 p c) 1 (by show (1 : Nat) < 4; omega) S512x8 x1 rfl rfl 8 rfl
      (ix2 p (⟨c.val - 8, by omega⟩ : Fin 8)) ?_ ?_
    · intro b; match b with
      | ⟨0, _⟩ => intro _; rfl
      | ⟨1, _⟩ => intro hb; exact absurd rfl hb
    · show 8 + (c.val - 8) = c.val; omega
  rw [dif_neg h16]
  by_cases h24 : c.val < 24
  · rw [dif_pos h24]
    refine concatenate_apply_piece (1 : Fin 2) _ h (ix2 p c) 2 (by show (2 : Nat) < 4; omega) S512x8 x2 rfl rfl 16 rfl
      (ix2 p (⟨c.val - 16, by omega⟩ : Fin 8)) ?_ ?_
    · intro b; match b with
      | ⟨0, _⟩ => intro _; rfl
      | ⟨1, _⟩ => intro hb; exact absurd rfl hb
    · show 16 + (c.val - 16) = c.val; omega
  rw [dif_neg h24]
  have hc : c.val < 88 := c.isLt
  refine concatenate_apply_piece (1 : Fin 2) _ h (ix2 p c) 3 (by show (3 : Nat) < 4; omega) S512x64 x3 rfl rfl 24 rfl
    (ix2 p (⟨c.val - 24, by omega⟩ : Fin 64)) ?_ ?_
  · intro b; match b with
    | ⟨0, _⟩ => intro _; rfl
    | ⟨1, _⟩ => intro hb; exact absurd rfl hb
  · show 24 + (c.val - 24) = c.val; omega

/-- Two pieces of depths 88 and 8 joined along the last axis, read at (p, t, j). -/
theorem cat96_apply (x0 : S512x50x88.Idx → α) (x1 : S512x50x8.Idx → α)
    (h : Shape.Concatenates [S512x50x88, S512x50x8] S512x50x96 2) (p : Fin 512) (t : Fin 50) (j : Fin 96) :
    concatenate S512x50x96 2 [⟨S512x50x88, x0⟩, ⟨S512x50x8, x1⟩] h (ix3 p t j) =
      if h88 : j.val < 88 then x0 (ix3 p t (⟨j.val, h88⟩ : Fin 88))
      else x1 (ix3 p t (⟨j.val - 88, by omega⟩ : Fin 8)) := by
  by_cases h88 : j.val < 88
  · rw [dif_pos h88]
    refine concatenate_pair_apply_left (2 : Fin 3) x0 x1 h (ix3 p t j) rfl (ix3 p t (⟨j.val, h88⟩ : Fin 88)) ?_
    intro b; match b with
    | ⟨0, _⟩ => rfl
    | ⟨1, _⟩ => rfl
    | ⟨2, _⟩ => rfl
  · rw [dif_neg h88]
    have hj : j.val < 96 := j.isLt
    refine concatenate_pair_apply_right (2 : Fin 3) x0 x1 h (ix3 p t j) rfl rfl
      (ix3 p t (⟨j.val - 88, by omega⟩ : Fin 8)) ?_ ?_
    · intro b; match b with
      | ⟨0, _⟩ => intro _; rfl
      | ⟨1, _⟩ => intro _; rfl
      | ⟨2, _⟩ => intro hb; exact absurd rfl hb
    · show (j.val - 88) + 88 = j.val; omega

/-- A 512 x 88 array given a unit middle axis and repeated along it 50 times reads, at (p, t, c), the array at (p, c). -/
theorem rep50_apply (x : S512x88.Idx → α) (h1 : S512x88.ShapeCasts S512x1x88) (h2 : S512x1x88.ShapeCasts S512x1x88)
    (h3 : S512x1x88.Broadcasts S512x50x88) (p : Fin 512) (t : Fin 50) (c : Fin 88) :
    broadcastTo S512x50x88 (shapeCast S512x1x88 (shapeCast S512x1x88 x h1) h2) h3 (ix3 p t c) = x (ix2 p c) := by
  rw [shapeCast_self]
  refine (broadcastTo_apply _ h3 (ix3 p t c) (ix3 p (0 : Fin 1) c) ?_).trans ?_
  · intro a; match a with
    | ⟨0, _⟩ => rfl
    | ⟨1, _⟩ => rfl
    | ⟨2, _⟩ => rfl
  · refine shapeCast_apply x h1 _ (ix2 p c) ?_
    rw [Shape.rowMajor_val_two, Shape.rowMajor_val_three]
    show p.val * 88 + c.val = (p.val * 1 + 0) * 88 + c.val
    omega

/-- A 512 x 400 array read as 512 x 50 x 8 has, at (p, t, e), the array's entry (p, 8 t + e). -/
theorem split400_apply (x : S512x400.Idx → α) (h1 : S512x400.ShapeCasts S512x400) (h2 : S512x400.ShapeCasts S512x50x8)
    (p : Fin 512) (t : Fin 50) (e : Fin 8) :
    shapeCast S512x50x8 (shapeCast S512x400 x h1) h2 (ix3 p t e) =
      x (ix2 p (⟨8 * t.val + e.val, by omega⟩ : Fin 400)) := by
  rw [shapeCast_self]
  refine shapeCast_apply x h2 _ _ ?_
  rw [Shape.rowMajor_val_two, Shape.rowMajor_val_three]
  show p.val * 400 + (8 * t.val + e.val) = (p.val * 50 + t.val) * 8 + e.val
  omega

/-- The first 64 columns of a 512 x 128 array, read at (p, c). -/
theorem first64_apply (x : S512x128.Idx → α) (h1 : S512x128.ShapeCasts S512x128)
    (h2 : S512x128.Slices ![0, 0] S512x64) (p : Fin 512) (c : Fin 64) :
    extractStridedSlice S512x64 ![0, 0] (shapeCast S512x128 x h1) h2 (ix2 p c) =
      x (ix2 p (⟨c.val, by omega⟩ : Fin 128)) := by
  rw [shapeCast_self]
  refine extractStridedSlice_apply _ x h2 (ix2 p c) _ ?_
  intro a; match a with
  | ⟨0, _⟩ => show p.val = 0 + p.val; omega
  | ⟨1, _⟩ => show c.val = 0 + c.val; omega

end Layout

/-- **The stored block at (p, t, j)**: the constant 1.0 in the first eight columns, then the two feature blocks, the
    first 64 columns of the gathered rows, and entries 8 t .. 8 t + 7 of the time row. -/
theorem k1_pay1_apply (v1 : Vec F S512x128 .f32) (v4 v6 : Vec F S512x8 .f32) (v12 : Vec F S512x400 .f32)
    (p : Fin 512) (t : Fin 50) (j : Fin 96) :
    k1_pay1 v1 v4 v6 v12 (ix3 p t j) =
      if h8 : j.val < 8 then Cert.Spec.one
      else if h16 : j.val < 16 then v4 (ix2 p (⟨j.val - 8, by omega⟩ : Fin 8))
      else if h24 : j.val < 24 then v6 (ix2 p (⟨j.val - 16, by omega⟩ : Fin 8))
      else if h88 : j.val < 88 then v1 (ix2 p (⟨j.val - 24, by omega⟩ : Fin 128))
      else v12 (ix2 p (⟨8 * t.val + (j.val - 88), by omega⟩ : Fin 400)) := by
  unfold k1_pay1
  rw [cat96_apply]
  by_cases h88 : j.val < 88
  · rw [dif_pos h88, rep50_apply, cat88_apply]
    by_cases h8 : j.val < 8
    · rw [dif_pos h8, dif_pos h8]; rfl
    rw [dif_neg h8, dif_neg h8]
    by_cases h16 : j.val < 16
    · rw [dif_pos h16, dif_pos h16, shapeCast_self]
    rw [dif_neg h16, dif_neg h16]
    by_cases h24 : j.val < 24
    · rw [dif_pos h24, dif_pos h24, shapeCast_self]
    rw [dif_neg h24, dif_neg h24, dif_pos h88, first64_apply]
  · rw [dif_neg h88, dif_neg (by omega), dif_neg (by omega), dif_neg (by omega), dif_neg h88, split400_apply]

end Cert.Kernel.KVal

end
-- ==== Proof.WValHost.lean ====
/-
  The operations the program's entry function performs on the host before the two device calls, read at an index.

  Three of them only re-index: the two coordinate-feature arrays lose their unit middle axis, (b, 0, k) becoming
  (b, k); the time features are laid out 400 to a row, (b, t, e) becoming (b, 8 t + e).  The fourth widens the table
  from 64 to 128 columns by appending 64 columns of a padding value; the first 64 columns of every row are the
  table's own.

  Each statement is about the very term the program applies (a row-major re-indexing, or a padding with low
  padding (0, 0), high padding (0, 64) and no interior padding), for any proof of its side condition.
-/
import proofs.«208745_g22711787061521_fold_wed_m_611_20_alg».proof.Proof.WShared
import Idealize.ShloMosaic.Lib.Pipeline.Value
import Idealize.ShloMosaic.Lib.KernelVsHost

noncomputable section

namespace Cert.Kernel.KVal

open Cert.Kernel Cert.Kernel.Gen Cert.Kernel.Setup

open Idealize.ShloMosaic Idealize.ShloMosaic.ValueIdx

variable {F : FTy → Type}

/-! ## The three host values, as the program computes them -/

/-- A 4096 x 1 x 8 array without its unit axis. -/
abbrev flat8 (a : S4096x1x8.Idx → F .f32) : S4096x8.Idx → F .f32 :=
  shapeCast S4096x8 a shapeCasts_S4096x1x8_S4096x8

/-- A 4096 x 50 x 8 array laid out 400 to a row. -/
abbrev flat400 (a : S4096x50x8.Idx → F .f32) : S4096x400.Idx → F .f32 :=
  shapeCast S4096x400 a shapeCasts_S4096x50x8_S4096x400

/-- The table widened to 128 columns by 64 columns of the padding value `z`. -/
abbrev padTb (tb : S1000x64.Idx → F .f32) (z : S_.Idx → F .f32) : S1000x128.Idx → F .f32 :=
  pad S1000x128 ![0, 0] ![0, 64] ![0, 0] tb z pads_S1000x64_S1000x128_000_0640 h_S_

/-! ## Read at an index -/

section ReadAt
variable {α : Type}

/-- Dropping the unit middle axis: entry (b, k) is the operand's entry (b, 0, k). -/
theorem reshape8_apply (a : S4096x1x8.Idx → α) (h : S4096x1x8.ShapeCasts S4096x8) (b : Fin 4096) (k : Fin 8) :
    shapeCast S4096x8 a h (ix2 b k) = a (ix3 b (0 : Fin 1) k) :=
  shapeCast_apply a h _ _ (by
    rw [Shape.rowMajor_val_three, Shape.rowMajor_val_two]
    show (b.val * 1 + 0) * 8 + k.val = b.val * 8 + k.val
    omega)

/-- Laying the last two axes out in one row of 400: entry (b, 8 t + e) is the operand's entry (b, t, e). -/
theorem reshape400_apply (a : S4096x50x8.Idx → α) (h : S4096x50x8.ShapeCasts S4096x400)
    (b : Fin 4096) (t : Fin 50) (e : Fin 8) :
    shapeCast S4096x400 a h (ix2 b (⟨8 * t.val + e.val, by omega⟩ : Fin 400)) = a (ix3 b t e) :=
  shapeCast_apply a h _ _ (by
    rw [Shape.rowMajor_val_three, Shape.rowMajor_val_two]
    show (b.val * 50 + t.val) * 8 + e.val = b.val * 400 + (8 * t.val + e.val)
    omega)

/-- The same, for any column m of the row: it is the operand's entry (b, m / 8, m % 8). -/
theorem reshape400_apply' (a : S4096x50x8.Idx → α) (h : S4096x50x8.ShapeCasts S4096x400)
    (b : Fin 4096) (m : Fin 400) :
    shapeCast S4096x400 a h (ix2 b m) =
      a (ix3 b (⟨m.val / 8, by omega⟩ : Fin 50) (⟨m.val % 8, by omega⟩ : Fin 8)) :=
  shapeCast_apply a h _ _ (by
    rw [Shape.rowMajor_val_three, Shape.rowMajor_val_two]
    show (b.val * 50 + m.val / 8) * 8 + m.val % 8 = b.val * 400 + m.val
    omega)

/-- Widening by 64 columns on the right: in the first 64 columns the widened table is the table. -/
theorem pad64_apply (tb : S1000x64.Idx → α) {u : Shape} (z : u.Idx → α)
    (h : S1000x64.Pads (![0, 0] : Fin 2 → Nat) ![0, 64] ![0, 0] S1000x128) (hu : 0 < u.numel)
    (r : Fin 1000) (c : Fin 128) (hc : c.val < 64) :
    pad S1000x128 ![0, 0] ![0, 64] ![0, 0] tb z h hu (ix2 r c) = tb (ix2 r (⟨c.val, hc⟩ : Fin 64)) :=
  pad_apply_of_inside _ _ _ tb z h hu (ix2 r c) (ix2 r (⟨c.val, hc⟩ : Fin 64)) (fun a => match a with
    | ⟨0, _⟩ => by show r.val = 0 + r.val * (0 + 1); omega
    | ⟨1, _⟩ => by show c.val = 0 + c.val * (0 + 1); omega)

/-- In the last 64 columns the widened table is the padding value. -/
theorem pad64_apply_ge (tb : S1000x64.Idx → α) {u : Shape} (z : u.Idx → α)
    (h : S1000x64.Pads (![0, 0] : Fin 2 → Nat) ![0, 64] ![0, 0] S1000x128) (hu : 0 < u.numel)
    (r : Fin 1000) (c : Fin 128) (hc : 64 ≤ c.val) :
    pad S1000x128 ![0, 0] ![0, 64] ![0, 0] tb z h hu (ix2 r c) = z (Shape.Idx.first hu) :=
  pad_apply_of_not_inside _ _ _ tb z h hu (ix2 r c) (1 : Fin 2) (by
    show ¬(0 ≤ c.val ∧ (c.val - 0) % (0 + 1) = 0 ∧ (c.val - 0) / (0 + 1) < 64)
    omega)

end ReadAt

/-! ## The same, for the three named host values -/

theorem flat8_apply (a : S4096x1x8.Idx → F .f32) (b : Fin 4096) (k : Fin 8) :
    flat8 a (ix2 b k) = a (ix3 b (0 : Fin 1) k) := reshape8_apply a _ b k

theorem flat400_apply (a : S4096x50x8.Idx → F .f32) (b : Fin 4096) (t : Fin 50) (e : Fin 8) :
    flat400 a (ix2 b (⟨8 * t.val + e.val, by omega⟩ : Fin 400)) = a (ix3 b t e) := reshape400_apply a _ b t e

theorem padTb_apply (tb : S1000x64.Idx → F .f32) (z : S_.Idx → F .f32) (r : Fin 1000) (c : Fin 128) (hc : c.val < 64) :
    padTb tb z (ix2 r c) = tb (ix2 r (⟨c.val, hc⟩ : Fin 64)) := pad64_apply tb z _ _ r c hc

end Cert.Kernel.KVal

end
-- ==== Proof.WValBridge.lean ====
/-
  The assembled array is the specified one.

  Fed with the host's re-indexed feature arrays, the rows gathered from the widened table and the re-laid time
  features, the assembling call's result agrees entry by entry with the specification: the two differ only in how
  the entries are addressed.  For (b, t, j):

     j < 8         both are the constant 1.0;
     8 <= j < 16   entry (b, j - 8) of y without its unit axis is y (b, 0, j - 8); the same for x on 16 <= j < 24;
     24 <= j < 88  the gathered row b is row `row (ids b)` of the widened table, whose column j - 24 < 64 is the
                   table's own;
     88 <= j       entry (b, 8 t + (j - 88)) of the re-laid time features is time (b, t, j - 88).

  The row of the table is named by the same function on both sides, so no bound on the identifiers is needed here.
-/
import proofs.«208745_g22711787061521_fold_wed_m_611_20_alg».proof.Proof.WValPay
import proofs.«208745_g22711787061521_fold_wed_m_611_20_alg».proof.Proof.WValHost

noncomputable section

namespace Cert.Kernel.KVal

open Cert.Kernel Cert.Kernel.Gen Cert.Kernel.Setup

open Idealize.ShloMosaic Idealize.ShloMosaic.ValueIdx

variable {F : FTy → Type} [FloatOps F]

/-- The gathered array at (b, c): the table's row `row (ids b)`, column c. -/
theorem gath_apply (tb : S1000x128.Idx → F .f32) (ids : S4096.Idx → BitVec 32) (b : Fin 4096) (c : Fin 128) :
    Setup.gath tb ids (ix2 b c) = tb (ix2 (Cert.Spec.row (ids (ix1 b))) c) := rfl

/-- The assembled array at (b, t, j). -/
theorem asm_ix3 (a0 a1 : S4096x8.Idx → F .f32) (a4 : S4096x128.Idx → F .f32) (a2 : S4096x400.Idx → F .f32)
    (b : Fin 4096) (t : Fin 50) (j : Fin 96) :
    Setup.asm a0 a1 a4 a2 (ix3 b t j) = Setup.asmAt a0 a1 a4 a2 b t j := rfl

/-- **The assembled array is the specified one.** -/
theorem asm_eq_out (y x : (⟨⟨3, ![4096, 1, 8]⟩, .f32⟩ : BufTy).Contents (Elt F))
    (ids : (⟨⟨1, ![4096]⟩, .i32⟩ : BufTy).Contents (Elt F))
    (time : (⟨⟨3, ![4096, 50, 8]⟩, .f32⟩ : BufTy).Contents (Elt F))
    (table : (⟨⟨2, ![1000, 64]⟩, .f32⟩ : BufTy).Contents (Elt F))
    (z : S_.Idx → F .f32) :
    Setup.asm (flat8 y) (flat8 x) (Setup.gath (padTb table z) ids) (flat400 time) =
      Cert.Spec.out y x ids time table := by
  refine Cert.Spec.eq_out y x ids time table _ fun b t j => ?_
  rw [asm_ix3]
  unfold Setup.asmAt Cert.Spec.outAt
  by_cases h8 : j.val < 8
  · rw [dif_pos h8, dif_pos h8]
  rw [dif_neg h8, dif_neg h8]
  by_cases h16 : j.val < 16
  · rw [dif_pos h16, dif_pos h16]
    exact flat8_apply y b _
  rw [dif_neg h16, dif_neg h16]
  by_cases h24 : j.val < 24
  · rw [dif_pos h24, dif_pos h24]
    exact flat8_apply x b _
  rw [dif_neg h24, dif_neg h24]
  by_cases h88 : j.val < 88
  · rw [dif_pos h88, dif_pos h88, gath_apply]
    exact padTb_apply table z _ _ (by show j.val - 24 < 64; omega)
  · rw [dif_neg h88, dif_neg h88]
    have hj : j.val < 96 := j.isLt
    exact flat400_apply time b t (⟨j.val - 88, by omega⟩ : Fin 8)

end Cert.Kernel.KVal

end
-- ==== Proof.WLaunchA.lean ====
/-
  The launch element of the ghost state and how the final memory reads the claim. At the launch the handshakes'
  rounds go to the launch theorem, the pipeline's staging cells' rounds and duty tokens are dealt to each device's
  TensorCore for the assembling call, and the transfers' counters need nothing. At the end each TensorCore holds its
  five argument arrays at their launch contents and the result at the assembled function of them.
-/
import proofs.«208745_g22711787061521_fold_wed_m_611_20_alg».proof.Proof.WSplit
import proofs.«208745_g22711787061521_fold_wed_m_611_20_alg».proof.Proof.WValBridge

noncomputable section

namespace Cert.Kernel.Setup

open Cert.Kernel Cert.Kernel.Gen Cert.Kernel.KVal

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The launch element -/

/-- What the launch deals device `d`'s TensorCore for the assembling call: its staging cells' ghost state and the
    duty tokens of the transfers its loop issues. -/
def G (d : Dev nD) : sProp 𝕄 := iprop(Pipeline.cellsGhost cfgs EP 0 d ∗ Pipeline.toksInit cfgs EP 0 d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem ownU_split3 (a : UH) (b : UP) : (ownU ((a, (b, 1)) : UU) : sProp 𝕄) ⊢ iprop(BI.own (EH a) ∗ BI.own (EP b)) :=
  ownU_pair a ((b, 1) : UP × Counters)

theorem bigSep_emp' {I : Type} (s : Finset I) : (bigSep s fun _ => iprop(emp)) = (iprop(emp) : sProp 𝕄) := bigSep_emp_const s

variable (m : (ℓ : Loc nD τ sig) → Buf (Elt F) ℓ) [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split3 _ _) $$ Hu
  icases H with ⟨HH, HP⟩
  have e1 : (bigSep Finset.univ fun c : Dev nD => bigSep Finset.univ fun p : Fin 1 => (Pipeline.cellsGhost cfgs EP p c : sProp 𝕄))
      = bigSep Finset.univ fun c : Dev nD => (Pipeline.cellsGhost cfgs EP 0 c : sProp 𝕄) :=
    bigSep_congr fun c _ => bigSep_univ_of_subsingleton (0 : Fin 1)
  have e2 : (bigSep Finset.univ fun c : Dev nD => bigSep Finset.univ fun p : Fin 1 => (Pipeline.toksInit cfgs EP p c : sProp 𝕄))
      = bigSep Finset.univ fun c : Dev nD => (Pipeline.toksInit cfgs EP 0 c : sProp 𝕄) :=
    bigSep_congr fun c _ => bigSep_univ_of_subsingleton (0 : Fin 1)
  imod (Pipeline.fund_ghost cfgs EP cellOf_inj) $$ HP with ⟨Hg, Ht⟩
  ihave Hg' := (Entails.of_eq e1) $$ Hg
  ihave Ht' := (Entails.of_eq e2) $$ Ht
  imodintro
  isplitl [HH]; · iexact HH
  isplitl [Hg' Ht']
  · unfold G
    rw [bigSep_sep']
    isplitl [Hg']; · iexact Hg'
    iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The end -/

abbrev a0Loc (d : Dev nD) : Loc nD τ sig := (SparseCore.T d).loc main_arg0
abbrev a1Loc (d : Dev nD) : Loc nD τ sig := (SparseCore.T d).loc main_arg1
abbrev a3Loc (d : Dev nD) : Loc nD τ sig := (SparseCore.T d).loc main_arg3
abbrev v5Loc (d : Dev nD) : Loc nD τ sig := (SparseCore.T d).loc main_v5

/-- The result: the assembled function of the flattened coordinate features, the gathered rows of the padded table,
    and the flattened time features. -/
def outV (d : Dev nD) : Buf (Elt F) (v5Loc d) :=
  asm (flat8 (m (a0Loc d))) (flat8 (m (a1Loc d))) (gaV m d) (flat400 (m (a3Loc d)))

abbrev FIN (d : Dev nD) : sProp 𝕄 :=
  iprop((v5Loc d ↦{fullShare} outV m d) ∗ (a0Loc d ↦{fullShare} m (a0Loc d)) ∗ (a1Loc d ↦{fullShare} m (a1Loc d))
    ∗ (idLoc d ↦{fullShare} m (idLoc d)) ∗ (a3Loc d ↦{fullShare} m (a3Loc d)) ∗ (a4Loc d ↦{fullShare} m (a4Loc d)))

def fq (d : Dev nD) (s' : Phys nD τ sig (Elt F)) : Prop :=
  s'.mem.mem (v5Loc d) = outV m d ∧ s'.mem.mem (a0Loc d) = m (a0Loc d) ∧ s'.mem.mem (a1Loc d) = m (a1Loc d)
    ∧ s'.mem.mem (idLoc d) = m (idLoc d) ∧ s'.mem.mem (a3Loc d) = m (a3Loc d) ∧ s'.mem.mem (a4Loc d) = m (a4Loc d)

omit [FloatOps F] in
theorem agree1 (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H5, H0, H1, H2, H3, H4⟩, HSI⟩
  ihave H := (agree1 _ _ s') $$ [H5 HSI]
  · isplitl [H5] <;> iassumption
  icases H with ⟨%e5, HSI⟩
  ihave H := (agree1 _ _ s') $$ [H0 HSI]
  · isplitl [H0] <;> iassumption
  icases H with ⟨%e0, HSI⟩
  ihave H := (agree1 _ _ s') $$ [H1 HSI]
  · isplitl [H1] <;> iassumption
  icases H with ⟨%e1, HSI⟩
  ihave H := (agree1 _ _ s') $$ [H2 HSI]
  · isplitl [H2] <;> iassumption
  icases H with ⟨%e2, HSI⟩
  ihave H := (agree1 _ _ s') $$ [H3 HSI]
  · isplitl [H3] <;> iassumption
  icases H with ⟨%e3, HSI⟩
  ihave H := (agree1 _ _ s') $$ [H4 HSI]
  · isplitl [H4] <;> iassumption
  icases H with ⟨%e4, -⟩
  ipureintro; exact ⟨e5, e0, e1, e2, e3, e4⟩

end Cert.Kernel.Setup

end
-- ==== Proof.WPost.lean ====
/-
  What the kernel's run ends with: on every device the result holds the assembled function of the launch contents
  of the five arguments, and the five arguments hold their launch contents.  That assembled function is the
  specification: the host's re-indexings, the padded table's first 64 columns and the gathered rows only address
  the same entries in another way.
-/
import proofs.«208745_g22711787061521_fold_wed_m_611_20_alg».proof.Proof.WLaunchA

noncomputable section

namespace Cert.Kernel.Setup

open Cert.Kernel Cert.Kernel.Gen Cert.Kernel.KVal

open Idealize.ShloMosaic Idealize.ShloMosaic.ValueIdx
open Idealize.ShloMosaic.SparseCore (S V T)
open Idealize.SL.Sem

variable {F : FTy → Type}

variable (m : (ℓ : Loc nD τ sig) → Buf (Elt F) ℓ) [FloatOps F]

/-- The post of the kernel's run: the result at the assembled function of the launch memory, the five arguments
    unchanged. -/
def QC : PUnit × MemSt nD τ sig (Elt F) → Prop := fun r => ∀ c : Dev nD,
  r.2.mem (v5Loc c) = outV m c ∧ r.2.mem (a0Loc c) = m (a0Loc c) ∧ r.2.mem (a1Loc c) = m (a1Loc c)
    ∧ r.2.mem (idLoc c) = m (idLoc c) ∧ r.2.mem (a3Loc c) = m (a3Loc c) ∧ r.2.mem (a4Loc c) = m (a4Loc c)

/-- The padded table as launched is the launch table widened by the converted integer zero. -/
theorem tbV_eq (d : Dev nD) : tbV m d = padTb (m (a4Loc d)) (sitofp .f32 (constantI S_ 32 0#32)) := rfl

/-- **The assembled function of the launch memory is the specified result.** -/
theorem outV_eq_spec (d : Dev nD) :
    outV m d = Cert.Spec.out (m (a0Loc d)) (m (a1Loc d)) (m (idLoc d)) (m (a3Loc d)) (m (a4Loc d)) := by
  unfold outV gaV
  rw [tbV_eq]
  exact asm_eq_out (m (a0Loc d)) (m (a1Loc d)) (m (idLoc d)) (m (a3Loc d)) (m (a4Loc d)) _

end Cert.Kernel.Setup

end
-- ==== Proof.WClaims.lean ====
/-
  The word-level frame, from the kernel's run at the bit-exact instance: the run ends with the arguments unchanged
  (and the result at the assembled function of the launch memory, which this claim forgets).  The precondition
  enters only through the range of the identifiers.
-/
import proofs.«208745_g22711787061521_fold_wed_m_611_20_alg».proof.Defs
import proofs.«208745_g22711787061521_fold_wed_m_611_20_alg».proof.Proof.WPost
import proofs.«208745_g22711787061521_fold_wed_m_611_20_alg».proof.Proof.PreIds
import proofs.«208745_g22711787061521_fold_wed_m_611_20_alg».proof.Proof.Gen.Pre_input_domain

noncomputable section

namespace Cert.WClaims

open Idealize.ShloMosaic Idealize.ShloMosaic.ValueIdx Idealize.SL.Sem
open Cert.Kernel.Setup

/-- The kernel's run at the word level: under the identifiers' range, the result at the assembled function of the
    launch memory and the arguments unchanged. -/
abbrev KernelRun : Prop :=
  ∀ (m : (ℓ : Loc Cert.Kernel.nD Cert.Kernel.τ Cert.Kernel.sig) → Buf (Elt Bits) ℓ)
    (ρ : Dev Cert.Kernel.nD → PrngReg),
    (∀ (d : Dev Cert.Kernel.nD) (b : Cert.Kernel.S4096.Idx), (m (idLoc d) b).toNat < 1000) →
    θ_run (Cert.Kernel.defs (F := Bits)) (Cert.Kernel.threads (F := Bits)) ⟨m, fun _ => 0, ρ⟩ (QC m)

/-- The precondition gives the identifiers' range. -/
theorem hin_of_pre (m : (ℓ : Loc Cert.Kernel.nD Cert.Kernel.τ Cert.Kernel.sig) → Buf (Elt Bits) ℓ)
    (hpre : Cert.Pre_Kernel m) (d : Dev Cert.Kernel.nD) (b : Cert.Kernel.S4096.Idx) :
    (m (idLoc d) b).toNat < 1000 :=
  Cert.PreIds.ids_lt _ _ _ _ _ (hpre d) b

/-- The kernel as printed runs and leaves its arguments unchanged. -/
theorem frame_Kernel (hrun : KernelRun) : Cert.frame_Kernel := by
  intro m g hpre
  refine (θ_run _ _ _).mono (fun r h c => ?_) (hrun m g (hin_of_pre m hpre))
  obtain ⟨h5, h0, h1, h2, h3, h4⟩ := h c
  exact ⟨h0, h1, h2, h3, h4⟩

end Cert.WClaims

end
-- ==== Proof.KTileVal.lean ====
/-
  The index arithmetic behind one task's transfers: which element of the identifiers the task's k-th fetched
  word is, which element of the table the gather puts at (k, c) of the row scratch, and which element of
  the gathered array the write-out puts it at. Together: the block a task writes holds, at every index
  of the block, the value of `gath` there.
-/
import proofs.«208745_g22711787061521_fold_wed_m_611_20_alg».proof.Proof.KShared
import Idealize.ShloMosaic.Lib.SparseCore.Stream
import Idealize.ShloMosaic.Lib.Writes

noncomputable section

namespace Cert.KernelIdeal.Tile

open Cert.KernelIdeal Cert.KernelIdeal.Gen Cert.KernelIdeal.Setup

open Idealize.ShloMosaic Idealize.ShloMosaic.ValueIdx
open Idealize.ShloMosaic.SparseCore (S V T)

variable {F : FTy → Type}

/-- The offset of a task's block of rows, in both arrays it slices: 256·s + 128·c. -/
def base (L : grid0.Coords) : Nat := 256 * (L 1).val + 128 * (L 0).val

theorem off1_zero (L : grid0.Coords) : k0_off1 L 0 = base L := by rw [k0_off1_eq]; rfl
theorem off2_zero (L : grid0.Coords) : k0_off2 L 0 = base L := by rw [k0_off2_eq]; rfl
theorem off2_one (L : grid0.Coords) : k0_off2 L 1 = 0 := by rw [k0_off2_eq]; rfl

/-- The block's element (r, c) is element (base + r, c) of the gathered array. -/
theorem gaK_emb_zero (L : grid0.Coords) (x : S128x128.Idx) : ((gaK L).view.emb x 0).val = base L + (x 0).val := by
  show k0_off2 L 0 + 1 * (x 0).val = _
  rw [off2_zero, Nat.one_mul]
theorem gaK_emb_one (L : grid0.Coords) (x : S128x128.Idx) : ((gaK L).view.emb x 1).val = (x 1).val := by
  show k0_off2 L 1 + 1 * (x 1).val = _
  rw [off2_one, Nat.one_mul, Nat.zero_add]
/-- The fetched slice's element r is element base + r of the identifiers. -/
theorem idK_emb_zero (L : grid0.Coords) (y : S128.Idx) : ((idK L).view.emb y 0).val = base L + (y 0).val := by
  show k0_off1 L 0 + 1 * (y 0).val = _
  rw [off1_zero, Nat.one_mul]

/-- The identifier the task reads for its row r is the one the gathered array's row base + r is indexed by. -/
theorem idK_emb_eq (L : grid0.Coords) (x : S128x128.Idx) (y : S128.Idx) (hy : (y 0).val = (x 0).val) :
    (idK L).view.emb y = ix1 ((gaK L).view.emb x 0) := by
  funext (a : Fin 1)
  obtain rfl : a = 0 := Subsingleton.elim _ _
  apply Fin.ext
  show ((idK L).view.emb y 0).val = ((gaK L).view.emb x 0).val
  rw [idK_emb_zero, gaK_emb_zero, hy]

variable (m : (ℓ : Loc nD τ sig) → Buf (Elt F) ℓ) (d : Dev nD) (L : grid0.Coords)

/-- What the fetch leaves in the index scratch: the task's 128 identifiers. -/
abbrev fetched : S128.Idx → Elt F .i32 := ReadAs.same.apply (View.read (Elt F) (idK L).view (m (idLoc d)))

theorem fetched_apply (y : S128.Idx) : fetched m d L y = m (idLoc d) ((idK L).view.emb y) := by
  show View.read (Elt F) (idK L).view (m (idLoc d)) y = _
  rw [View.read_apply, cast_eq]

/-- The index scratch, written whole with the fetched identifiers, reads as them, whatever it held. -/
theorem sIdx_read (g : (sIdx : Memref sig .scVector .vmem S128 .i32).view.ty.Contents (Elt F)) (y : S128.Idx) :
    View.read (Elt F) (sIdx).view (View.write (Elt F) (sIdx).view g (fetched m d L) Finset.univ) y = fetched m d L y := by
  show ((View.whole cc0_scratch0).write (Elt F) g (fetched m d L) Finset.univ y) = _
  rw [View.write_whole_univ]

/-- The gather's offsets are in range: they are identifiers. -/
theorem fetched_inb (hin : ∀ b : S4096.Idx, (m (idLoc d) b).toNat < 1000)
    (g : (sIdx : Memref sig .scVector .vmem S128 .i32).view.ty.Contents (Elt F)) (x : S128.Idx) :
    (View.read (Elt F) (sIdx).view (View.write (Elt F) (sIdx).view g
      (ReadAs.same.apply (View.read (Elt F) (idK L).view (m (idLoc d)))) Finset.univ) x).toNat < 1000 := by
  rw [sIdx_read, fetched_apply]; exact hin _

/-- The gather puts at (r, c) of the row scratch the table's element (ids (base + r), c): the value of
    `gath` at the element of the gathered array that (r, c) of the task's block is. -/
theorem gathered_apply (tb : Buf (Elt F) (tbLoc d)) (hin : ∀ b : S4096.Idx, (m (idLoc d) b).toNat < 1000)
    (g : (sIdx : Memref sig .scVector .vmem S128 .i32).view.ty.Contents (Elt F))
    (hg : S1000x128.Gathers 0 S128x128)
    (hinb : ∀ a, (![0, 0] : Fin 2 → Nat) a + S1000x128.size a ≤ S1000x128.size a)
    (h5 : ∀ a, (Rect.unit (s := S1000x128) ![0, 0] S1000x128.size hinb).stride a = 1)
    (hn : S128.numel = S128x128.size hg.axis')
    (hr : ∀ x, (View.read (Elt F) (sIdx).view (View.write (Elt F) (sIdx).view g (fetched m d L) Finset.univ) x).toNat < S1000x128.size hg.axis)
    (x : S128x128.Idx) :
    SparseCore.gatherPayload hg (View.read (Elt F) ((tbW).slice (Rect.unit (s := S1000x128) ![0, 0] S1000x128.size hinb) h5).view tb)
        (SparseCore.rows (View.read (Elt F) (sIdx).view (View.write (Elt F) (sIdx).view g (fetched m d L) Finset.univ)) hn hr) x
      = gath tb (m (idLoc d)) ((gaK L).view.emb x) := by
  unfold SparseCore.gatherPayload gath
  rw [View.read_apply, cast_eq]
  congr 1
  funext (b : Fin 2)
  apply Fin.ext
  -- the row the list names for row `x 0`
  have hy : ((S128.rowMajor.symm ((x 0).cast hn.symm)) 0).val = (x 0).val := by
    rw [← Shape.rowMajor_val_one, Equiv.apply_symm_apply]; rfl
  have hrow : (SparseCore.rows (View.read (Elt F) (sIdx).view (View.write (Elt F) (sIdx).view g (fetched m d L) Finset.univ)) hn hr (x 0)).val
      = (m (idLoc d) (ix1 ((gaK L).view.emb x 0))).toNat := by
    show (View.read (Elt F) (sIdx).view (View.write (Elt F) (sIdx).view g (fetched m d L) Finset.univ)
      (S128.rowMajor.symm ((x 0).cast hn.symm))).toNat = _
    rw [sIdx_read, fetched_apply, idK_emb_eq L x _ hy]
    rfl
  match b with
  | 0 =>
    show 0 + 1 * (hg.idx _ x 0).val = (Cert.Spec.row (m (idLoc d) (ix1 ((gaK L).view.emb x 0)))).val
    rw [Cert.Spec.row_val _ (hin _), ← hrow, Nat.zero_add, Nat.one_mul]
    exact congrArg Fin.val (hg.idx_axis _ x)
  | 1 =>
    show 0 + 1 * (hg.idx _ x 1).val = ((gaK L).view.emb x 1).val
    rw [gaK_emb_one, Nat.zero_add, Nat.one_mul]
    exact hg.idx_of_ne _ x 1 (by decide)

/-- The row scratch, written whole with a payload, reads as the payload, whatever it held. -/
theorem sRows_read (fr : (sRows : Memref sig .scVector .vmem S128x128 .f32).view.ty.Contents (Elt F)) (P : S128x128.Idx → Elt F .f32) (x : S128x128.Idx) :
    ReadAs.same.apply (View.read (Elt F) (sRows).view ((sRows).view.writes (Elt F) fr [⟨Rect.whole S128x128, P⟩])) x = P x := by
  show View.read (Elt F) (sRows).view ((sRows).view.writes (Elt F) fr [⟨Rect.whole S128x128, P⟩]) x = P x
  have := View.read_writes_cons_emb (sRows).view fr (Rect.whole S128x128) P [] x
  rwa [Rect.emb_whole_apply] at this

/-- The block of the gathered array, written whole with a payload that is `G` at the block's elements, is `G`
    at every element of the block, whatever it held. -/
theorem gaK_written (f0 G : Buf (Elt F) (gaLoc d)) (P : S128x128.Idx → Elt F .f32)
    (hP : ∀ x, P x = G ((gaK L).view.emb x)) :
    ∀ j ∈ gaSet L, ((gaK L).view.writes (Elt F) f0 [⟨Rect.whole S128x128, P⟩]) j = G j := by
  intro j hj
  obtain ⟨x, -, rfl⟩ := Finset.mem_map.mp hj
  have h1 := View.read_writes_cons_emb (gaK L).view f0 (Rect.whole S128x128) P [] x
  rw [Rect.emb_whole_apply, View.read_apply, cast_eq] at h1
  exact h1.trans (hP x)

end Cert.KernelIdeal.Tile

end
-- ==== Proof.KTile.lean ====
/-
  The task of one vector subcore, at a symbolic grid point: it fetches its 128 identifiers into a scratch of
  its own, gathers the 128 table rows they name into a second scratch, and writes those rows out to its block
  of the gathered array. Each of the three transfers is issued and waited for before the next: the
  schedule-free protocol of local transfers. The block's final contents are stated as the one function
  `gath` of the table and the identifiers.
-/
import proofs.«208745_g22711787061521_fold_wed_m_611_20_alg».proof.Proof.KTileVal
import Idealize.ShloMosaic.Lib.SparseCore.Stream
import Idealize.ShloMosaic.Lib.Transfers
import Idealize.ShloMosaic.Lib.Tactic

noncomputable section

namespace Cert.KernelIdeal.Tile

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

section Tile

variable (d : Dev nD) (L : grid0.Coords)

/-- The task's three DMA semaphores, as cells of its thread. -/
abbrev cFcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cWcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cFcell d (cV L) (jV L)) 0 ∗ semVal (cGcell d (cV L) (jV L)) 0 ∗ semVal (cWcell d (cV L) (jV L)) 0
          ∗ bigSep ((((ownCells (V d (cV L) (jV L))).erase (cFcell d (cV L) (jV L))).erase (cGcell d (cV L) (jV L))).erase (cWcell d (cV L) (jV L)))
              fun g => semVal g 0) := by
  unfold SparseCore.Cfg.ownSems0
  rw [SparseCore.bigSep_erase' ((mem_ownCells (g := cFcell d (cV L) (jV L))).mpr ⟨rfl, by
      show (SemLoc.dma cc0_scoped0.sem : SemLoc sig).isScoped .scVector = true; decide⟩),
    SparseCore.bigSep_erase' (Finset.mem_erase.mpr ⟨by simp [cFcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cWcell]; decide, Finset.mem_erase.mpr ⟨by simp [cFcell, cWcell]; decide,
      (mem_ownCells (g := cWcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The arrays as the task's memrefs address them are the TensorCore's arrays. -/
theorem pts_tb (q : PosShare TreeShare) (f : Buf (Elt F) (tbLoc d)) :
    ((tbW).view.loc (V d (cV L) (jV L)) ↦{q} f : sProp 𝕄) = tbLoc d ↦{q} f := by
  simp only [Memref.view_whole, View.set_whole]
theorem pts_id (q : PosShare TreeShare) (f : Buf (Elt F) (idLoc d)) :
    ((idW).view.loc (V d (cV L) (jV L)) ↦{q} f : sProp 𝕄) = idLoc d ↦{q} f := by
  simp only [Memref.view_whole, View.set_whole]
theorem pts_ga (f : Buf (Elt F) (gaLoc d)) :
    ((gaK L).view.loc (V d (cV L) (jV L)) ↦[(gaK L).view.set]{fullShare} f : sProp 𝕄) = gaLoc d ↦[gaSet L]{fullShare} f := rfl
theorem pts_sIdx (f : Buf (Elt F) ((V d (cV L) (jV L)).loc cc0_scratch0)) :
    ((sIdx).view.loc (V d (cV L) (jV L)) ↦{fullShare} f : sProp 𝕄) = (V d (cV L) (jV L)).loc cc0_scratch0 ↦{fullShare} f := rfl
theorem pts_sRows (f : Buf (Elt F) ((V d (cV L) (jV L)).loc cc0_scratch1)) :
    ((sRows).view.loc (V d (cV L) (jV L)) ↦{fullShare} f : sProp 𝕄) = (V d (cV L) (jV L)).loc cc0_scratch1 ↦{fullShare} f := rfl

variable [FloatOps F]

theorem tile_body (hF : (K (F := F)).Facts) (d : Dev nD) (L : grid0.Coords) (q : PosShare TreeShare)
    (tb : Buf (Elt F) (tbLoc d)) (f0 : Buf (Elt F) (gaLoc d))
    (hin : ∀ b : S4096.Idx, (m (idLoc d) b).toNat < 1000)
    (O : CellTallies nD τ sig (HIx 1)) (W : Waits sig (HIx 1)) (hO : ∀ g, O g none = 0) :
    iprop(levAts (K (F := F)).L (K (F := F)).lev ∗ emp
        ∗ ((tbLoc d ↦{q} tb) ∗ (idLoc d ↦{q} m (idLoc d)) ∗ (gaLoc d ↦[gaSet L]{fullShare} f0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_body L tbW (Memref.isWhole_whole _) idW (Memref.isWhole_whole _) gaW (Memref.isWhole_whole _) sIdx (Memref.isWhole_whole _) sRows (Memref.isWhole_whole _) cc0_scratch2 cc0_scoped0 cc0_scoped1)
          fun _ => iprop(((tbLoc d ↦{q} tb) ∗ (idLoc d ↦{q} m (idLoc d)) ∗ (gaLoc d ↦[gaSet L]{fullShare} gath tb (m (idLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [cc0_body_eq_skeleton]; unfold cc0_body_skel
  rw [(K (F := F)).scopedBufs_V hF d (cV L) (jV L), SparseCore.Cfg.scopedSems0_V (Val := Elt F) d (cV L) (jV L), ownSems0_V, ownBufs_V]
  iintro ⟨#Hlv, -, ⟨Htb, Hid, Hga⟩, ⟨⟨%fi, Hsi⟩, ⟨%fr, Hsr⟩, Hbufs⟩, ⟨HsemF, HsemG, HsemW, Hsems⟩, HO⟩
  ihave Hmw := ((K (F := F)).mayWaits_none (thr := V d (cV L) (jV L)) hO) $$ Hlv
  ihave Htb' := (Entails.of_eq (pts_tb (F := F) d L q _).symm) $$ Htb
  ihave Hid' := (Entails.of_eq (pts_id (F := F) d L q _).symm) $$ Hid
  ihave Hga' := (Entails.of_eq (pts_ga (F := F) d L _).symm) $$ Hga
  ihave Hsi' := (Entails.of_eq (pts_sIdx (F := F) d L _).symm) $$ Hsi
  ihave Hsr' := (Entails.of_eq (pts_sRows (F := F) d L _).symm) $$ Hsr
  have hin' : ∀ (g : Buf (Elt F) ((V d (cV L) (jV L)).loc cc0_scratch0)) (x : S128.Idx),
      (View.read (Elt F) (sIdx).view (View.write (Elt F) (sIdx).view g
        (ReadAs.same.apply (View.read (Elt F) (idK L).view (m (idLoc d)))) Finset.univ) x).toNat < 1000 :=
    fun g x => fetched_inb m d L hin g x
  sl_exec
  sl_step
  -- the block holds, at each of its elements, the gathered array's value there
  have hP : ∀ x, tile_body.sl.dma0_1 m d L tb fi fr hin' x = gath tb (m (idLoc d)) ((gaK L).view.emb x) :=
    fun x => (sRows_read fr _ x).trans (gathered_apply m d L tb hin fi _ _ _ _ _ x)
  isplitl [Htb' Hid' Hga']
  · isplitl [Htb']; · iapply (Entails.of_eq (pts_tb (F := F) d L q _)); iexact Htb'
    isplitl [Hid']; · iapply (Entails.of_eq (pts_id (F := F) d L q _)); iexact Hid'
    iapply (Entails.of_eq ((pts_ga (F := F) d L _).trans (pointsTo_congr (gaK_written d L f0 (gath tb (m (idLoc d))) _ hP))))
    iexact Hga'
  isplitl [Hsi' Hsr' Hbufs]
  · isplitl [Hsi']; · iexists _; iapply (Entails.of_eq (pts_sIdx (F := F) d L _)); iexact Hsi'
    isplitl [Hsr']; · iexists _; iapply (Entails.of_eq (pts_sRows (F := F) d L _)); iexact Hsr'
    iexact Hbufs
  isplitl [HsemF HsemG HsemW Hsems]
  · isplitl [HsemF]; · iexact HsemF
    isplitl [HsemG]; · iexact HsemG
    isplitl [HsemW]; · iexact HsemW
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.KernelIdeal.Tile

end
-- ==== Proof.KObl.lean ====
/-
  The vector-subcore kernel's proof as the launch theorem asks for it: one subcore's task, entered through the
  extended body table, is the body run at that subcore's grid point; what the task was handed is what the body run
  starts from, and what it leaves is what the task hands back.
-/
import proofs.«208745_g22711787061521_fold_wed_m_611_20_alg».proof.Proof.KSplit
import proofs.«208745_g22711787061521_fold_wed_m_611_20_alg».proof.Proof.KTile

noncomputable section

namespace Cert.KernelIdeal.Setup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (m : (ℓ : Loc nD τ sig) → Buf (Elt F) ℓ) [FloatOps F]

theorem defs₀_vector (c : Fin τ.nSC) (s : Fin τ.nSub) :
    defs₀ (F := F) (.scVector c s) 0 ()
      = SparseCore.onTile hcore0 hsub0 (fun c s => cc0_body (coordsV c s)
          tbW (Memref.isWhole_whole _) idW (Memref.isWhole_whole _) gaW (Memref.isWhole_whole _)
          sIdx (Memref.isWhole_whole _) sRows (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation of the one call, from the indices' range. -/
theorem tileObl (hin : ∀ (d : Dev nD) (b : S4096.Idx), (m (idLoc d) b).toNat < 1000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (Cert.KernelIdeal.Tile.tile_body m facts d (coordsV ⟨_, hc.1⟩ ⟨_, hc.2⟩) _ (tbV m d) (m (gaLoc d)) (hin d) O W hO).trans
    (wp_mono frame _ _ fun _ => obl_post)

end Cert.KernelIdeal.Setup

end
-- ==== Proof.KRun.lean ====
/-
  The run of the whole program: the launch theorem for the one SparseCore call, fed the tasks' obligation, the
  split of a SparseCore's holdings among its subcores, the launch element, @main on the TensorCore, and the reading
  of the final memory as the result and the unchanged arguments.
-/
import proofs.«208745_g22711787061521_fold_wed_m_611_20_alg».proof.Proof.KObl
import proofs.«208745_g22711787061521_fold_wed_m_611_20_alg».proof.Proof.KPost

noncomputable section

namespace Cert.KernelIdeal.Setup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (ρ : Dev nD → PrngReg) [FloatOps F]

/-- What the final memory of every device says, device by device, is the run's post. -/
theorem hQC (s' : Phys nD τ sig (Elt F)) (h : ∀ d, fq m d s') : QC m (⟨⟩, s'.mem) := fun c => h c

/-- The program's run from @main's proof on the TensorCore: every weakly fair execution of the device's threads
    ends with the result at the assembled function of the launch memory and the five arguments unchanged. -/
theorem run_main [∀ e, Nonempty (Elt F e)]
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m d))
    (hin : ∀ (d : Dev nD) (b : S4096.Idx), (m (idLoc d) b).toNat < 1000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hin)
    (fun q _ => match q with | 0 => SparseCore.Cfg.VecSplit.of_plain (vecSplit m))
    m ρ main (G (F := F)) (FIN m) (u₀ (F := F)) (sep_elim_left.trans (hu₀ m)) hmain (fq m) (hfin m) (QC m) (hQC m)

end Cert.KernelIdeal.Setup

end
-- ==== Proof.WTileVal.lean ====
/-
  The index arithmetic behind one task's transfers: which element of the identifiers the task's k-th fetched
  word is, which element of the table the gather puts at (k, c) of the row scratch, and which element of
  the gathered array the write-out puts it at. Together: the block a task writes holds, at every index
  of the block, the value of `gath` there.
-/
import proofs.«208745_g22711787061521_fold_wed_m_611_20_alg».proof.Proof.WShared
import Idealize.ShloMosaic.Lib.SparseCore.Stream
import Idealize.ShloMosaic.Lib.Writes

noncomputable section

namespace Cert.Kernel.Tile

open Cert.Kernel Cert.Kernel.Gen Cert.Kernel.Setup

open Idealize.ShloMosaic Idealize.ShloMosaic.ValueIdx
open Idealize.ShloMosaic.SparseCore (S V T)

variable {F : FTy → Type}

/-- The offset of a task's block of rows, in both arrays it slices: 256·s + 128·c. -/
def base (L : grid0.Coords) : Nat := 256 * (L 1).val + 128 * (L 0).val

theorem off1_zero (L : grid0.Coords) : k0_off1 L 0 = base L := by rw [k0_off1_eq]; rfl
theorem off2_zero (L : grid0.Coords) : k0_off2 L 0 = base L := by rw [k0_off2_eq]; rfl
theorem off2_one (L : grid0.Coords) : k0_off2 L 1 = 0 := by rw [k0_off2_eq]; rfl

/-- The block's element (r, c) is element (base + r, c) of the gathered array. -/
theorem gaK_emb_zero (L : grid0.Coords) (x : S128x128.Idx) : ((gaK L).view.emb x 0).val = base L + (x 0).val := by
  show k0_off2 L 0 + 1 * (x 0).val = _
  rw [off2_zero, Nat.one_mul]
theorem gaK_emb_one (L : grid0.Coords) (x : S128x128.Idx) : ((gaK L).view.emb x 1).val = (x 1).val := by
  show k0_off2 L 1 + 1 * (x 1).val = _
  rw [off2_one, Nat.one_mul, Nat.zero_add]
/-- The fetched slice's element r is element base + r of the identifiers. -/
theorem idK_emb_zero (L : grid0.Coords) (y : S128.Idx) : ((idK L).view.emb y 0).val = base L + (y 0).val := by
  show k0_off1 L 0 + 1 * (y 0).val = _
  rw [off1_zero, Nat.one_mul]

/-- The identifier the task reads for its row r is the one the gathered array's row base + r is indexed by. -/
theorem idK_emb_eq (L : grid0.Coords) (x : S128x128.Idx) (y : S128.Idx) (hy : (y 0).val = (x 0).val) :
    (idK L).view.emb y = ix1 ((gaK L).view.emb x 0) := by
  funext (a : Fin 1)
  obtain rfl : a = 0 := Subsingleton.elim _ _
  apply Fin.ext
  show ((idK L).view.emb y 0).val = ((gaK L).view.emb x 0).val
  rw [idK_emb_zero, gaK_emb_zero, hy]

variable (m : (ℓ : Loc nD τ sig) → Buf (Elt F) ℓ) (d : Dev nD) (L : grid0.Coords)

/-- What the fetch leaves in the index scratch: the task's 128 identifiers. -/
abbrev fetched : S128.Idx → Elt F .i32 := ReadAs.same.apply (View.read (Elt F) (idK L).view (m (idLoc d)))

theorem fetched_apply (y : S128.Idx) : fetched m d L y = m (idLoc d) ((idK L).view.emb y) := by
  show View.read (Elt F) (idK L).view (m (idLoc d)) y = _
  rw [View.read_apply, cast_eq]

/-- The index scratch, written whole with the fetched identifiers, reads as them, whatever it held. -/
theorem sIdx_read (g : (sIdx : Memref sig .scVector .vmem S128 .i32).view.ty.Contents (Elt F)) (y : S128.Idx) :
    View.read (Elt F) (sIdx).view (View.write (Elt F) (sIdx).view g (fetched m d L) Finset.univ) y = fetched m d L y := by
  show ((View.whole cc0_scratch0).write (Elt F) g (fetched m d L) Finset.univ y) = _
  rw [View.write_whole_univ]

/-- The gather's offsets are in range: they are identifiers. -/
theorem fetched_inb (hin : ∀ b : S4096.Idx, (m (idLoc d) b).toNat < 1000)
    (g : (sIdx : Memref sig .scVector .vmem S128 .i32).view.ty.Contents (Elt F)) (x : S128.Idx) :
    (View.read (Elt F) (sIdx).view (View.write (Elt F) (sIdx).view g
      (ReadAs.same.apply (View.read (Elt F) (idK L).view (m (idLoc d)))) Finset.univ) x).toNat < 1000 := by
  rw [sIdx_read, fetched_apply]; exact hin _

/-- The gather puts at (r, c) of the row scratch the table's element (ids (base + r), c): the value of
    `gath` at the element of the gathered array that (r, c) of the task's block is. -/
theorem gathered_apply (tb : Buf (Elt F) (tbLoc d)) (hin : ∀ b : S4096.Idx, (m (idLoc d) b).toNat < 1000)
    (g : (sIdx : Memref sig .scVector .vmem S128 .i32).view.ty.Contents (Elt F))
    (hg : S1000x128.Gathers 0 S128x128)
    (hinb : ∀ a, (![0, 0] : Fin 2 → Nat) a + S1000x128.size a ≤ S1000x128.size a)
    (h5 : ∀ a, (Rect.unit (s := S1000x128) ![0, 0] S1000x128.size hinb).stride a = 1)
    (hn : S128.numel = S128x128.size hg.axis')
    (hr : ∀ x, (View.read (Elt F) (sIdx).view (View.write (Elt F) (sIdx).view g (fetched m d L) Finset.univ) x).toNat < S1000x128.size hg.axis)
    (x : S128x128.Idx) :
    SparseCore.gatherPayload hg (View.read (Elt F) ((tbW).slice (Rect.unit (s := S1000x128) ![0, 0] S1000x128.size hinb) h5).view tb)
        (SparseCore.rows (View.read (Elt F) (sIdx).view (View.write (Elt F) (sIdx).view g (fetched m d L) Finset.univ)) hn hr) x
      = gath tb (m (idLoc d)) ((gaK L).view.emb x) := by
  unfold SparseCore.gatherPayload gath
  rw [View.read_apply, cast_eq]
  congr 1
  funext (b : Fin 2)
  apply Fin.ext
  -- the row the list names for row `x 0`
  have hy : ((S128.rowMajor.symm ((x 0).cast hn.symm)) 0).val = (x 0).val := by
    rw [← Shape.rowMajor_val_one, Equiv.apply_symm_apply]; rfl
  have hrow : (SparseCore.rows (View.read (Elt F) (sIdx).view (View.write (Elt F) (sIdx).view g (fetched m d L) Finset.univ)) hn hr (x 0)).val
      = (m (idLoc d) (ix1 ((gaK L).view.emb x 0))).toNat := by
    show (View.read (Elt F) (sIdx).view (View.write (Elt F) (sIdx).view g (fetched m d L) Finset.univ)
      (S128.rowMajor.symm ((x 0).cast hn.symm))).toNat = _
    rw [sIdx_read, fetched_apply, idK_emb_eq L x _ hy]
    rfl
  match b with
  | 0 =>
    show 0 + 1 * (hg.idx _ x 0).val = (Cert.Spec.row (m (idLoc d) (ix1 ((gaK L).view.emb x 0)))).val
    rw [Cert.Spec.row_val _ (hin _), ← hrow, Nat.zero_add, Nat.one_mul]
    exact congrArg Fin.val (hg.idx_axis _ x)
  | 1 =>
    show 0 + 1 * (hg.idx _ x 1).val = ((gaK L).view.emb x 1).val
    rw [gaK_emb_one, Nat.zero_add, Nat.one_mul]
    exact hg.idx_of_ne _ x 1 (by decide)

/-- The row scratch, written whole with a payload, reads as the payload, whatever it held. -/
theorem sRows_read (fr : (sRows : Memref sig .scVector .vmem S128x128 .f32).view.ty.Contents (Elt F)) (P : S128x128.Idx → Elt F .f32) (x : S128x128.Idx) :
    ReadAs.same.apply (View.read (Elt F) (sRows).view ((sRows).view.writes (Elt F) fr [⟨Rect.whole S128x128, P⟩])) x = P x := by
  show View.read (Elt F) (sRows).view ((sRows).view.writes (Elt F) fr [⟨Rect.whole S128x128, P⟩]) x = P x
  have := View.read_writes_cons_emb (sRows).view fr (Rect.whole S128x128) P [] x
  rwa [Rect.emb_whole_apply] at this

/-- The block of the gathered array, written whole with a payload that is `G` at the block's elements, is `G`
    at every element of the block, whatever it held. -/
theorem gaK_written (f0 G : Buf (Elt F) (gaLoc d)) (P : S128x128.Idx → Elt F .f32)
    (hP : ∀ x, P x = G ((gaK L).view.emb x)) :
    ∀ j ∈ gaSet L, ((gaK L).view.writes (Elt F) f0 [⟨Rect.whole S128x128, P⟩]) j = G j := by
  intro j hj
  obtain ⟨x, -, rfl⟩ := Finset.mem_map.mp hj
  have h1 := View.read_writes_cons_emb (gaK L).view f0 (Rect.whole S128x128) P [] x
  rw [Rect.emb_whole_apply, View.read_apply, cast_eq] at h1
  exact h1.trans (hP x)

end Cert.Kernel.Tile

end
-- ==== Proof.WTile.lean ====
/-
  The task of one vector subcore, at a symbolic grid point: it fetches its 128 identifiers into a scratch of
  its own, gathers the 128 table rows they name into a second scratch, and writes those rows out to its block
  of the gathered array. Each of the three transfers is issued and waited for before the next: the
  schedule-free protocol of local transfers. The block's final contents are stated as the one function
  `gath` of the table and the identifiers.
-/
import proofs.«208745_g22711787061521_fold_wed_m_611_20_alg».proof.Proof.WTileVal
import Idealize.ShloMosaic.Lib.SparseCore.Stream
import Idealize.ShloMosaic.Lib.Transfers
import Idealize.ShloMosaic.Lib.Tactic

noncomputable section

namespace Cert.Kernel.Tile

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

section Tile

variable (d : Dev nD) (L : grid0.Coords)

/-- The task's three DMA semaphores, as cells of its thread. -/
abbrev cFcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cWcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cFcell d (cV L) (jV L)) 0 ∗ semVal (cGcell d (cV L) (jV L)) 0 ∗ semVal (cWcell d (cV L) (jV L)) 0
          ∗ bigSep ((((ownCells (V d (cV L) (jV L))).erase (cFcell d (cV L) (jV L))).erase (cGcell d (cV L) (jV L))).erase (cWcell d (cV L) (jV L)))
              fun g => semVal g 0) := by
  unfold SparseCore.Cfg.ownSems0
  rw [SparseCore.bigSep_erase' ((mem_ownCells (g := cFcell d (cV L) (jV L))).mpr ⟨rfl, by
      show (SemLoc.dma cc0_scoped0.sem : SemLoc sig).isScoped .scVector = true; decide⟩),
    SparseCore.bigSep_erase' (Finset.mem_erase.mpr ⟨by simp [cFcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cWcell]; decide, Finset.mem_erase.mpr ⟨by simp [cFcell, cWcell]; decide,
      (mem_ownCells (g := cWcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The arrays as the task's memrefs address them are the TensorCore's arrays. -/
theorem pts_tb (q : PosShare TreeShare) (f : Buf (Elt F) (tbLoc d)) :
    ((tbW).view.loc (V d (cV L) (jV L)) ↦{q} f : sProp 𝕄) = tbLoc d ↦{q} f := by
  simp only [Memref.view_whole, View.set_whole]
theorem pts_id (q : PosShare TreeShare) (f : Buf (Elt F) (idLoc d)) :
    ((idW).view.loc (V d (cV L) (jV L)) ↦{q} f : sProp 𝕄) = idLoc d ↦{q} f := by
  simp only [Memref.view_whole, View.set_whole]
theorem pts_ga (f : Buf (Elt F) (gaLoc d)) :
    ((gaK L).view.loc (V d (cV L) (jV L)) ↦[(gaK L).view.set]{fullShare} f : sProp 𝕄) = gaLoc d ↦[gaSet L]{fullShare} f := rfl
theorem pts_sIdx (f : Buf (Elt F) ((V d (cV L) (jV L)).loc cc0_scratch0)) :
    ((sIdx).view.loc (V d (cV L) (jV L)) ↦{fullShare} f : sProp 𝕄) = (V d (cV L) (jV L)).loc cc0_scratch0 ↦{fullShare} f := rfl
theorem pts_sRows (f : Buf (Elt F) ((V d (cV L) (jV L)).loc cc0_scratch1)) :
    ((sRows).view.loc (V d (cV L) (jV L)) ↦{fullShare} f : sProp 𝕄) = (V d (cV L) (jV L)).loc cc0_scratch1 ↦{fullShare} f := rfl

variable [FloatOps F]

theorem tile_body (hF : (K (F := F)).Facts) (d : Dev nD) (L : grid0.Coords) (q : PosShare TreeShare)
    (tb : Buf (Elt F) (tbLoc d)) (f0 : Buf (Elt F) (gaLoc d))
    (hin : ∀ b : S4096.Idx, (m (idLoc d) b).toNat < 1000)
    (O : CellTallies nD τ sig (HIx 1)) (W : Waits sig (HIx 1)) (hO : ∀ g, O g none = 0) :
    iprop(levAts (K (F := F)).L (K (F := F)).lev ∗ emp
        ∗ ((tbLoc d ↦{q} tb) ∗ (idLoc d ↦{q} m (idLoc d)) ∗ (gaLoc d ↦[gaSet L]{fullShare} f0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_body L tbW (Memref.isWhole_whole _) idW (Memref.isWhole_whole _) gaW (Memref.isWhole_whole _) sIdx (Memref.isWhole_whole _) sRows (Memref.isWhole_whole _) cc0_scratch2 cc0_scoped0 cc0_scoped1)
          fun _ => iprop(((tbLoc d ↦{q} tb) ∗ (idLoc d ↦{q} m (idLoc d)) ∗ (gaLoc d ↦[gaSet L]{fullShare} gath tb (m (idLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [cc0_body_eq_skeleton]; unfold cc0_body_skel
  rw [(K (F := F)).scopedBufs_V hF d (cV L) (jV L), SparseCore.Cfg.scopedSems0_V (Val := Elt F) d (cV L) (jV L), ownSems0_V, ownBufs_V]
  iintro ⟨#Hlv, -, ⟨Htb, Hid, Hga⟩, ⟨⟨%fi, Hsi⟩, ⟨%fr, Hsr⟩, Hbufs⟩, ⟨HsemF, HsemG, HsemW, Hsems⟩, HO⟩
  ihave Hmw := ((K (F := F)).mayWaits_none (thr := V d (cV L) (jV L)) hO) $$ Hlv
  ihave Htb' := (Entails.of_eq (pts_tb (F := F) d L q _).symm) $$ Htb
  ihave Hid' := (Entails.of_eq (pts_id (F := F) d L q _).symm) $$ Hid
  ihave Hga' := (Entails.of_eq (pts_ga (F := F) d L _).symm) $$ Hga
  ihave Hsi' := (Entails.of_eq (pts_sIdx (F := F) d L _).symm) $$ Hsi
  ihave Hsr' := (Entails.of_eq (pts_sRows (F := F) d L _).symm) $$ Hsr
  have hin' : ∀ (g : Buf (Elt F) ((V d (cV L) (jV L)).loc cc0_scratch0)) (x : S128.Idx),
      (View.read (Elt F) (sIdx).view (View.write (Elt F) (sIdx).view g
        (ReadAs.same.apply (View.read (Elt F) (idK L).view (m (idLoc d)))) Finset.univ) x).toNat < 1000 :=
    fun g x => fetched_inb m d L hin g x
  sl_exec
  sl_step
  -- the block holds, at each of its elements, the gathered array's value there
  have hP : ∀ x, tile_body.sl.dma0_1 m d L tb fi fr hin' x = gath tb (m (idLoc d)) ((gaK L).view.emb x) :=
    fun x => (sRows_read fr _ x).trans (gathered_apply m d L tb hin fi _ _ _ _ _ x)
  isplitl [Htb' Hid' Hga']
  · isplitl [Htb']; · iapply (Entails.of_eq (pts_tb (F := F) d L q _)); iexact Htb'
    isplitl [Hid']; · iapply (Entails.of_eq (pts_id (F := F) d L q _)); iexact Hid'
    iapply (Entails.of_eq ((pts_ga (F := F) d L _).trans (pointsTo_congr (gaK_written d L f0 (gath tb (m (idLoc d))) _ hP))))
    iexact Hga'
  isplitl [Hsi' Hsr' Hbufs]
  · isplitl [Hsi']; · iexists _; iapply (Entails.of_eq (pts_sIdx (F := F) d L _)); iexact Hsi'
    isplitl [Hsr']; · iexists _; iapply (Entails.of_eq (pts_sRows (F := F) d L _)); iexact Hsr'
    iexact Hbufs
  isplitl [HsemF HsemG HsemW Hsems]
  · isplitl [HsemF]; · iexact HsemF
    isplitl [HsemG]; · iexact HsemG
    isplitl [HsemW]; · iexact HsemW
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Kernel.Tile

end
-- ==== Proof.WObl.lean ====
/-
  The vector-subcore kernel's proof as the launch theorem asks for it: one subcore's task, entered through the
  extended body table, is the body run at that subcore's grid point; what the task was handed is what the body run
  starts from, and what it leaves is what the task hands back.
-/
import proofs.«208745_g22711787061521_fold_wed_m_611_20_alg».proof.Proof.WSplit
import proofs.«208745_g22711787061521_fold_wed_m_611_20_alg».proof.Proof.WTile

noncomputable section

namespace Cert.Kernel.Setup

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (m : (ℓ : Loc nD τ sig) → Buf (Elt F) ℓ) [FloatOps F]

theorem defs₀_vector (c : Fin τ.nSC) (s : Fin τ.nSub) :
    defs₀ (F := F) (.scVector c s) 0 ()
      = SparseCore.onTile hcore0 hsub0 (fun c s => cc0_body (coordsV c s)
          tbW (Memref.isWhole_whole _) idW (Memref.isWhole_whole _) gaW (Memref.isWhole_whole _)
          sIdx (Memref.isWhole_whole _) sRows (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation of the one call, from the indices' range. -/
theorem tileObl (hin : ∀ (d : Dev nD) (b : S4096.Idx), (m (idLoc d) b).toNat < 1000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (Cert.Kernel.Tile.tile_body m facts d (coordsV ⟨_, hc.1⟩ ⟨_, hc.2⟩) _ (tbV m d) (m (gaLoc d)) (hin d) O W hO).trans
    (wp_mono frame _ _ fun _ => obl_post)

end Cert.Kernel.Setup

end
-- ==== Proof.WRun.lean ====
/-
  The run of the whole program: the launch theorem for the one SparseCore call, fed the tasks' obligation, the
  split of a SparseCore's holdings among its subcores, the launch element, @main on the TensorCore, and the reading
  of the final memory as the result and the unchanged arguments.
-/
import proofs.«208745_g22711787061521_fold_wed_m_611_20_alg».proof.Proof.WObl
import proofs.«208745_g22711787061521_fold_wed_m_611_20_alg».proof.Proof.WPost

noncomputable section

namespace Cert.Kernel.Setup

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (ρ : Dev nD → PrngReg) [FloatOps F]

/-- What the final memory of every device says, device by device, is the run's post. -/
theorem hQC (s' : Phys nD τ sig (Elt F)) (h : ∀ d, fq m d s') : QC m (⟨⟩, s'.mem) := fun c => h c

/-- The program's run from @main's proof on the TensorCore: every weakly fair execution of the device's threads
    ends with the result at the assembled function of the launch memory and the five arguments unchanged. -/
theorem run_main [∀ e, Nonempty (Elt F e)]
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m d))
    (hin : ∀ (d : Dev nD) (b : S4096.Idx), (m (idLoc d) b).toNat < 1000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hin)
    (fun q _ => match q with | 0 => SparseCore.Cfg.VecSplit.of_plain (vecSplit m))
    m ρ main (G (F := F)) (FIN m) (u₀ (F := F)) (sep_elim_left.trans (hu₀ m)) hmain (fq m) (hfin m) (QC m) (hQC m)

end Cert.Kernel.Setup

end
-- ==== Proof.KMain.lean ====
/-
  @main on the TensorCore. Its first six operations are host operations: three reshapes, a constant, its conversion,
  and the padding of the table; then the SparseCore call, then the assembling call. Here: @main as that prefix
  followed by the two calls, the TensorCore's unscoped arrays as an explicit set of thirteen, and what each holds
  after the prefix, as a function of the launch memory.
-/
import proofs.«208745_g22711787061521_fold_wed_m_611_20_alg».proof.Proof.KLaunchA

noncomputable section

namespace Cert.KernelIdeal.Setup

open Cert.KernelIdeal Cert.KernelIdeal.Gen Cert.KernelIdeal.KVal

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type}

local notation "𝕄" => MM F

variable [FloatOps F]

/-- The host prefix of @main. -/
abbrev ops0 : List (HloOp τ sig (Elt F)) :=
  [ StableHlo.reshape main_arg0 main_v0 rfl Facts₀.shapeCasts_S4096x1x8_S4096x8,
    StableHlo.reshape main_arg1 main_v1 rfl Facts₀.shapeCasts_S4096x1x8_S4096x8,
    StableHlo.reshape main_arg3 main_v2 rfl Facts₀.shapeCasts_S4096x50x8_S4096x400,
    StableHlo.nullary main_c (constantI S_ 32 0#32),
    StableHlo.TRef.unary (.of main_c : StableHlo.TRef sig ⟨S_, .i32⟩) main_call0.v0 (sitofp .f32),
    StableHlo.TRef.binary (.of main_arg4 : StableHlo.TRef sig ⟨S1000x64, .f32⟩) main_call0.v0 main_call0.v1
      (fun x v => pad S1000x128 ![0, 0] ![0, 64] ![0, 0] x v Facts₀.pads_S1000x64_S1000x128_000_0640 Facts₀.h_S_) ]

/-- What follows the prefix: the SparseCore call, the assembling call, the return. -/
abbrev rest (d : Dev nD) : Prog (TpuEff nD τ sig (Elt F) (SparseCore.Sig (ΛP (F := F)) 1) .tc) PUnit := do
  sc.run d 0
  Prog.lift (.customCall (SparseCore.inner (Pipeline.entry 0)) ())
  pure ⟨⟩

theorem main_eq (d : Dev nD) : main (F := F) d = (StableHlo.seq ops0 >>= fun _ => rest d) := by
  simp only [main, fn_pad.body, StableHlo.seq, bind_assoc, pure_bind]

/-! ## The unscoped arrays -/

abbrev rf (b : Ref sig .tc) : DevRef τ sig := Proc.devRef .tc b

theorem ucRefs_eq : Pipeline.ucRefs τ sig
    = {rf main_arg0, rf main_arg1, rf main_arg2, rf main_arg3, rf main_arg4, rf main_v0, rf main_v1, rf main_v2, rf main_c, rf main_call0_v0,
        rf main_v3, rf main_v4, rf main_v5} := by decide

theorem ops0_sub : ∀ op ∈ (ops0 : List (HloOp τ sig (Elt F))), op.bufs ⊆ Pipeline.ucRefs τ sig := by
  intro op hop
  simp only [List.mem_cons, List.mem_nil_iff, or_false] at hop
  rcases hop with rfl | rfl | rfl | rfl | rfl | rfl <;> exact Pipeline.sub_ucRefs _ (by simp)

theorem ops0_fresh : ∀ op ∈ (ops0 : List (HloOp τ sig (Elt F))), op.fresh = ∅ := by
  intro op hop
  simp only [List.mem_cons, List.mem_nil_iff, or_false] at hop
  rcases hop with rfl | rfl | rfl | rfl | rfl | rfl <;> rfl

abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev cLoc (d : Dev nD) : Loc nD τ sig := (SparseCore.T d).loc main_c
abbrev c0Loc (d : Dev nD) : Loc nD τ sig := (SparseCore.T d).loc main_call0_v0

omit [FloatOps F] in
/-- The thirteen unscoped arrays held at a valuation, one by one. -/
theorem held13 (d : Dev nD) (W : Valuation τ sig (Elt F)) :
    (held (T d) (Pipeline.ucRefs τ sig) W : sProp 𝕄)
      = iprop((a0Loc d ↦{fullShare} W (rf main_arg0)) ∗ (a1Loc d ↦{fullShare} W (rf main_arg1)) ∗ (idLoc d ↦{fullShare} W (rf main_arg2))
          ∗ (a3Loc d ↦{fullShare} W (rf main_arg3)) ∗ (a4Loc d ↦{fullShare} W (rf main_arg4)) ∗ (v0Loc d ↦{fullShare} W (rf main_v0))
          ∗ (v1Loc d ↦{fullShare} W (rf main_v1)) ∗ (v2Loc d ↦{fullShare} W (rf main_v2)) ∗ (cLoc d ↦{fullShare} W (rf main_c))
          ∗ (c0Loc d ↦{fullShare} W (rf main_call0_v0)) ∗ (tbLoc d ↦{fullShare} W (rf main_v3)) ∗ (gaLoc d ↦{fullShare} W (rf main_v4))
          ∗ (v5Loc d ↦{fullShare} W (rf main_v5))) := by
  unfold held
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## What the arrays hold after the prefix -/

variable (m : (ℓ : Loc nD τ sig) → Buf (Elt F) ℓ)

/-- The launch valuation of device `d`, and the one after the host prefix. -/
def V0 (d : Dev nD) : Valuation τ sig (Elt F) := fun b => m (d, b)
def V1 (d : Dev nD) : Valuation τ sig (Elt F) := after ops0 (V0 m d)

theorem V1_arg0 (d : Dev nD) : V1 m d (rf main_arg0) = m (a0Loc d) := by unfold V1 V0; after_results
theorem V1_arg1 (d : Dev nD) : V1 m d (rf main_arg1) = m (a1Loc d) := by unfold V1 V0; after_results
theorem V1_arg2 (d : Dev nD) : V1 m d (rf main_arg2) = m (idLoc d) := by unfold V1 V0; after_results
theorem V1_arg3 (d : Dev nD) : V1 m d (rf main_arg3) = m (a3Loc d) := by unfold V1 V0; after_results
theorem V1_arg4 (d : Dev nD) : V1 m d (rf main_arg4) = m (a4Loc d) := by unfold V1 V0; after_results
theorem V1_v0 (d : Dev nD) : V1 m d (rf main_v0) = flat8 (m (a0Loc d)) := by unfold V1 V0; after_results; rfl
theorem V1_v1 (d : Dev nD) : V1 m d (rf main_v1) = flat8 (m (a1Loc d)) := by unfold V1 V0; after_results; rfl
theorem V1_v2 (d : Dev nD) : V1 m d (rf main_v2) = flat400 (m (a3Loc d)) := by unfold V1 V0; after_results; rfl
theorem V1_v3 (d : Dev nD) : V1 m d (rf main_v3) = tbV m d := by unfold V1 V0; after_results; rfl
theorem V1_v4 (d : Dev nD) : V1 m d (rf main_v4) = m (gaLoc d) := by unfold V1 V0; after_results
theorem V1_v5 (d : Dev nD) : V1 m d (rf main_v5) = m (v5Loc d) := by unfold V1 V0; after_results

end Cert.KernelIdeal.Setup

end
-- ==== Proof.KSplitTc.lean ====
/-
  The TensorCore's split of the call's operands between the two SparseCores, and the join on the way back: the table
  and the indices as read shares (the TensorCore keeps what is left of the full share meanwhile), the gathered array
  by its blocks.
-/
import proofs.«208745_g22711787061521_fold_wed_m_611_20_alg».proof.Proof.KSplit

noncomputable section

namespace Cert.KernelIdeal.Setup

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (m : (ℓ : Loc nD τ sig) → Buf (Elt F) ℓ) [FloatOps F]

/-- What the TensorCore keeps of the two read arrays while the SparseCores hold their shares. -/
abbrev keptPts (d : Dev nD) : sProp 𝕄 :=
  iprop((tbLoc d ↦{Transfers.shareDrop fullShare 2} tbV m d) ∗ (idLoc d ↦{Transfers.shareDrop fullShare 2} m (idLoc d)))

theorem tc_split (d : Dev nD) (f : Buf (Elt F) (gaLoc d)) :
    iprop((tbLoc d ↦{fullShare} tbV m d) ∗ (idLoc d ↦{fullShare} m (idLoc d)) ∗ (gaLoc d ↦{fullShare} f))
      ⊢ iprop(keptPts m d ∗ bigSep Finset.univ fun c : Fin 2 => corePts m d c f) := by
  rw [bigSep_sep', bigSep_sep', ga_blocks]
  iintro ⟨Ht, Hi, Hg⟩
  ihave Ht2 := (Transfers.pointsTo_toks_split fullShare 2) $$ Ht
  icases Ht2 with ⟨Htd, Htt⟩
  ihave Hi2 := (Transfers.pointsTo_toks_split fullShare 2) $$ Hi
  icases Hi2 with ⟨Hid, Hit⟩
  isplitl [Htd Hid]
  · isplitl [Htd]; · iexact Htd
    iexact Hid
  isplitl [Htt]; · iexact Htt
  isplitl [Hit]; · iexact Hit
  iexact Hg

theorem tc_join (d : Dev nD) (f : Buf (Elt F) (gaLoc d)) :
    iprop(keptPts m d ∗ bigSep Finset.univ fun c : Fin 2 => corePts m d c f)
      ⊢ iprop((tbLoc d ↦{fullShare} tbV m d) ∗ (idLoc d ↦{fullShare} m (idLoc d)) ∗ (gaLoc d ↦{fullShare} f)) := by
  rw [bigSep_sep', bigSep_sep', ga_blocks]
  iintro ⟨⟨Htd, Hid⟩, Htt, Hit, Hg⟩
  isplitl [Htd Htt]
  · iapply (Transfers.pointsTo_toks_join fullShare 2)
    isplitl [Htd]; · iexact Htd
    iexact Htt
  isplitl [Hid Hit]
  · iapply (Transfers.pointsTo_toks_join fullShare 2)
    isplitl [Hid]; · iexact Hid
    iexact Hit
  iexact Hg

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c) = bigSep Finset.univ fun c : Fin 2 => corePts m d c (m (gaLoc d)) :=
  bigSep_cores (F := F) (fun c => corePts m d c (m (gaLoc d)))
theorem dn0_eq (d : Dev nD) :
    (bigSep Finset.univ fun c : Fin ((K (F := F)).nCore 0) => (P m).dn 0 d c) = bigSep Finset.univ fun c : Fin 2 => corePts m d c (gaV m d) :=
  bigSep_cores (F := F) (fun c => corePts m d c (gaV m d))

end Cert.KernelIdeal.Setup

end
-- ==== Proof.KTcSt.lean ====
/-
  The TensorCore's handshake state after the program's one SparseCore call: it owes nothing any more, so the
  assembling call that follows may record waits of its own. What it owes is set apart from the rest of the
  state, and put back with any record of waits that adds only waits at no call's index.
-/
import proofs.«208745_g22711787061521_fold_wed_m_611_20_alg».proof.Proof.KPay
import Idealize.ShloMosaic.Lib.SparseCore.Threads

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- Waits recorded at no call's index sit at level zero: a record that adds only such waits to one below a
    bound is below it. -/
theorem wBelow_of_none (d : Dev nD) {W W' : Waits sig (HIx 1)} {b : ℕ} (hW : (K (F := F)).WBelow (T d) W b)
    (hW' : ∀ p ∈ W', p ∈ W ∨ p.2 = none) : (K (F := F)).WBelow (T d) W' b := by
  intro p hp
  rcases hW' p hp with h | h
  · exact hW p h
  · rw [h, SparseCore.Cfg.lev_none]; exact Nat.zero_le _

/-- After the one call the TensorCore owes nothing; what it owes comes apart from its state and goes back with
    any record of waits that adds only waits at no call's index. -/
theorem tcSt_open (d : Dev nD) :
    ((K (F := F)).tcSt (EH (F := F)) d 1 : sProp 𝕄)
      ⊢ iprop(∃ W : Waits sig (HIx 1), owes (T d) (0 : CellTallies nD τ sig (HIx 1)) W
          ∗ (∀ W' : Waits sig (HIx 1), ⌜∀ p ∈ W', p ∈ W ∨ p.2 = none⌝ -∗ owes (T d) (0 : CellTallies nD τ sig (HIx 1)) W'
              -∗ (K (F := F)).tcSt (EH (F := F)) d 1)) := by
  unfold SparseCore.Cfg.tcSt
  rw [(K (F := F)).Otc_end d (le_refl 1)]
  iintro ⟨⟨%W, %hW, HO⟩, Hrest⟩
  iexists W
  isplitl [HO]; · iexact HO
  iintro %W' %hW' HO'
  isplitl [HO']
  · iexists W'; isplitr
    · ipureintro; exact wBelow_of_none d hW hW'
    · iexact HO'
  · iexact Hrest

end Cert.KernelIdeal.Setup

end
-- ==== Proof.KHMain.lean ====
/-
  @main on the TensorCore, run: the host prefix over the thirteen unscoped arrays; the SparseCore call, handing each
  SparseCore its read shares and blocks and taking them back with the gathered rows in place; the assembling call over
  the four arrays it reads and the result; at the end the five arguments at their launch contents and the result at
  the assembled function of them.
-/
import proofs.«208745_g22711787061521_fold_wed_m_611_20_alg».proof.Proof.KMain
import proofs.«208745_g22711787061521_fold_wed_m_611_20_alg».proof.Proof.KSplitTc
import proofs.«208745_g22711787061521_fold_wed_m_611_20_alg».proof.Proof.KTcSt

noncomputable section

namespace Cert.KernelIdeal.Setup

open Cert.KernelIdeal Cert.KernelIdeal.Gen Cert.KernelIdeal.KVal

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type}

local notation "𝕄" => MM F

variable [FloatOps F]

/-! ## The assembling region's rule, as @main uses it -/

/-- What the region is entered with: the four arrays it reads and the result array, whole, and what the TensorCore owes
    (nothing) with its recorded waits. -/
abbrev regPre (d : Dev nD) (a0 a1 : S4096x8.Idx → F .f32) (a4 : S4096x128.Idx → F .f32) (a2 : S4096x400.Idx → F .f32)
    (a5 : S4096x50x96.Idx → F .f32) (W : Waits sig (HIx 1)) : sProp 𝕄 :=
  iprop((v0Loc d ↦{fullShare} a0) ∗ (v1Loc d ↦{fullShare} a1) ∗ (gaLoc d ↦{fullShare} a4) ∗ (v2Loc d ↦{fullShare} a2) ∗ (v5Loc d ↦{fullShare} a5)
    ∗ owes (T d) (0 : CellTallies nD τ sig (HIx 1)) W)
/-- What it leaves: the same, the result at the assembled function, the new waits all at index `none`. -/
abbrev regPost (d : Dev nD) (a0 a1 : S4096x8.Idx → F .f32) (a4 : S4096x128.Idx → F .f32) (a2 : S4096x400.Idx → F .f32)
    (W : Waits sig (HIx 1)) : sProp 𝕄 :=
  iprop((v0Loc d ↦{fullShare} a0) ∗ (v1Loc d ↦{fullShare} a1) ∗ (gaLoc d ↦{fullShare} a4) ∗ (v2Loc d ↦{fullShare} a2)
    ∗ (v5Loc d ↦{fullShare} asm a0 a1 a4 a2)
    ∗ ∃ W' : Waits sig (HIx 1), ⌜∀ p ∈ W', p ∈ W ∨ p.2 = none⌝ ∗ owes (T d) (0 : CellTallies nD τ sig (HIx 1)) W')

def RegionWp : Prop :=
  ∀ (d : Dev nD) (a0 a1 : S4096x8.Idx → F .f32) (a4 : S4096x128.Idx → F .f32) (a2 : S4096x400.Idx → F .f32) (a5 : S4096x50x96.Idx → F .f32)
    (W : Waits sig (HIx 1)) (k : PUnit → Prog (TpuEff nD τ sig (Elt F) (SparseCore.Sig (ΛP (F := F)) 1) .tc) PUnit) (Q : PUnit → sProp 𝕄),
    iprop((iprop(boundary (T d) ∗ regPost d a0 a1 a4 a2 W) -∗ wp frame (wpE ((K (F := F)).defs (D (F := F))) 𝒱 (T d) none) Set.univ (k ⟨⟩) Q)
        ∗ boundary (T d) ∗ regPre d a0 a1 a4 a2 a5 W ∗ levAts (K (F := F)).L (K (F := F)).lev
        ∗ Pipeline.cellsGhost cfgs EP 0 d ∗ Pipeline.toksInit cfgs EP 0 d)
      ⊢ wp frame (wpE ((K (F := F)).defs (D (F := F))) 𝒱 (T d) none) Set.univ (.op (.customCall (SparseCore.inner (Pipeline.entry 0)) ()) k) Q

/-! ## @main -/

variable (m : (ℓ : Loc nD τ sig) → Buf (Elt F) ℓ) (ρ : Dev nD → PrngReg)

/-- The thirteen arrays after the host prefix, at their contents as functions of the launch memory (the constant and
    its conversion at whatever they hold). -/
theorem held13_V1 (d : Dev nD) :
    (held (d.tc : Thread nD τ) (Pipeline.ucRefs τ sig) (after ops0 (V0 m d)) : sProp 𝕄)
      = iprop((a0Loc d ↦{fullShare} m (a0Loc d)) ∗ (a1Loc d ↦{fullShare} m (a1Loc d)) ∗ (idLoc d ↦{fullShare} m (idLoc d))
          ∗ (a3Loc d ↦{fullShare} m (a3Loc d)) ∗ (a4Loc d ↦{fullShare} m (a4Loc d)) ∗ (v0Loc d ↦{fullShare} flat8 (m (a0Loc d)))
          ∗ (v1Loc d ↦{fullShare} flat8 (m (a1Loc d))) ∗ (v2Loc d ↦{fullShare} flat400 (m (a3Loc d))) ∗ (cLoc d ↦{fullShare} V1 m d (rf main_c))
          ∗ (c0Loc d ↦{fullShare} V1 m d (rf main_call0_v0)) ∗ (tbLoc d ↦{fullShare} tbV m d) ∗ (gaLoc d ↦{fullShare} m (gaLoc d))
          ∗ (v5Loc d ↦{fullShare} m (v5Loc d))) := by
  show (held (T d) (Pipeline.ucRefs τ sig) (V1 m d) : sProp 𝕄) = _
  rw [held13, V1_arg0, V1_arg1, V1_arg2, V1_arg3, V1_arg4, V1_v0, V1_v1, V1_v2, V1_v3, V1_v4, V1_v5]

theorem hmain (hR : RegionWp (F := F)) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [show unscopedBufs d (fun b => m ((SparseCore.T d).loc b)) = held (T d) (Pipeline.ucRefs τ sig) (V0 m d)
      from Pipeline.unscopedBufs_held d (V0 m d), main_eq]
  iintro ⟨#Hctx, Hst, ⟨Hb, Hheld, -, -⟩, ⟨Hcg, Htk⟩⟩
  iapply (StableHlo.wp_seq 𝒱 none Set.univ d (Pipeline.ucRefs τ sig) (fun _ => rest d) ops0 ops0_sub ops0_fresh (V0 m d)) $$ [Hb Hheld]
  · isplitl [Hb]; · iexact Hb
    iexact Hheld
  iintro ⟨Hb, Hheld⟩
  ihave Hh := (Entails.of_eq (held13_V1 m d)) $$ Hheld
  icases Hh with ⟨H0, H1, Hid, H3, H4, Hv0, Hv1, Hv2, Hc, Hc0, Htb, Hga, Hv5⟩
  simp only [wp_bind]
  ihave Hsp := (tc_split m d (m (gaLoc d))) $$ [Htb Hid Hga]
  · isplitl [Htb]; · iexact Htb
    isplitl [Hid]; · iexact Hid
    iexact Hga
  icases Hsp with ⟨Hkept, Hcores⟩
  iapply ((K (F := F)).wp_run (D (F := F)) 𝒱 (EH := EH) (P := P m) κ d 0) $$ [Hst Hcores Hkept Hcg Htk Hb H0 H1 H3 H4 Hv0 Hv1 Hv2 Hc Hc0 Hv5]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hj := (tc_join m d (gaV m d)) $$ [Hkept Hdn']
  · isplitl [Hkept]; · iexact Hkept
    iexact Hdn'
  icases Hj with ⟨Htb, Hid, Hga⟩
  ihave Hst1 := (Entails.of_eq (show ((K (F := F)).tcSt (EH (F := F)) d ((0 : Fin 1).val + 1) : sProp 𝕄) = (K (F := F)).tcSt (EH (F := F)) d 1 from rfl)) $$ Hst
  ihave Ho := (tcSt_open d) $$ Hst1
  icases Ho with ⟨%W, HO, Hclose⟩
  ihave Hlev := (SparseCore.Cfg.ctx_levAts κ) $$ Hctx
  simp only [Prog.lift]
  iapply (hR d (flat8 (m (a0Loc d))) (flat8 (m (a1Loc d))) (gaV m d) (flat400 (m (a3Loc d))) (m (v5Loc d)) W (fun x => .ret x) _) $$ [Hcg Htk Hb H0 H1 H3 H4 Hv0 Hv1 Hv2 Hv5 Htb Hid Hga HO Hclose]
  isplitl [H0 H1 H3 H4 Htb Hid Hclose]
  · iintro ⟨Hb, Hv0, Hv1, Hga, Hv2, Hv5, %W', %hW', HO⟩
    rw [wp_ret]
    imodintro
    simp only [wp_pure]
    imodintro
    isplitl [Hclose HO]
    · ispecialize Hclose $$ %W' %hW' HO
      iexact Hclose
    unfold FIN outV
    isplitl [Hv5]; · iexact Hv5
    isplitl [H0]; · iexact H0
    isplitl [H1]; · iexact H1
    isplitl [Hid]; · iexact Hid
    isplitl [H3]; · iexact H3
    iexact H4
  isplitl [Hb]; · iexact Hb
  isplitl [Hv0 Hv1 Hga Hv2 Hv5 HO]
  · isplitl [Hv0]; · iexact Hv0
    isplitl [Hv1]; · iexact Hv1
    isplitl [Hga]; · iexact Hga
    isplitl [Hv2]; · iexact Hv2
    isplitl [Hv5]; · iexact Hv5
    iexact HO
  isplitr; · iexact Hlev
  isplitl [Hcg]; · iexact Hcg
  iexact Htk

end Cert.KernelIdeal.Setup

end
-- ==== Proof.WMain.lean ====
/-
  @main on the TensorCore. Its first six operations are host operations: three reshapes, a constant, its conversion,
  and the padding of the table; then the SparseCore call, then the assembling call. Here: @main as that prefix
  followed by the two calls, the TensorCore's unscoped arrays as an explicit set of thirteen, and what each holds
  after the prefix, as a function of the launch memory.
-/
import proofs.«208745_g22711787061521_fold_wed_m_611_20_alg».proof.Proof.WLaunchA

noncomputable section

namespace Cert.Kernel.Setup

open Cert.Kernel Cert.Kernel.Gen Cert.Kernel.KVal

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type}

local notation "𝕄" => MM F

variable [FloatOps F]

/-- The host prefix of @main. -/
abbrev ops0 : List (HloOp τ sig (Elt F)) :=
  [ StableHlo.reshape main_arg0 main_v0 rfl Facts₀.shapeCasts_S4096x1x8_S4096x8,
    StableHlo.reshape main_arg1 main_v1 rfl Facts₀.shapeCasts_S4096x1x8_S4096x8,
    StableHlo.reshape main_arg3 main_v2 rfl Facts₀.shapeCasts_S4096x50x8_S4096x400,
    StableHlo.nullary main_c (constantI S_ 32 0#32),
    StableHlo.TRef.unary (.of main_c : StableHlo.TRef sig ⟨S_, .i32⟩) main_call0.v0 (sitofp .f32),
    StableHlo.TRef.binary (.of main_arg4 : StableHlo.TRef sig ⟨S1000x64, .f32⟩) main_call0.v0 main_call0.v1
      (fun x v => pad S1000x128 ![0, 0] ![0, 64] ![0, 0] x v Facts₀.pads_S1000x64_S1000x128_000_0640 Facts₀.h_S_) ]

/-- What follows the prefix: the SparseCore call, the assembling call, the return. -/
abbrev rest (d : Dev nD) : Prog (TpuEff nD τ sig (Elt F) (SparseCore.Sig (ΛP (F := F)) 1) .tc) PUnit := do
  sc.run d 0
  Prog.lift (.customCall (SparseCore.inner (Pipeline.entry 0)) ())
  pure ⟨⟩

theorem main_eq (d : Dev nD) : main (F := F) d = (StableHlo.seq ops0 >>= fun _ => rest d) := by
  simp only [main, fn_pad.body, StableHlo.seq, bind_assoc, pure_bind]

/-! ## The unscoped arrays -/

abbrev rf (b : Ref sig .tc) : DevRef τ sig := Proc.devRef .tc b

theorem ucRefs_eq : Pipeline.ucRefs τ sig
    = {rf main_arg0, rf main_arg1, rf main_arg2, rf main_arg3, rf main_arg4, rf main_v0, rf main_v1, rf main_v2, rf main_c, rf main_call0_v0,
        rf main_v3, rf main_v4, rf main_v5} := by decide

theorem ops0_sub : ∀ op ∈ (ops0 : List (HloOp τ sig (Elt F))), op.bufs ⊆ Pipeline.ucRefs τ sig := by
  intro op hop
  simp only [List.mem_cons, List.mem_nil_iff, or_false] at hop
  rcases hop with rfl | rfl | rfl | rfl | rfl | rfl <;> exact Pipeline.sub_ucRefs _ (by simp)

theorem ops0_fresh : ∀ op ∈ (ops0 : List (HloOp τ sig (Elt F))), op.fresh = ∅ := by
  intro op hop
  simp only [List.mem_cons, List.mem_nil_iff, or_false] at hop
  rcases hop with rfl | rfl | rfl | rfl | rfl | rfl <;> rfl

abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev cLoc (d : Dev nD) : Loc nD τ sig := (SparseCore.T d).loc main_c
abbrev c0Loc (d : Dev nD) : Loc nD τ sig := (SparseCore.T d).loc main_call0_v0

omit [FloatOps F] in
/-- The thirteen unscoped arrays held at a valuation, one by one. -/
theorem held13 (d : Dev nD) (W : Valuation τ sig (Elt F)) :
    (held (T d) (Pipeline.ucRefs τ sig) W : sProp 𝕄)
      = iprop((a0Loc d ↦{fullShare} W (rf main_arg0)) ∗ (a1Loc d ↦{fullShare} W (rf main_arg1)) ∗ (idLoc d ↦{fullShare} W (rf main_arg2))
          ∗ (a3Loc d ↦{fullShare} W (rf main_arg3)) ∗ (a4Loc d ↦{fullShare} W (rf main_arg4)) ∗ (v0Loc d ↦{fullShare} W (rf main_v0))
          ∗ (v1Loc d ↦{fullShare} W (rf main_v1)) ∗ (v2Loc d ↦{fullShare} W (rf main_v2)) ∗ (cLoc d ↦{fullShare} W (rf main_c))
          ∗ (c0Loc d ↦{fullShare} W (rf main_call0_v0)) ∗ (tbLoc d ↦{fullShare} W (rf main_v3)) ∗ (gaLoc d ↦{fullShare} W (rf main_v4))
          ∗ (v5Loc d ↦{fullShare} W (rf main_v5))) := by
  unfold held
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## What the arrays hold after the prefix -/

variable (m : (ℓ : Loc nD τ sig) → Buf (Elt F) ℓ)

/-- The launch valuation of device `d`, and the one after the host prefix. -/
def V0 (d : Dev nD) : Valuation τ sig (Elt F) := fun b => m (d, b)
def V1 (d : Dev nD) : Valuation τ sig (Elt F) := after ops0 (V0 m d)

theorem V1_arg0 (d : Dev nD) : V1 m d (rf main_arg0) = m (a0Loc d) := by unfold V1 V0; after_results
theorem V1_arg1 (d : Dev nD) : V1 m d (rf main_arg1) = m (a1Loc d) := by unfold V1 V0; after_results
theorem V1_arg2 (d : Dev nD) : V1 m d (rf main_arg2) = m (idLoc d) := by unfold V1 V0; after_results
theorem V1_arg3 (d : Dev nD) : V1 m d (rf main_arg3) = m (a3Loc d) := by unfold V1 V0; after_results
theorem V1_arg4 (d : Dev nD) : V1 m d (rf main_arg4) = m (a4Loc d) := by unfold V1 V0; after_results
theorem V1_v0 (d : Dev nD) : V1 m d (rf main_v0) = flat8 (m (a0Loc d)) := by unfold V1 V0; after_results; rfl
theorem V1_v1 (d : Dev nD) : V1 m d (rf main_v1) = flat8 (m (a1Loc d)) := by unfold V1 V0; after_results; rfl
theorem V1_v2 (d : Dev nD) : V1 m d (rf main_v2) = flat400 (m (a3Loc d)) := by unfold V1 V0; after_results; rfl
theorem V1_v3 (d : Dev nD) : V1 m d (rf main_v3) = tbV m d := by unfold V1 V0; after_results; rfl
theorem V1_v4 (d : Dev nD) : V1 m d (rf main_v4) = m (gaLoc d) := by unfold V1 V0; after_results
theorem V1_v5 (d : Dev nD) : V1 m d (rf main_v5) = m (v5Loc d) := by unfold V1 V0; after_results

end Cert.Kernel.Setup

end
-- ==== Proof.WSplitTc.lean ====
/-
  The TensorCore's split of the call's operands between the two SparseCores, and the join on the way back: the table
  and the indices as read shares (the TensorCore keeps what is left of the full share meanwhile), the gathered array
  by its blocks.
-/
import proofs.«208745_g22711787061521_fold_wed_m_611_20_alg».proof.Proof.WSplit

noncomputable section

namespace Cert.Kernel.Setup

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (m : (ℓ : Loc nD τ sig) → Buf (Elt F) ℓ) [FloatOps F]

/-- What the TensorCore keeps of the two read arrays while the SparseCores hold their shares. -/
abbrev keptPts (d : Dev nD) : sProp 𝕄 :=
  iprop((tbLoc d ↦{Transfers.shareDrop fullShare 2} tbV m d) ∗ (idLoc d ↦{Transfers.shareDrop fullShare 2} m (idLoc d)))

theorem tc_split (d : Dev nD) (f : Buf (Elt F) (gaLoc d)) :
    iprop((tbLoc d ↦{fullShare} tbV m d) ∗ (idLoc d ↦{fullShare} m (idLoc d)) ∗ (gaLoc d ↦{fullShare} f))
      ⊢ iprop(keptPts m d ∗ bigSep Finset.univ fun c : Fin 2 => corePts m d c f) := by
  rw [bigSep_sep', bigSep_sep', ga_blocks]
  iintro ⟨Ht, Hi, Hg⟩
  ihave Ht2 := (Transfers.pointsTo_toks_split fullShare 2) $$ Ht
  icases Ht2 with ⟨Htd, Htt⟩
  ihave Hi2 := (Transfers.pointsTo_toks_split fullShare 2) $$ Hi
  icases Hi2 with ⟨Hid, Hit⟩
  isplitl [Htd Hid]
  · isplitl [Htd]; · iexact Htd
    iexact Hid
  isplitl [Htt]; · iexact Htt
  isplitl [Hit]; · iexact Hit
  iexact Hg

theorem tc_join (d : Dev nD) (f : Buf (Elt F) (gaLoc d)) :
    iprop(keptPts m d ∗ bigSep Finset.univ fun c : Fin 2 => corePts m d c f)
      ⊢ iprop((tbLoc d ↦{fullShare} tbV m d) ∗ (idLoc d ↦{fullShare} m (idLoc d)) ∗ (gaLoc d ↦{fullShare} f)) := by
  rw [bigSep_sep', bigSep_sep', ga_blocks]
  iintro ⟨⟨Htd, Hid⟩, Htt, Hit, Hg⟩
  isplitl [Htd Htt]
  · iapply (Transfers.pointsTo_toks_join fullShare 2)
    isplitl [Htd]; · iexact Htd
    iexact Htt
  isplitl [Hid Hit]
  · iapply (Transfers.pointsTo_toks_join fullShare 2)
    isplitl [Hid]; · iexact Hid
    iexact Hit
  iexact Hg

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c) = bigSep Finset.univ fun c : Fin 2 => corePts m d c (m (gaLoc d)) :=
  bigSep_cores (F := F) (fun c => corePts m d c (m (gaLoc d)))
theorem dn0_eq (d : Dev nD) :
    (bigSep Finset.univ fun c : Fin ((K (F := F)).nCore 0) => (P m).dn 0 d c) = bigSep Finset.univ fun c : Fin 2 => corePts m d c (gaV m d) :=
  bigSep_cores (F := F) (fun c => corePts m d c (gaV m d))

end Cert.Kernel.Setup

end
-- ==== Proof.WTcSt.lean ====
/-
  The TensorCore's handshake state after the program's one SparseCore call: it owes nothing any more, so the
  assembling call that follows may record waits of its own. What it owes is set apart from the rest of the
  state, and put back with any record of waits that adds only waits at no call's index.
-/
import proofs.«208745_g22711787061521_fold_wed_m_611_20_alg».proof.Proof.WPay
import Idealize.ShloMosaic.Lib.SparseCore.Threads

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- Waits recorded at no call's index sit at level zero: a record that adds only such waits to one below a
    bound is below it. -/
theorem wBelow_of_none (d : Dev nD) {W W' : Waits sig (HIx 1)} {b : ℕ} (hW : (K (F := F)).WBelow (T d) W b)
    (hW' : ∀ p ∈ W', p ∈ W ∨ p.2 = none) : (K (F := F)).WBelow (T d) W' b := by
  intro p hp
  rcases hW' p hp with h | h
  · exact hW p h
  · rw [h, SparseCore.Cfg.lev_none]; exact Nat.zero_le _

/-- After the one call the TensorCore owes nothing; what it owes comes apart from its state and goes back with
    any record of waits that adds only waits at no call's index. -/
theorem tcSt_open (d : Dev nD) :
    ((K (F := F)).tcSt (EH (F := F)) d 1 : sProp 𝕄)
      ⊢ iprop(∃ W : Waits sig (HIx 1), owes (T d) (0 : CellTallies nD τ sig (HIx 1)) W
          ∗ (∀ W' : Waits sig (HIx 1), ⌜∀ p ∈ W', p ∈ W ∨ p.2 = none⌝ -∗ owes (T d) (0 : CellTallies nD τ sig (HIx 1)) W'
              -∗ (K (F := F)).tcSt (EH (F := F)) d 1)) := by
  unfold SparseCore.Cfg.tcSt
  rw [(K (F := F)).Otc_end d (le_refl 1)]
  iintro ⟨⟨%W, %hW, HO⟩, Hrest⟩
  iexists W
  isplitl [HO]; · iexact HO
  iintro %W' %hW' HO'
  isplitl [HO']
  · iexists W'; isplitr
    · ipureintro; exact wBelow_of_none d hW hW'
    · iexact HO'
  · iexact Hrest

end Cert.Kernel.Setup

end
-- ==== Proof.WHMain.lean ====
/-
  @main on the TensorCore, run: the host prefix over the thirteen unscoped arrays; the SparseCore call, handing each
  SparseCore its read shares and blocks and taking them back with the gathered rows in place; the assembling call over
  the four arrays it reads and the result; at the end the five arguments at their launch contents and the result at
  the assembled function of them.
-/
import proofs.«208745_g22711787061521_fold_wed_m_611_20_alg».proof.Proof.WMain
import proofs.«208745_g22711787061521_fold_wed_m_611_20_alg».proof.Proof.WSplitTc
import proofs.«208745_g22711787061521_fold_wed_m_611_20_alg».proof.Proof.WTcSt

noncomputable section

namespace Cert.Kernel.Setup

open Cert.Kernel Cert.Kernel.Gen Cert.Kernel.KVal

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type}

local notation "𝕄" => MM F

variable [FloatOps F]

/-! ## The assembling region's rule, as @main uses it -/

/-- What the region is entered with: the four arrays it reads and the result array, whole, and what the TensorCore owes
    (nothing) with its recorded waits. -/
abbrev regPre (d : Dev nD) (a0 a1 : S4096x8.Idx → F .f32) (a4 : S4096x128.Idx → F .f32) (a2 : S4096x400.Idx → F .f32)
    (a5 : S4096x50x96.Idx → F .f32) (W : Waits sig (HIx 1)) : sProp 𝕄 :=
  iprop((v0Loc d ↦{fullShare} a0) ∗ (v1Loc d ↦{fullShare} a1) ∗ (gaLoc d ↦{fullShare} a4) ∗ (v2Loc d ↦{fullShare} a2) ∗ (v5Loc d ↦{fullShare} a5)
    ∗ owes (T d) (0 : CellTallies nD τ sig (HIx 1)) W)
/-- What it leaves: the same, the result at the assembled function, the new waits all at index `none`. -/
abbrev regPost (d : Dev nD) (a0 a1 : S4096x8.Idx → F .f32) (a4 : S4096x128.Idx → F .f32) (a2 : S4096x400.Idx → F .f32)
    (W : Waits sig (HIx 1)) : sProp 𝕄 :=
  iprop((v0Loc d ↦{fullShare} a0) ∗ (v1Loc d ↦{fullShare} a1) ∗ (gaLoc d ↦{fullShare} a4) ∗ (v2Loc d ↦{fullShare} a2)
    ∗ (v5Loc d ↦{fullShare} asm a0 a1 a4 a2)
    ∗ ∃ W' : Waits sig (HIx 1), ⌜∀ p ∈ W', p ∈ W ∨ p.2 = none⌝ ∗ owes (T d) (0 : CellTallies nD τ sig (HIx 1)) W')

def RegionWp : Prop :=
  ∀ (d : Dev nD) (a0 a1 : S4096x8.Idx → F .f32) (a4 : S4096x128.Idx → F .f32) (a2 : S4096x400.Idx → F .f32) (a5 : S4096x50x96.Idx → F .f32)
    (W : Waits sig (HIx 1)) (k : PUnit → Prog (TpuEff nD τ sig (Elt F) (SparseCore.Sig (ΛP (F := F)) 1) .tc) PUnit) (Q : PUnit → sProp 𝕄),
    iprop((iprop(boundary (T d) ∗ regPost d a0 a1 a4 a2 W) -∗ wp frame (wpE ((K (F := F)).defs (D (F := F))) 𝒱 (T d) none) Set.univ (k ⟨⟩) Q)
        ∗ boundary (T d) ∗ regPre d a0 a1 a4 a2 a5 W ∗ levAts (K (F := F)).L (K (F := F)).lev
        ∗ Pipeline.cellsGhost cfgs EP 0 d ∗ Pipeline.toksInit cfgs EP 0 d)
      ⊢ wp frame (wpE ((K (F := F)).defs (D (F := F))) 𝒱 (T d) none) Set.univ (.op (.customCall (SparseCore.inner (Pipeline.entry 0)) ()) k) Q

/-! ## @main -/

variable (m : (ℓ : Loc nD τ sig) → Buf (Elt F) ℓ) (ρ : Dev nD → PrngReg)

/-- The thirteen arrays after the host prefix, at their contents as functions of the launch memory (the constant and
    its conversion at whatever they hold). -/
theorem held13_V1 (d : Dev nD) :
    (held (d.tc : Thread nD τ) (Pipeline.ucRefs τ sig) (after ops0 (V0 m d)) : sProp 𝕄)
      = iprop((a0Loc d ↦{fullShare} m (a0Loc d)) ∗ (a1Loc d ↦{fullShare} m (a1Loc d)) ∗ (idLoc d ↦{fullShare} m (idLoc d))
          ∗ (a3Loc d ↦{fullShare} m (a3Loc d)) ∗ (a4Loc d ↦{fullShare} m (a4Loc d)) ∗ (v0Loc d ↦{fullShare} flat8 (m (a0Loc d)))
          ∗ (v1Loc d ↦{fullShare} flat8 (m (a1Loc d))) ∗ (v2Loc d ↦{fullShare} flat400 (m (a3Loc d))) ∗ (cLoc d ↦{fullShare} V1 m d (rf main_c))
          ∗ (c0Loc d ↦{fullShare} V1 m d (rf main_call0_v0)) ∗ (tbLoc d ↦{fullShare} tbV m d) ∗ (gaLoc d ↦{fullShare} m (gaLoc d))
          ∗ (v5Loc d ↦{fullShare} m (v5Loc d))) := by
  show (held (T d) (Pipeline.ucRefs τ sig) (V1 m d) : sProp 𝕄) = _
  rw [held13, V1_arg0, V1_arg1, V1_arg2, V1_arg3, V1_arg4, V1_v0, V1_v1, V1_v2, V1_v3, V1_v4, V1_v5]

theorem hmain (hR : RegionWp (F := F)) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [show unscopedBufs d (fun b => m ((SparseCore.T d).loc b)) = held (T d) (Pipeline.ucRefs τ sig) (V0 m d)
      from Pipeline.unscopedBufs_held d (V0 m d), main_eq]
  iintro ⟨#Hctx, Hst, ⟨Hb, Hheld, -, -⟩, ⟨Hcg, Htk⟩⟩
  iapply (StableHlo.wp_seq 𝒱 none Set.univ d (Pipeline.ucRefs τ sig) (fun _ => rest d) ops0 ops0_sub ops0_fresh (V0 m d)) $$ [Hb Hheld]
  · isplitl [Hb]; · iexact Hb
    iexact Hheld
  iintro ⟨Hb, Hheld⟩
  ihave Hh := (Entails.of_eq (held13_V1 m d)) $$ Hheld
  icases Hh with ⟨H0, H1, Hid, H3, H4, Hv0, Hv1, Hv2, Hc, Hc0, Htb, Hga, Hv5⟩
  simp only [wp_bind]
  ihave Hsp := (tc_split m d (m (gaLoc d))) $$ [Htb Hid Hga]
  · isplitl [Htb]; · iexact Htb
    isplitl [Hid]; · iexact Hid
    iexact Hga
  icases Hsp with ⟨Hkept, Hcores⟩
  iapply ((K (F := F)).wp_run (D (F := F)) 𝒱 (EH := EH) (P := P m) κ d 0) $$ [Hst Hcores Hkept Hcg Htk Hb H0 H1 H3 H4 Hv0 Hv1 Hv2 Hc Hc0 Hv5]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hj := (tc_join m d (gaV m d)) $$ [Hkept Hdn']
  · isplitl [Hkept]; · iexact Hkept
    iexact Hdn'
  icases Hj with ⟨Htb, Hid, Hga⟩
  ihave Hst1 := (Entails.of_eq (show ((K (F := F)).tcSt (EH (F := F)) d ((0 : Fin 1).val + 1) : sProp 𝕄) = (K (F := F)).tcSt (EH (F := F)) d 1 from rfl)) $$ Hst
  ihave Ho := (tcSt_open d) $$ Hst1
  icases Ho with ⟨%W, HO, Hclose⟩
  ihave Hlev := (SparseCore.Cfg.ctx_levAts κ) $$ Hctx
  simp only [Prog.lift]
  iapply (hR d (flat8 (m (a0Loc d))) (flat8 (m (a1Loc d))) (gaV m d) (flat400 (m (a3Loc d))) (m (v5Loc d)) W (fun x => .ret x) _) $$ [Hcg Htk Hb H0 H1 H3 H4 Hv0 Hv1 Hv2 Hv5 Htb Hid Hga HO Hclose]
  isplitl [H0 H1 H3 H4 Htb Hid Hclose]
  · iintro ⟨Hb, Hv0, Hv1, Hga, Hv2, Hv5, %W', %hW', HO⟩
    rw [wp_ret]
    imodintro
    simp only [wp_pure]
    imodintro
    isplitl [Hclose HO]
    · ispecialize Hclose $$ %W' %hW' HO
      iexact Hclose
    unfold FIN outV
    isplitl [Hv5]; · iexact Hv5
    isplitl [H0]; · iexact H0
    isplitl [H1]; · iexact H1
    isplitl [Hid]; · iexact Hid
    isplitl [H3]; · iexact H3
    iexact H4
  isplitl [Hb]; · iexact Hb
  isplitl [Hv0 Hv1 Hga Hv2 Hv5 HO]
  · isplitl [Hv0]; · iexact Hv0
    isplitl [Hv1]; · iexact Hv1
    isplitl [Hga]; · iexact Hga
    isplitl [Hv2]; · iexact Hv2
    isplitl [Hv5]; · iexact Hv5
    iexact HO
  isplitr; · iexact Hlev
  isplitl [Hcg]; · iexact Hcg
  iexact Htk

end Cert.Kernel.Setup

end
-- ==== Proof.KRegionDat.lean ====
/-
  The assembling call's proof data: what the pipeline is told of its five windows on a core. The four input windows
  (the two coordinate features, the gathered rows, the time features) are fetched at every point and left as found;
  the output window's staging buffer after the body holds the body's one store, which covers the whole block, of the
  four input blocks at that point. Nothing is kept between points; the core owes nothing, and the pairs its waits have recorded are bounded by
  those it enters with.
-/
import proofs.«208745_g22711787061521_fold_wed_m_611_20_alg».proof.Proof.KSetup
import proofs.«208745_g22711787061521_fold_wed_m_611_20_alg».proof.Proof.KShared
import Idealize.ShloMosaic.Lib.Pipeline.FrameBody
import Idealize.ShloMosaic.Lib.Tactic

set_option maxRecDepth 16384

noncomputable section

namespace Cert.KernelIdeal.Region

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (a0 a1 : S4096x8.Idx → F .f32) (a4 : S4096x128.Idx → F .f32) (a2 : S4096x400.Idx → F .f32)
  (a5 : S4096x50x96.Idx → F .f32) (W : Finset (SemLoc sig × HIx 1))

/-- The five windows' arrays when the call is entered. -/
def A (c : Dev nD) : (w : Fin cfg1.W) → Buf (Elt F) ((cfg1.win w).arr.view.loc (c.tc : Thread nD τ))
  | ⟨0, _⟩ => a0
  | ⟨1, _⟩ => a1
  | ⟨2, _⟩ => a4
  | ⟨3, _⟩ => a2
  | ⟨4, _⟩ => a5

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (A a0 a1 a4 a2 a5 c w)

abbrev r0 : Rect S512x8 := Rect.unit (s := S512x8) ![0, 0] S512x8.size inb_S512x8_S512x8_0_0
abbrev r2 : Rect S512x128 := Rect.unit (s := S512x128) ![0, 0] S512x128.size inb_S512x128_S512x128_0_0
abbrev r3 : Rect S512x400 := Rect.unit (s := S512x400) ![0, 0] S512x400.size inb_S512x400_S512x400_0_0
abbrev r4 : Rect S512x50x96 := Rect.unit (s := S512x50x96) ![0, 0, 0] S512x50x96.size inb_S512x50x96_S512x50x96_0_0_0

/-- The output window's staging buffer after the body: its one store, over the four input blocks as loaded (each
    through the rectangle that is the whole block). -/
def out4 (x0 x1 : Vec F S512x8 .f32) (x2 : Vec F S512x128 .f32) (x3 : Vec F S512x400 .f32) : Vec F S512x50x96 .f32 :=
  View.canon [⟨r4, k1_pay1 (View.ld x2 r2) (View.ld x0 r0) (View.ld x1 r0) (View.ld x3 r3)⟩]

/-- The store covers the buffer. -/
theorem cover4 (p0 : Vec F S512x50x96 .f32) (y : S512x50x96.Idx) :
    ∃ pc ∈ ([⟨r4, p0⟩] : List (View.Piece (Elt F) S512x50x96 .f32)), y ∈ pc.1.set :=
  View.cover_of_tiled [⟨r4, p0⟩] S512x50x96.size (by rfl) y

/-- The proof data on core `c`. -/
def dat (c : Dev nD) : Dat τ (Elt F) (HIx 1) ℕ UU ℕ cfg1 c where
  A := A a0 a1 a4 a2 a5 c
  after w t := match w with
    | ⟨0, _⟩ => iblk a0 a1 a4 a2 a5 c 0 t
    | ⟨1, _⟩ => iblk a0 a1 a4 a2 a5 c 1 t
    | ⟨2, _⟩ => iblk a0 a1 a4 a2 a5 c 2 t
    | ⟨3, _⟩ => iblk a0 a1 a4 a2 a5 c 3 t
    | ⟨4, _⟩ => out4 (iblk a0 a1 a4 a2 a5 c 0 t) (iblk a0 a1 a4 a2 a5 c 1 t) (iblk a0 a1 a4 a2 a5 c 2 t) (iblk a0 a1 a4 a2 a5 c 3 t)
  Φ _ := Pipeline.scopedRest (Ix := HIx 1) (Name := ℕ) (U := UU) (Lvl := ℕ) (Val := Elt F) spec1 c
  q _ := fullShare
  owed _ := 0
  recorded _ := (↑W : Set (SemLoc sig × HIx 1))

/-- What the body leaves, window by window. -/
theorem A_eq (c : Dev nD) (w : Fin cfg1.W) : (dat a0 a1 a4 a2 a5 W c).A w = A a0 a1 a4 a2 a5 c w := by
  dsimp only [dat]
theorem after_0 (c : Dev nD) (t : Fin cfg1.N) : (dat a0 a1 a4 a2 a5 W c).after 0 t = iblk a0 a1 a4 a2 a5 c 0 t := by dsimp only [dat]
theorem after_1 (c : Dev nD) (t : Fin cfg1.N) : (dat a0 a1 a4 a2 a5 W c).after 1 t = iblk a0 a1 a4 a2 a5 c 1 t := by dsimp only [dat]
theorem after_2 (c : Dev nD) (t : Fin cfg1.N) : (dat a0 a1 a4 a2 a5 W c).after 2 t = iblk a0 a1 a4 a2 a5 c 2 t := by dsimp only [dat]
theorem after_3 (c : Dev nD) (t : Fin cfg1.N) : (dat a0 a1 a4 a2 a5 W c).after 3 t = iblk a0 a1 a4 a2 a5 c 3 t := by dsimp only [dat]
theorem after_4 (c : Dev nD) (t : Fin cfg1.N) : (dat a0 a1 a4 a2 a5 W c).after 4 t
    = out4 (iblk a0 a1 a4 a2 a5 c 0 t) (iblk a0 a1 a4 a2 a5 c 1 t) (iblk a0 a1 a4 a2 a5 c 2 t) (iblk a0 a1 a4 a2 a5 c 3 t) := by dsimp only [dat]

/-- Each input window is fetched at every point, so its current staging buffer holds its block there. -/
theorem before_0 (c : Dev nD) (t : Fin cfg1.N) (d) : (dat a0 a1 a4 a2 a5 W c).before 0 t d = iblk a0 a1 a4 a2 a5 c 0 t :=
  ((dat a0 a1 a4 a2 a5 W c).before_fetched 0 t (fetch1_0 t) d).trans (by unfold Dat.fetched Dat.blockOf iblk; rw [A_eq]; try rfl)
theorem before_1 (c : Dev nD) (t : Fin cfg1.N) (d) : (dat a0 a1 a4 a2 a5 W c).before 1 t d = iblk a0 a1 a4 a2 a5 c 1 t :=
  ((dat a0 a1 a4 a2 a5 W c).before_fetched 1 t (fetch1_1 t) d).trans (by unfold Dat.fetched Dat.blockOf iblk; rw [A_eq]; try rfl)
theorem before_2 (c : Dev nD) (t : Fin cfg1.N) (d) : (dat a0 a1 a4 a2 a5 W c).before 2 t d = iblk a0 a1 a4 a2 a5 c 2 t :=
  ((dat a0 a1 a4 a2 a5 W c).before_fetched 2 t (fetch1_2 t) d).trans (by unfold Dat.fetched Dat.blockOf iblk; rw [A_eq]; try rfl)
theorem before_3 (c : Dev nD) (t : Fin cfg1.N) (d) : (dat a0 a1 a4 a2 a5 W c).before 3 t d = iblk a0 a1 a4 a2 a5 c 3 t :=
  ((dat a0 a1 a4 a2 a5 W c).before_fetched 3 t (fetch1_3 t) d).trans (by unfold Dat.fetched Dat.blockOf iblk; rw [A_eq]; try rfl)

end Cert.KernelIdeal.Region

end
-- ==== Proof.KRegionBody.lean ====
/-
  The assembling call's body at a grid point: run on the five current staging buffers, it loads the four input
  blocks, loads the output block, and stores the assembled block over the whole output buffer; the inputs are left
  as found. From this, the pipeline library's body obligation at every point.
-/
import proofs.«208745_g22711787061521_fold_wed_m_611_20_alg».proof.Proof.KRegionDat

set_option maxRecDepth 16384

noncomputable section

namespace Cert.KernelIdeal.Region

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (a0 a1 : S4096x8.Idx → F .f32) (a4 : S4096x128.Idx → F .f32) (a2 : S4096x400.Idx → F .f32)
  (a5 : S4096x50x96.Idx → F .f32) (W : Finset (SemLoc sig × HIx 1))

/-! ## The body's triple -/

set_option maxHeartbeats 1000000 in
/-- The body on whole staging memrefs, the inputs' at read contents and the output's at anything, runs to the
    continuation holding the inputs' as they were and the output's at `out4` of the inputs'. -/
theorem sound_kernel (c : Dev nD) (E : Set ℕ) (i : grid1.Coords)
    (arg1 : Memref sig .tc .vmem S512x8 .f32) (harg1 : arg1.IsWhole) (arg2 : Memref sig .tc .vmem S512x8 .f32) (harg2 : arg2.IsWhole)
    (arg3 : Memref sig .tc .vmem S512x128 .f32) (harg3 : arg3.IsWhole) (arg4 : Memref sig .tc .vmem S512x400 .f32) (harg4 : arg4.IsWhole)
    (arg5 : Memref sig .tc .vmem S512x50x96 .f32) (harg5 : arg5.IsWhole)
    (x0 x1 : Vec F S512x8 .f32) (x2 : Vec F S512x128 .f32) (x3 : Vec F S512x400 .f32) (Kp : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ Kp ⟨⟩))
      ⊢ wp frame (wpE (defs₀ (F := F)) Variants.none c none) E (cc1_body i arg1 harg1 arg2 harg2 arg3 harg3 arg4 harg4 arg5 harg5) Kp := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 (F := F) _)

/-! ## The body obligation, at a generic point -/

/-- What the body is called with at point `t`, -/
def bodyPre (c : Dev nD) (t : Fin cfg1.N) : sProp 𝕄 :=
  iprop((dat a0 a1 a4 a2 a5 W c).Φ t.castSucc ∗ (dat a0 a1 a4 a2 a5 W c).owesAt none t.castSucc
    ∗ (∃ d, owns (c : Thread nD τ) (st1_0 t) fullShare ((dat a0 a1 a4 a2 a5 W c).before 0 t d))
    ∗ (∃ d, owns (c : Thread nD τ) (st1_1 t) fullShare ((dat a0 a1 a4 a2 a5 W c).before 1 t d))
    ∗ (∃ d, owns (c : Thread nD τ) (st1_2 t) fullShare ((dat a0 a1 a4 a2 a5 W c).before 2 t d))
    ∗ (∃ d, owns (c : Thread nD τ) (st1_3 t) fullShare ((dat a0 a1 a4 a2 a5 W c).before 3 t d))
    ∗ (∃ d, owns (c : Thread nD τ) (st1_4 t) fullShare ((dat a0 a1 a4 a2 a5 W c).before 4 t d)))

/-- and what it returns. -/
def bodyPost (c : Dev nD) (t : Fin cfg1.N) : sProp 𝕄 :=
  iprop((dat a0 a1 a4 a2 a5 W c).Φ t.succ ∗ (dat a0 a1 a4 a2 a5 W c).owesAt none t.succ
    ∗ owns (c : Thread nD τ) (st1_0 t) fullShare ((dat a0 a1 a4 a2 a5 W c).after 0 t)
    ∗ owns (c : Thread nD τ) (st1_1 t) fullShare ((dat a0 a1 a4 a2 a5 W c).after 1 t)
    ∗ owns (c : Thread nD τ) (st1_2 t) fullShare ((dat a0 a1 a4 a2 a5 W c).after 2 t)
    ∗ owns (c : Thread nD τ) (st1_3 t) fullShare ((dat a0 a1 a4 a2 a5 W c).after 3 t)
    ∗ owns (c : Thread nD τ) (st1_4 t) fullShare ((dat a0 a1 a4 a2 a5 W c).after 4 t))

/-- The body at any point: the inputs' memrefs hold their blocks, so `sound_kernel` applies; the invariant and the
    core's dues pass through unread. -/
theorem sound_body (c : Dev nD) (t : Fin cfg1.N) :
    bodyPre a0 a1 a4 a2 a5 W c t ⊢ wp frame (wpE (defs₀ (F := F)) Variants.none c none) Set.univ (bodyAt1 t) (fun _ => bodyPost a0 a1 a4 a2 a5 W c t) := by
  unfold bodyPre bodyPost bodyAt1
  simp only [before_0, before_1, before_2, before_3]
  rw [show (dat a0 a1 a4 a2 a5 W c).Φ t.succ = (dat a0 a1 a4 a2 a5 W c).Φ t.castSucc from rfl,
    show (dat a0 a1 a4 a2 a5 W c).owesAt none t.succ = (dat a0 a1 a4 a2 a5 W c).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk a0 a1 a4 a2 a5 c 0 t) (iblk a0 a1 a4 a2 a5 c 1 t)
    (iblk a0 a1 a4 a2 a5 c 2 t) (iblk a0 a1 a4 a2 a5 c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) a0 a1 a4 a2 a5 W c) (defs₀ (F := F)) Variants.none none Set.univ := fun t => by
  rw [bigSep_W1, bigSep_W1]
  exact sound_body a0 a1 a4 a2 a5 W c t

end Cert.KernelIdeal.Region

end
-- ==== Proof.KValBlock.lean ====
/-
  From the blocks the assembling call works on to the whole array.

  The call runs on a grid of eight points.  At point t every one of its five windows is the block of 512 consecutive
  rows 512 t .. 512 t + 511 of its array, all of the other axes (the index maps are t on the rows and 0 elsewhere:
  decided over the grid).  So

    * an input block read at row p is its array read at row 512 t + p;
    * the stored block, read at (p, s, j), is therefore the assembled array at (512 t + p, s, j): what point t writes
      back is block t of ONE function of the four input arrays;
    * every index of the result lies in the block of the point  (its row) / 512, so the eight blocks cover the result.
-/
import proofs.«208745_g22711787061521_fold_wed_m_611_20_alg».proof.Proof.KValBridge

noncomputable section

namespace Cert.KernelIdeal.KVal

open Cert.KernelIdeal Cert.KernelIdeal.Gen Cert.KernelIdeal.Setup

open Idealize.ShloMosaic Idealize.ShloMosaic.ValueIdx Idealize.ShloMosaic.TcCoe Idealize.SL.Sem

variable {F : FTy → Type} [FloatOps F]

/-! ## One block of the assembled array, for blocks given by what they read -/

/-- Row p of the block of 512 rows at grid step g, as a row of the whole array. -/
def rowOf (g : Fin 8) (p : Fin 512) : Fin 4096 := ⟨512 * g.val + p.val, by omega⟩

theorem rowOf_val (g : Fin 8) (p : Fin 512) : (rowOf g p).val = 512 * g.val + p.val := rfl

/-- **The stored block is the assembled array's block**, for blocks that read their operands at row `rowOf g p`. -/
theorem k1_pay1_block (a0 a1 : S4096x8.Idx → F .f32) (a4 : S4096x128.Idx → F .f32) (a2 : S4096x400.Idx → F .f32)
    (g : Fin 8) (v1 : Vec F S512x128 .f32) (v4 v6 : Vec F S512x8 .f32) (v12 : Vec F S512x400 .f32)
    (h1 : ∀ (p : Fin 512) (c : Fin 128), v1 (ix2 p c) = a4 (ix2 (rowOf g p) c))
    (h4 : ∀ (p : Fin 512) (c : Fin 8), v4 (ix2 p c) = a0 (ix2 (rowOf g p) c))
    (h6 : ∀ (p : Fin 512) (c : Fin 8), v6 (ix2 p c) = a1 (ix2 (rowOf g p) c))
    (h12 : ∀ (p : Fin 512) (c : Fin 400), v12 (ix2 p c) = a2 (ix2 (rowOf g p) c))
    (p : Fin 512) (t : Fin 50) (j : Fin 96) :
    k1_pay1 v1 v4 v6 v12 (ix3 p t j) = Setup.asm a0 a1 a4 a2 (ix3 (rowOf g p) t j) := by
  rw [k1_pay1_apply, asm_ix3]
  unfold Setup.asmAt
  by_cases h8 : j.val < 8
  · rw [dif_pos h8, dif_pos h8]
  rw [dif_neg h8, dif_neg h8]
  by_cases h16 : j.val < 16
  · rw [dif_pos h16, dif_pos h16, h4]
  rw [dif_neg h16, dif_neg h16]
  by_cases h24 : j.val < 24
  · rw [dif_pos h24, dif_pos h24, h6]
  rw [dif_neg h24, dif_neg h24]
  by_cases h88 : j.val < 88
  · rw [dif_pos h88, dif_pos h88, h1]
  · rw [dif_neg h88, dif_neg h88, h12]

/-! ## The index maps, decided over the grid -/

/-- At point t every window's block index is t on the rows and 0 on the other axes. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- A grid point as a number below 8. -/
def gOf (t : Fin cfg1.N) : Fin 8 := ⟨t.val, by have := t.isLt; have h : cfg1.N = 8 := N_1; omega⟩

theorem gOf_val (t : Fin cfg1.N) : (gOf t).val = t.val := rfl

/-! ## The input blocks read at a row -/

theorem read_blk0 (t : Fin cfg1.N) (A : S4096x8.Idx → F .f32) (p : Fin 512) (c : Fin 8) :
    ((cfg1.win 0).blk t).view.read (Elt F) A (ix2 p c) = A (ix2 (rowOf (gOf t) p) c) := by
  obtain ⟨e0, e1, -⟩ := idx_facts1 t
  show A (((cfg1.win 0).blk t).view.emb (ix2 p c)) = _
  congr 1
  funext a; apply Fin.ext
  match a with
  | ⟨0, _⟩ => show win1_0.index t (0 : Fin 2) * 512 + 1 * p.val = 512 * t.val + p.val; rw [e0]; omega
  | ⟨1, _⟩ => show win1_0.index t (1 : Fin 2) * 8 + 1 * c.val = c.val; rw [e1]; omega

theorem read_blk1 (t : Fin cfg1.N) (A : S4096x8.Idx → F .f32) (p : Fin 512) (c : Fin 8) :
    ((cfg1.win 1).blk t).view.read (Elt F) A (ix2 p c) = A (ix2 (rowOf (gOf t) p) c) := by
  obtain ⟨-, -, e0, e1, -⟩ := idx_facts1 t
  show A (((cfg1.win 1).blk t).view.emb (ix2 p c)) = _
  congr 1
  funext a; apply Fin.ext
  match a with
  | ⟨0, _⟩ => show win1_1.index t (0 : Fin 2) * 512 + 1 * p.val = 512 * t.val + p.val; rw [e0]; omega
  | ⟨1, _⟩ => show win1_1.index t (1 : Fin 2) * 8 + 1 * c.val = c.val; rw [e1]; omega

theorem read_blk2 (t : Fin cfg1.N) (A : S4096x128.Idx → F .f32) (p : Fin 512) (c : Fin 128) :
    ((cfg1.win 2).blk t).view.read (Elt F) A (ix2 p c) = A (ix2 (rowOf (gOf t) p) c) := by
  obtain ⟨-, -, -, -, e0, e1, -⟩ := idx_facts1 t
  show A (((cfg1.win 2).blk t).view.emb (ix2 p c)) = _
  congr 1
  funext a; apply Fin.ext
  match a with
  | ⟨0, _⟩ => show win1_2.index t (0 : Fin 2) * 512 + 1 * p.val = 512 * t.val + p.val; rw [e0]; omega
  | ⟨1, _⟩ => show win1_2.index t (1 : Fin 2) * 128 + 1 * c.val = c.val; rw [e1]; omega

theorem read_blk3 (t : Fin cfg1.N) (A : S4096x400.Idx → F .f32) (p : Fin 512) (c : Fin 400) :
    ((cfg1.win 3).blk t).view.read (Elt F) A (ix2 p c) = A (ix2 (rowOf (gOf t) p) c) := by
  obtain ⟨-, -, -, -, -, -, e0, e1, -⟩ := idx_facts1 t
  show A (((cfg1.win 3).blk t).view.emb (ix2 p c)) = _
  congr 1
  funext a; apply Fin.ext
  match a with
  | ⟨0, _⟩ => show win1_3.index t (0 : Fin 2) * 512 + 1 * p.val = 512 * t.val + p.val; rw [e0]; omega
  | ⟨1, _⟩ => show win1_3.index t (1 : Fin 2) * 400 + 1 * c.val = c.val; rw [e1]; omega

/-! ## The result's block -/

/-- Entry (p, s, j) of the result's block at point t is entry (512 t + p, s, j) of the result. -/
theorem emb_blk4 (t : Fin cfg1.N) (p : Fin 512) (s : Fin 50) (j : Fin 96) :
    ((cfg1.win 4).blk t).view.emb (ix3 p s j) = ix3 (rowOf (gOf t) p) s j := by
  obtain ⟨-, -, -, -, -, -, -, -, e0, e1, e2⟩ := idx_facts1 t
  funext a; apply Fin.ext
  match a with
  | ⟨0, _⟩ => show win1_4.index t (0 : Fin 3) * 512 + 1 * p.val = 512 * t.val + p.val; rw [e0]; omega
  | ⟨1, _⟩ => show win1_4.index t (1 : Fin 3) * 50 + 1 * s.val = s.val; rw [e1]; omega
  | ⟨2, _⟩ => show win1_4.index t (2 : Fin 3) * 96 + 1 * j.val = j.val; rw [e2]; omega

/-- **What point t stores, entry by entry**: the payload of the four fetched blocks at y is the assembled array at
    the index of the result that y of the block at t stands for. -/
theorem pay_blk (t : Fin cfg1.N) (A0 A1 : S4096x8.Idx → F .f32) (A4 : S4096x128.Idx → F .f32)
    (A2 : S4096x400.Idx → F .f32) (y : S512x50x96.Idx) :
    k1_pay1 (((cfg1.win 2).blk t).view.read (Elt F) A4) (((cfg1.win 0).blk t).view.read (Elt F) A0)
        (((cfg1.win 1).blk t).view.read (Elt F) A1) (((cfg1.win 3).blk t).view.read (Elt F) A2) y =
      Setup.asm A0 A1 A4 A2 (((cfg1.win 4).blk t).view.emb y) := by
  obtain ⟨p, s, j, rfl⟩ : ∃ (p : Fin 512) (s : Fin 50) (j : Fin 96), y = ix3 p s j := ⟨y 0, y 1, y 2, eq_ix3 y⟩
  rw [emb_blk4]
  exact k1_pay1_block A0 A1 A4 A2 (gOf t) _ _ _ _ (read_blk2 t A4) (read_blk0 t A0) (read_blk1 t A1)
    (read_blk3 t A2) p s j

/-- **What point t stores is block t of the assembled array.** -/
theorem pay_blk_eq_read (t : Fin cfg1.N) (A0 A1 : S4096x8.Idx → F .f32) (A4 : S4096x128.Idx → F .f32)
    (A2 : S4096x400.Idx → F .f32) :
    k1_pay1 (((cfg1.win 2).blk t).view.read (Elt F) A4) (((cfg1.win 0).blk t).view.read (Elt F) A0)
        (((cfg1.win 1).blk t).view.read (Elt F) A1) (((cfg1.win 3).blk t).view.read (Elt F) A2) =
      ((cfg1.win 4).blk t).view.read (Elt F) (Setup.asm A0 A1 A4 A2) :=
  funext fun y => pay_blk t A0 A1 A4 A2 y

/-! ## The result's blocks cover it -/

/-- An index of the result is in point t's block exactly when its row is one of the 512 rows from 512 t on. -/
theorem mem_blk4 (t : Fin cfg1.N) (i : S4096x50x96.Idx) :
    i ∈ ((cfg1.win 4).blk t).view.set ↔ 512 * t.val ≤ (i 0).val ∧ (i 0).val < 512 * t.val + 512 := by
  show i ∈ ((View.whole main_v5).slice (win1_4.rect t)).set ↔ _
  rw [View.set_slice_whole, Rect.mem_set_unit]
  obtain ⟨-, -, -, -, -, -, -, -, e0, e1, e2⟩ := idx_facts1 t
  constructor
  · intro h
    have h0 : win1_4.index t (0 : Fin 3) * 512 ≤ (i 0).val ∧ (i 0).val < win1_4.index t (0 : Fin 3) * 512 + 512 := h 0
    omega
  · intro h a
    match a with
    | ⟨0, _⟩ =>
      show win1_4.index t (0 : Fin 3) * 512 ≤ (i 0).val ∧ (i 0).val < win1_4.index t (0 : Fin 3) * 512 + 512
      omega
    | ⟨1, _⟩ =>
      show win1_4.index t (1 : Fin 3) * 50 ≤ (i 1).val ∧ (i 1).val < win1_4.index t (1 : Fin 3) * 50 + 50
      have h1 : (i 1).val < 50 := (i 1).isLt
      omega
    | ⟨2, _⟩ =>
      show win1_4.index t (2 : Fin 3) * 96 ≤ (i 2).val ∧ (i 2).val < win1_4.index t (2 : Fin 3) * 96 + 96
      have h2 : (i 2).val < 96 := (i 2).isLt
      omega

/-- **Every index of the result is in the block of some point that writes back**: the point (its row) / 512. -/
theorem cover4 (i : S4096x50x96.Idx) :
    ∃ t : Fin cfg1.N, (cfg1.win 4).flush t = true ∧ i ∈ ((cfg1.win 4).blk t).view.set := by
  have hi : (i 0).val < 4096 := (i 0).isLt
  have hN : cfg1.N = 8 := N_1
  refine ⟨⟨(i 0).val / 512, by omega⟩, flush1_4 _, ?_⟩
  rw [mem_blk4]
  show 512 * ((i 0).val / 512) ≤ (i 0).val ∧ (i 0).val < 512 * ((i 0).val / 512) + 512
  omega

end Cert.KernelIdeal.KVal

end
-- ==== Proof.KRegionVal.lean ====
/-
  The output array after the assembling call, as one function of the four arrays it reads: point t writes back the
  body's store of the four input blocks at t, which is block t of the assembled array; the eight blocks tile the
  output, so the array ends holding the assembled array everywhere.
-/
import proofs.«208745_g22711787061521_fold_wed_m_611_20_alg».proof.Proof.KRegionDat
import proofs.«208745_g22711787061521_fold_wed_m_611_20_alg».proof.Proof.KValBlock
import Idealize.ShloMosaic.Lib.Pipeline.Value

set_option maxRecDepth 16384

noncomputable section

namespace Cert.KernelIdeal.Region

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (a0 a1 : S4096x8.Idx → F .f32) (a4 : S4096x128.Idx → F .f32) (a2 : S4096x400.Idx → F .f32)
  (a5 : S4096x50x96.Idx → F .f32) (W : Finset (SemLoc sig × HIx 1))

theorem hz2 : (![0, 0] : Fin 2 → Nat) = fun _ => 0 := funext fun a => by fin_cases a <;> rfl
theorem hz3 : (![0, 0, 0] : Fin 3 → Nat) = fun _ => 0 := funext fun a => by fin_cases a <;> rfl

/-- Each input window's block is read off its own array. -/
theorem iblk_0 (c : Dev nD) (t : Fin cfg1.N) : iblk a0 a1 a4 a2 a5 c 0 t = ((cfg1.win 0).blk t).view.read (Elt F) a0 := rfl
theorem iblk_1 (c : Dev nD) (t : Fin cfg1.N) : iblk a0 a1 a4 a2 a5 c 1 t = ((cfg1.win 1).blk t).view.read (Elt F) a1 := rfl
theorem iblk_2 (c : Dev nD) (t : Fin cfg1.N) : iblk a0 a1 a4 a2 a5 c 2 t = ((cfg1.win 2).blk t).view.read (Elt F) a4 := rfl
theorem iblk_3 (c : Dev nD) (t : Fin cfg1.N) : iblk a0 a1 a4 a2 a5 c 3 t = ((cfg1.win 3).blk t).view.read (Elt F) a2 := rfl

set_option maxHeartbeats 1000000 in
/-- What point `t` writes back is block `t` of the assembled array. -/
theorem flushed4_eq (c : Dev nD) (t : Fin cfg1.N) :
    (dat a0 a1 a4 a2 a5 W c).flushed 4 t = ((cfg1.win 4).blk t).view.read (Elt F) (Setup.asm a0 a1 a4 a2) := by
  show (cfg1.win 4).cut (grid1.coords t) ((dat a0 a1 a4 a2 a5 W c).after 4 t) = _
  rw [after_4, iblk_0, iblk_1, iblk_2, iblk_3]
  unfold out4
  rw [View.canon_unit_zero hz3]
  simp only [View.ld_unit_zero (S := S512x8) hz2, View.ld_unit_zero (S := S512x128) hz2, View.ld_unit_zero (S := S512x400) hz2]
  funext j
  exact congrFun (KVal.pay_blk_eq_read t a0 a1 a4 a2) j

/-- The output array after the eight write-backs is the assembled array. -/
theorem arr4_final (c : Dev nD) : (dat a0 a1 a4 a2 a5 W c).arrAt 4 cfg1.N = Setup.asm a0 a1 a4 a2 :=
  (dat a0 a1 a4 a2 a5 W c).arrAt_eq_of_cover 4 _ (fun t _ => flushed4_eq a0 a1 a4 a2 a5 W c t) (fun i => KVal.cover4 i)

end Cert.KernelIdeal.Region

end
-- ==== Proof.KRegionSeg.lean ====
/-
  The assembling call as a region of the host program: the pipeline library's region record over the thread state
  "the five windows' arrays whole at the full share, and the core owing nothing", entered with the output array at
  any contents and left with it at the assembled array; and the region's entry as a step of the
  program the SparseCore launch runs on the TensorCore.
-/
import proofs.«208745_g22711787061521_fold_wed_m_611_20_alg».proof.Proof.KRegionBody
import proofs.«208745_g22711787061521_fold_wed_m_611_20_alg».proof.Proof.KRegionVal
import Idealize.ShloMosaic.Lib.Pipeline.Regions
import Idealize.ShloMosaic.Lib.SparseCore.Threads

set_option maxRecDepth 16384

noncomputable section

namespace Cert.KernelIdeal.Region

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (a0 a1 : S4096x8.Idx → F .f32) (a4 : S4096x128.Idx → F .f32) (a2 : S4096x400.Idx → F .f32)
  (a5 : S4096x50x96.Idx → F .f32) (W : Finset (SemLoc sig × HIx 1))

/-- The tables' admissible contents: the call prefetches none. -/
abbrev adm : (p : Fin 1) → (pcfgs (F := F) p).Adm := fun p => (cfgs p).toPCfg_adm

/-- The proof data per pipeline and core. -/
def pdats : (p : Fin 1) → (c : Dev nD) → Dat τ (Elt F) (HIx 1) ℕ UU ℕ (Pipeline.pin (pcfgs (F := F)) adm p) c :=
  fun _ c => dat a0 a1 a4 a2 a5 W c

/-- The thread state the call is entered from, -/
def PRE (c : Dev nD) : sProp 𝕄 :=
  iprop(((SparseCore.T c).loc main_v0 ↦{fullShare} a0) ∗ ((SparseCore.T c).loc main_v1 ↦{fullShare} a1) ∗ ((SparseCore.T c).loc main_v4 ↦{fullShare} a4)
    ∗ ((SparseCore.T c).loc main_v2 ↦{fullShare} a2) ∗ ((SparseCore.T c).loc main_v5 ↦{fullShare} a5) ∗ owes (SparseCore.T c) (0 : CellTallies nD τ sig (HIx 1)) W)

/-- and the one it leaves. -/
def POST (c : Dev nD) : sProp 𝕄 :=
  iprop(((SparseCore.T c).loc main_v0 ↦{fullShare} a0) ∗ ((SparseCore.T c).loc main_v1 ↦{fullShare} a1) ∗ ((SparseCore.T c).loc main_v4 ↦{fullShare} a4)
    ∗ ((SparseCore.T c).loc main_v2 ↦{fullShare} a2) ∗ ((SparseCore.T c).loc main_v5 ↦{fullShare} Setup.asm a0 a1 a4 a2)
    ∗ ∃ W' : Finset (SemLoc sig × HIx 1), ⌜∀ p ∈ W', p ∈ W ∨ p.2 = none⌝ ∗ owes (SparseCore.T c) (0 : CellTallies nD τ sig (HIx 1)) W')

set_option backward.isDefEq.respectTransparency.types false in
/-- The region record. Nothing enters the pipeline's invariant but the scoped buffers no window stages (there are
    none); the call has no semaphore of its own; nothing bypasses it. -/
def reg : Pipeline.RegionSeg (pcfgs (F := F)) adm (pdats a0 a1 a4 a2 a5 W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation a0 a1 a4 a2 a5 W c).loose
  hwaits := Pipeline.hwaits_of_owed_zero _ _ _ _ _ _ 0 fun _ _ => rfl
  pre := PRE a0 a1 a4 a2 a5 W
  post := POST a0 a1 a4 a2 W
  X _ := BI.emp
  Y _ := BI.emp
  Z _ := BI.emp
  hentry c := by
    rw [Pipeline.ownSems0_none, Pipeline.arrays_eq (Pipeline.pin (pcfgs (F := F)) adm) (pdats a0 a1 a4 a2 a5 W) 0 c launch1.arr_whole
      ((pdats a0 a1 a4 a2 a5 W 0 c).share_full fun _ => rfl), bigSep_W1]
    unfold PRE
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr <;> iempintro
  hin c := by
    rw [show (pdats a0 a1 a4 a2 a5 W 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats a0 a1 a4 a2 a5 W 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    rw [Pipeline.arrays_eq (Pipeline.pin (pcfgs (F := F)) adm) (pdats a0 a1 a4 a2 a5 W) 0 c launch1.arr_whole
      ((pdats a0 a1 a4 a2 a5 W 0 c).share_full fun _ => rfl), bigSep_W1]
    unfold POST
    rw [show (pdats a0 a1 a4 a2 a5 W 0 c).arrAt 0 (Pipeline.pin (pcfgs (F := F)) adm 0).N = a0 from
        ((dat a0 a1 a4 a2 a5 W c).arrAt_in 0 rfl _).trans (A_eq a0 a1 a4 a2 a5 W c 0),
      show (pdats a0 a1 a4 a2 a5 W 0 c).arrAt 1 (Pipeline.pin (pcfgs (F := F)) adm 0).N = a1 from
        ((dat a0 a1 a4 a2 a5 W c).arrAt_in 1 rfl _).trans (A_eq a0 a1 a4 a2 a5 W c 1),
      show (pdats a0 a1 a4 a2 a5 W 0 c).arrAt 2 (Pipeline.pin (pcfgs (F := F)) adm 0).N = a4 from
        ((dat a0 a1 a4 a2 a5 W c).arrAt_in 2 rfl _).trans (A_eq a0 a1 a4 a2 a5 W c 2),
      show (pdats a0 a1 a4 a2 a5 W 0 c).arrAt 3 (Pipeline.pin (pcfgs (F := F)) adm 0).N = a2 from
        ((dat a0 a1 a4 a2 a5 W c).arrAt_in 3 rfl _).trans (A_eq a0 a1 a4 a2 a5 W c 3),
      show (pdats a0 a1 a4 a2 a5 W 0 c).arrAt 4 (Pipeline.pin (pcfgs (F := F)) adm 0).N = Setup.asm a0 a1 a4 a2 from
        arr4_final a0 a1 a4 a2 a5 W c]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

set_option backward.isDefEq.respectTransparency.types false in
/-- THE CALL as a step of the program the launch runs on the TensorCore: from the boundary, the thread state `PRE`,
    the level facts and the pipeline's staging ghost state, the region's custom call runs to the boundary and `POST`
    for the continuation. The call of the program's own label is the lifted call of the pipeline's entry label,
    which the region record runs. -/
theorem region_wp (d : Dev nD) {α : Type} (k : PUnit → Prog (TpuEff nD τ sig (Elt F) (SparseCore.Sig (ΛP (F := F)) 1) .tc) α)
    (Q : α → sProp 𝕄) :
    iprop((iprop(boundary (SparseCore.T d) ∗ POST a0 a1 a4 a2 W d) -∗ wp frame (wpE ((K (F := F)).defs (D (F := F))) 𝒱 (SparseCore.T d) none) Set.univ (k ⟨⟩) Q)
        ∗ boundary (SparseCore.T d) ∗ PRE a0 a1 a4 a2 a5 W d ∗ levAts (K (F := F)).L (K (F := F)).lev
        ∗ Pipeline.cellsGhost cfgs EP 0 d ∗ Pipeline.toksInit cfgs EP 0 d)
      ⊢ wp frame (wpE ((K (F := F)).defs (D (F := F))) 𝒱 (SparseCore.T d) none) Set.univ
          (.op (.customCall (SparseCore.inner (Pipeline.entry 0)) ()) k) Q := by
  have hprog : (Prog.op (.customCall (SparseCore.inner (Pipeline.entry 0)) ()) k
        : Prog (TpuEff nD τ sig (Elt F) (SparseCore.Sig (ΛP (F := F)) 1) .tc) α)
      = (SparseCore.liftProg (Q := 1) (Prog.op (.customCall (Pipeline.entry (0 : Fin 1)) ()) fun _ => Prog.ret PUnit.unit
          : Prog (TpuEff nD τ sig (Elt F) (ΛP (F := F)) .tc) PUnit)) >>= k := rfl
  rw [hprog, wp_bind]
  refine .trans ?_ ((K (F := F)).wp_liftProg (D (F := F)) 𝒱 (SparseCore.T d) Set.univ none _ _)
  have hreg := Pipeline.RegionSeg.wp (pcfgs (F := F)) adm (pdats a0 a1 a4 a2 a5 W) (none : HIx 1) cellOf_inj EP defs₀ 𝒱₀
    (K (F := F)).L (K (F := F)).lev (reg a0 a1 a4 a2 a5 W) d none (fun _ h => (Option.not_mem_none _ h).elim) (fun _ => Prog.ret PUnit.unit)
    (fun x => wp frame (wpE ((K (F := F)).defs (D (F := F))) 𝒱 (SparseCore.T d) none) Set.univ (k x) Q)
  rw [show (reg a0 a1 a4 a2 a5 W).pre d = PRE a0 a1 a4 a2 a5 W d from rfl,
    show (reg a0 a1 a4 a2 a5 W).post d = POST a0 a1 a4 a2 W d from rfl] at hreg
  refine .trans ?_ hreg
  iintro ⟨Hk, Hb, Hpre, Hlev, Hg, Ht⟩
  isplitl [Hk]
  · iintro Hpost
    rw [wp_ret]
    imodintro
    iapply Hk; iexact Hpost
  isplitl [Hb]; · iexact Hb
  isplitl [Hpre]; · iexact Hpre
  isplitl [Hlev]; · iexact Hlev
  isplitl [Hg]; · iexact Hg
  iexact Ht

end Cert.KernelIdeal.Region

end
-- ==== Proof.KRegionWp.lean ====
/-
  The assembling call's rule in the form @main's run takes it: the region's entry from the thread state "the four
  arrays read and the result array whole, nothing owed" to the same with the result at the assembled array.
-/
import proofs.«208745_g22711787061521_fold_wed_m_611_20_alg».proof.Proof.KRegionSeg
import proofs.«208745_g22711787061521_fold_wed_m_611_20_alg».proof.Proof.KHMain

noncomputable section

namespace Cert.KernelIdeal.Region

open Cert.KernelIdeal Cert.KernelIdeal.Gen Cert.KernelIdeal.Setup

open Idealize.ShloMosaic

variable {F : FTy → Type} [FloatOps F]

/-- The region's rule, for every device, contents and continuation. -/
theorem regionWp : Setup.RegionWp (F := F) :=
  fun d a0 a1 a4 a2 a5 W k Q => region_wp a0 a1 a4 a2 a5 W d k Q

end Cert.KernelIdeal.Region

end
-- ==== Proof.WRegionDat.lean ====
/-
  The assembling call's proof data: what the pipeline is told of its five windows on a core. The four input windows
  (the two coordinate features, the gathered rows, the time features) are fetched at every point and left as found;
  the output window's staging buffer after the body holds the body's one store, which covers the whole block, of the
  four input blocks at that point. Nothing is kept between points; the core owes nothing, and the pairs its waits have recorded are bounded by
  those it enters with.
-/
import proofs.«208745_g22711787061521_fold_wed_m_611_20_alg».proof.Proof.WSetup
import proofs.«208745_g22711787061521_fold_wed_m_611_20_alg».proof.Proof.WShared
import Idealize.ShloMosaic.Lib.Pipeline.FrameBody
import Idealize.ShloMosaic.Lib.Tactic

set_option maxRecDepth 16384

noncomputable section

namespace Cert.Kernel.Region

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (a0 a1 : S4096x8.Idx → F .f32) (a4 : S4096x128.Idx → F .f32) (a2 : S4096x400.Idx → F .f32)
  (a5 : S4096x50x96.Idx → F .f32) (W : Finset (SemLoc sig × HIx 1))

/-- The five windows' arrays when the call is entered. -/
def A (c : Dev nD) : (w : Fin cfg1.W) → Buf (Elt F) ((cfg1.win w).arr.view.loc (c.tc : Thread nD τ))
  | ⟨0, _⟩ => a0
  | ⟨1, _⟩ => a1
  | ⟨2, _⟩ => a4
  | ⟨3, _⟩ => a2
  | ⟨4, _⟩ => a5

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (A a0 a1 a4 a2 a5 c w)

abbrev r0 : Rect S512x8 := Rect.unit (s := S512x8) ![0, 0] S512x8.size inb_S512x8_S512x8_0_0
abbrev r2 : Rect S512x128 := Rect.unit (s := S512x128) ![0, 0] S512x128.size inb_S512x128_S512x128_0_0
abbrev r3 : Rect S512x400 := Rect.unit (s := S512x400) ![0, 0] S512x400.size inb_S512x400_S512x400_0_0
abbrev r4 : Rect S512x50x96 := Rect.unit (s := S512x50x96) ![0, 0, 0] S512x50x96.size inb_S512x50x96_S512x50x96_0_0_0

/-- The output window's staging buffer after the body: its one store, over the four input blocks as loaded (each
    through the rectangle that is the whole block). -/
def out4 (x0 x1 : Vec F S512x8 .f32) (x2 : Vec F S512x128 .f32) (x3 : Vec F S512x400 .f32) : Vec F S512x50x96 .f32 :=
  View.canon [⟨r4, k1_pay1 (View.ld x2 r2) (View.ld x0 r0) (View.ld x1 r0) (View.ld x3 r3)⟩]

/-- The store covers the buffer. -/
theorem cover4 (p0 : Vec F S512x50x96 .f32) (y : S512x50x96.Idx) :
    ∃ pc ∈ ([⟨r4, p0⟩] : List (View.Piece (Elt F) S512x50x96 .f32)), y ∈ pc.1.set :=
  View.cover_of_tiled [⟨r4, p0⟩] S512x50x96.size (by rfl) y

/-- The proof data on core `c`. -/
def dat (c : Dev nD) : Dat τ (Elt F) (HIx 1) ℕ UU ℕ cfg1 c where
  A := A a0 a1 a4 a2 a5 c
  after w t := match w with
    | ⟨0, _⟩ => iblk a0 a1 a4 a2 a5 c 0 t
    | ⟨1, _⟩ => iblk a0 a1 a4 a2 a5 c 1 t
    | ⟨2, _⟩ => iblk a0 a1 a4 a2 a5 c 2 t
    | ⟨3, _⟩ => iblk a0 a1 a4 a2 a5 c 3 t
    | ⟨4, _⟩ => out4 (iblk a0 a1 a4 a2 a5 c 0 t) (iblk a0 a1 a4 a2 a5 c 1 t) (iblk a0 a1 a4 a2 a5 c 2 t) (iblk a0 a1 a4 a2 a5 c 3 t)
  Φ _ := Pipeline.scopedRest (Ix := HIx 1) (Name := ℕ) (U := UU) (Lvl := ℕ) (Val := Elt F) spec1 c
  q _ := fullShare
  owed _ := 0
  recorded _ := (↑W : Set (SemLoc sig × HIx 1))

/-- What the body leaves, window by window. -/
theorem A_eq (c : Dev nD) (w : Fin cfg1.W) : (dat a0 a1 a4 a2 a5 W c).A w = A a0 a1 a4 a2 a5 c w := by
  dsimp only [dat]
theorem after_0 (c : Dev nD) (t : Fin cfg1.N) : (dat a0 a1 a4 a2 a5 W c).after 0 t = iblk a0 a1 a4 a2 a5 c 0 t := by dsimp only [dat]
theorem after_1 (c : Dev nD) (t : Fin cfg1.N) : (dat a0 a1 a4 a2 a5 W c).after 1 t = iblk a0 a1 a4 a2 a5 c 1 t := by dsimp only [dat]
theorem after_2 (c : Dev nD) (t : Fin cfg1.N) : (dat a0 a1 a4 a2 a5 W c).after 2 t = iblk a0 a1 a4 a2 a5 c 2 t := by dsimp only [dat]
theorem after_3 (c : Dev nD) (t : Fin cfg1.N) : (dat a0 a1 a4 a2 a5 W c).after 3 t = iblk a0 a1 a4 a2 a5 c 3 t := by dsimp only [dat]
theorem after_4 (c : Dev nD) (t : Fin cfg1.N) : (dat a0 a1 a4 a2 a5 W c).after 4 t
    = out4 (iblk a0 a1 a4 a2 a5 c 0 t) (iblk a0 a1 a4 a2 a5 c 1 t) (iblk a0 a1 a4 a2 a5 c 2 t) (iblk a0 a1 a4 a2 a5 c 3 t) := by dsimp only [dat]

/-- Each input window is fetched at every point, so its current staging buffer holds its block there. -/
theorem before_0 (c : Dev nD) (t : Fin cfg1.N) (d) : (dat a0 a1 a4 a2 a5 W c).before 0 t d = iblk a0 a1 a4 a2 a5 c 0 t :=
  ((dat a0 a1 a4 a2 a5 W c).before_fetched 0 t (fetch1_0 t) d).trans (by unfold Dat.fetched Dat.blockOf iblk; rw [A_eq]; try rfl)
theorem before_1 (c : Dev nD) (t : Fin cfg1.N) (d) : (dat a0 a1 a4 a2 a5 W c).before 1 t d = iblk a0 a1 a4 a2 a5 c 1 t :=
  ((dat a0 a1 a4 a2 a5 W c).before_fetched 1 t (fetch1_1 t) d).trans (by unfold Dat.fetched Dat.blockOf iblk; rw [A_eq]; try rfl)
theorem before_2 (c : Dev nD) (t : Fin cfg1.N) (d) : (dat a0 a1 a4 a2 a5 W c).before 2 t d = iblk a0 a1 a4 a2 a5 c 2 t :=
  ((dat a0 a1 a4 a2 a5 W c).before_fetched 2 t (fetch1_2 t) d).trans (by unfold Dat.fetched Dat.blockOf iblk; rw [A_eq]; try rfl)
theorem before_3 (c : Dev nD) (t : Fin cfg1.N) (d) : (dat a0 a1 a4 a2 a5 W c).before 3 t d = iblk a0 a1 a4 a2 a5 c 3 t :=
  ((dat a0 a1 a4 a2 a5 W c).before_fetched 3 t (fetch1_3 t) d).trans (by unfold Dat.fetched Dat.blockOf iblk; rw [A_eq]; try rfl)

end Cert.Kernel.Region

end
-- ==== Proof.WRegionBody.lean ====
/-
  The assembling call's body at a grid point: run on the five current staging buffers, it loads the four input
  blocks, loads the output block, and stores the assembled block over the whole output buffer; the inputs are left
  as found. From this, the pipeline library's body obligation at every point.
-/
import proofs.«208745_g22711787061521_fold_wed_m_611_20_alg».proof.Proof.WRegionDat

set_option maxRecDepth 16384

noncomputable section

namespace Cert.Kernel.Region

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (a0 a1 : S4096x8.Idx → F .f32) (a4 : S4096x128.Idx → F .f32) (a2 : S4096x400.Idx → F .f32)
  (a5 : S4096x50x96.Idx → F .f32) (W : Finset (SemLoc sig × HIx 1))

/-! ## The body's triple -/

set_option maxHeartbeats 1000000 in
/-- The body on whole staging memrefs, the inputs' at read contents and the output's at anything, runs to the
    continuation holding the inputs' as they were and the output's at `out4` of the inputs'. -/
theorem sound_kernel (c : Dev nD) (E : Set ℕ) (i : grid1.Coords)
    (arg1 : Memref sig .tc .vmem S512x8 .f32) (harg1 : arg1.IsWhole) (arg2 : Memref sig .tc .vmem S512x8 .f32) (harg2 : arg2.IsWhole)
    (arg3 : Memref sig .tc .vmem S512x128 .f32) (harg3 : arg3.IsWhole) (arg4 : Memref sig .tc .vmem S512x400 .f32) (harg4 : arg4.IsWhole)
    (arg5 : Memref sig .tc .vmem S512x50x96 .f32) (harg5 : arg5.IsWhole)
    (x0 x1 : Vec F S512x8 .f32) (x2 : Vec F S512x128 .f32) (x3 : Vec F S512x400 .f32) (Kp : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ Kp ⟨⟩))
      ⊢ wp frame (wpE (defs₀ (F := F)) Variants.none c none) E (cc1_body i arg1 harg1 arg2 harg2 arg3 harg3 arg4 harg4 arg5 harg5) Kp := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 (F := F) _)

/-! ## The body obligation, at a generic point -/

/-- What the body is called with at point `t`, -/
def bodyPre (c : Dev nD) (t : Fin cfg1.N) : sProp 𝕄 :=
  iprop((dat a0 a1 a4 a2 a5 W c).Φ t.castSucc ∗ (dat a0 a1 a4 a2 a5 W c).owesAt none t.castSucc
    ∗ (∃ d, owns (c : Thread nD τ) (st1_0 t) fullShare ((dat a0 a1 a4 a2 a5 W c).before 0 t d))
    ∗ (∃ d, owns (c : Thread nD τ) (st1_1 t) fullShare ((dat a0 a1 a4 a2 a5 W c).before 1 t d))
    ∗ (∃ d, owns (c : Thread nD τ) (st1_2 t) fullShare ((dat a0 a1 a4 a2 a5 W c).before 2 t d))
    ∗ (∃ d, owns (c : Thread nD τ) (st1_3 t) fullShare ((dat a0 a1 a4 a2 a5 W c).before 3 t d))
    ∗ (∃ d, owns (c : Thread nD τ) (st1_4 t) fullShare ((dat a0 a1 a4 a2 a5 W c).before 4 t d)))

/-- and what it returns. -/
def bodyPost (c : Dev nD) (t : Fin cfg1.N) : sProp 𝕄 :=
  iprop((dat a0 a1 a4 a2 a5 W c).Φ t.succ ∗ (dat a0 a1 a4 a2 a5 W c).owesAt none t.succ
    ∗ owns (c : Thread nD τ) (st1_0 t) fullShare ((dat a0 a1 a4 a2 a5 W c).after 0 t)
    ∗ owns (c : Thread nD τ) (st1_1 t) fullShare ((dat a0 a1 a4 a2 a5 W c).after 1 t)
    ∗ owns (c : Thread nD τ) (st1_2 t) fullShare ((dat a0 a1 a4 a2 a5 W c).after 2 t)
    ∗ owns (c : Thread nD τ) (st1_3 t) fullShare ((dat a0 a1 a4 a2 a5 W c).after 3 t)
    ∗ owns (c : Thread nD τ) (st1_4 t) fullShare ((dat a0 a1 a4 a2 a5 W c).after 4 t))

/-- The body at any point: the inputs' memrefs hold their blocks, so `sound_kernel` applies; the invariant and the
    core's dues pass through unread. -/
theorem sound_body (c : Dev nD) (t : Fin cfg1.N) :
    bodyPre a0 a1 a4 a2 a5 W c t ⊢ wp frame (wpE (defs₀ (F := F)) Variants.none c none) Set.univ (bodyAt1 t) (fun _ => bodyPost a0 a1 a4 a2 a5 W c t) := by
  unfold bodyPre bodyPost bodyAt1
  simp only [before_0, before_1, before_2, before_3]
  rw [show (dat a0 a1 a4 a2 a5 W c).Φ t.succ = (dat a0 a1 a4 a2 a5 W c).Φ t.castSucc from rfl,
    show (dat a0 a1 a4 a2 a5 W c).owesAt none t.succ = (dat a0 a1 a4 a2 a5 W c).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk a0 a1 a4 a2 a5 c 0 t) (iblk a0 a1 a4 a2 a5 c 1 t)
    (iblk a0 a1 a4 a2 a5 c 2 t) (iblk a0 a1 a4 a2 a5 c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) a0 a1 a4 a2 a5 W c) (defs₀ (F := F)) Variants.none none Set.univ := fun t => by
  rw [bigSep_W1, bigSep_W1]
  exact sound_body a0 a1 a4 a2 a5 W c t

end Cert.Kernel.Region

end
-- ==== Proof.WValBlock.lean ====
/-
  From the blocks the assembling call works on to the whole array.

  The call runs on a grid of eight points.  At point t every one of its five windows is the block of 512 consecutive
  rows 512 t .. 512 t + 511 of its array, all of the other axes (the index maps are t on the rows and 0 elsewhere:
  decided over the grid).  So

    * an input block read at row p is its array read at row 512 t + p;
    * the stored block, read at (p, s, j), is therefore the assembled array at (512 t + p, s, j): what point t writes
      back is block t of ONE function of the four input arrays;
    * every index of the result lies in the block of the point  (its row) / 512, so the eight blocks cover the result.
-/
import proofs.«208745_g22711787061521_fold_wed_m_611_20_alg».proof.Proof.WValBridge

noncomputable section

namespace Cert.Kernel.KVal

open Cert.Kernel Cert.Kernel.Gen Cert.Kernel.Setup

open Idealize.ShloMosaic Idealize.ShloMosaic.ValueIdx Idealize.ShloMosaic.TcCoe Idealize.SL.Sem

variable {F : FTy → Type} [FloatOps F]

/-! ## One block of the assembled array, for blocks given by what they read -/

/-- Row p of the block of 512 rows at grid step g, as a row of the whole array. -/
def rowOf (g : Fin 8) (p : Fin 512) : Fin 4096 := ⟨512 * g.val + p.val, by omega⟩

theorem rowOf_val (g : Fin 8) (p : Fin 512) : (rowOf g p).val = 512 * g.val + p.val := rfl

/-- **The stored block is the assembled array's block**, for blocks that read their operands at row `rowOf g p`. -/
theorem k1_pay1_block (a0 a1 : S4096x8.Idx → F .f32) (a4 : S4096x128.Idx → F .f32) (a2 : S4096x400.Idx → F .f32)
    (g : Fin 8) (v1 : Vec F S512x128 .f32) (v4 v6 : Vec F S512x8 .f32) (v12 : Vec F S512x400 .f32)
    (h1 : ∀ (p : Fin 512) (c : Fin 128), v1 (ix2 p c) = a4 (ix2 (rowOf g p) c))
    (h4 : ∀ (p : Fin 512) (c : Fin 8), v4 (ix2 p c) = a0 (ix2 (rowOf g p) c))
    (h6 : ∀ (p : Fin 512) (c : Fin 8), v6 (ix2 p c) = a1 (ix2 (rowOf g p) c))
    (h12 : ∀ (p : Fin 512) (c : Fin 400), v12 (ix2 p c) = a2 (ix2 (rowOf g p) c))
    (p : Fin 512) (t : Fin 50) (j : Fin 96) :
    k1_pay1 v1 v4 v6 v12 (ix3 p t j) = Setup.asm a0 a1 a4 a2 (ix3 (rowOf g p) t j) := by
  rw [k1_pay1_apply, asm_ix3]
  unfold Setup.asmAt
  by_cases h8 : j.val < 8
  · rw [dif_pos h8, dif_pos h8]
  rw [dif_neg h8, dif_neg h8]
  by_cases h16 : j.val < 16
  · rw [dif_pos h16, dif_pos h16, h4]
  rw [dif_neg h16, dif_neg h16]
  by_cases h24 : j.val < 24
  · rw [dif_pos h24, dif_pos h24, h6]
  rw [dif_neg h24, dif_neg h24]
  by_cases h88 : j.val < 88
  · rw [dif_pos h88, dif_pos h88, h1]
  · rw [dif_neg h88, dif_neg h88, h12]

/-! ## The index maps, decided over the grid -/

/-- At point t every window's block index is t on the rows and 0 on the other axes. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- A grid point as a number below 8. -/
def gOf (t : Fin cfg1.N) : Fin 8 := ⟨t.val, by have := t.isLt; have h : cfg1.N = 8 := N_1; omega⟩

theorem gOf_val (t : Fin cfg1.N) : (gOf t).val = t.val := rfl

/-! ## The input blocks read at a row -/

theorem read_blk0 (t : Fin cfg1.N) (A : S4096x8.Idx → F .f32) (p : Fin 512) (c : Fin 8) :
    ((cfg1.win 0).blk t).view.read (Elt F) A (ix2 p c) = A (ix2 (rowOf (gOf t) p) c) := by
  obtain ⟨e0, e1, -⟩ := idx_facts1 t
  show A (((cfg1.win 0).blk t).view.emb (ix2 p c)) = _
  congr 1
  funext a; apply Fin.ext
  match a with
  | ⟨0, _⟩ => show win1_0.index t (0 : Fin 2) * 512 + 1 * p.val = 512 * t.val + p.val; rw [e0]; omega
  | ⟨1, _⟩ => show win1_0.index t (1 : Fin 2) * 8 + 1 * c.val = c.val; rw [e1]; omega

theorem read_blk1 (t : Fin cfg1.N) (A : S4096x8.Idx → F .f32) (p : Fin 512) (c : Fin 8) :
    ((cfg1.win 1).blk t).view.read (Elt F) A (ix2 p c) = A (ix2 (rowOf (gOf t) p) c) := by
  obtain ⟨-, -, e0, e1, -⟩ := idx_facts1 t
  show A (((cfg1.win 1).blk t).view.emb (ix2 p c)) = _
  congr 1
  funext a; apply Fin.ext
  match a with
  | ⟨0, _⟩ => show win1_1.index t (0 : Fin 2) * 512 + 1 * p.val = 512 * t.val + p.val; rw [e0]; omega
  | ⟨1, _⟩ => show win1_1.index t (1 : Fin 2) * 8 + 1 * c.val = c.val; rw [e1]; omega

theorem read_blk2 (t : Fin cfg1.N) (A : S4096x128.Idx → F .f32) (p : Fin 512) (c : Fin 128) :
    ((cfg1.win 2).blk t).view.read (Elt F) A (ix2 p c) = A (ix2 (rowOf (gOf t) p) c) := by
  obtain ⟨-, -, -, -, e0, e1, -⟩ := idx_facts1 t
  show A (((cfg1.win 2).blk t).view.emb (ix2 p c)) = _
  congr 1
  funext a; apply Fin.ext
  match a with
  | ⟨0, _⟩ => show win1_2.index t (0 : Fin 2) * 512 + 1 * p.val = 512 * t.val + p.val; rw [e0]; omega
  | ⟨1, _⟩ => show win1_2.index t (1 : Fin 2) * 128 + 1 * c.val = c.val; rw [e1]; omega

theorem read_blk3 (t : Fin cfg1.N) (A : S4096x400.Idx → F .f32) (p : Fin 512) (c : Fin 400) :
    ((cfg1.win 3).blk t).view.read (Elt F) A (ix2 p c) = A (ix2 (rowOf (gOf t) p) c) := by
  obtain ⟨-, -, -, -, -, -, e0, e1, -⟩ := idx_facts1 t
  show A (((cfg1.win 3).blk t).view.emb (ix2 p c)) = _
  congr 1
  funext a; apply Fin.ext
  match a with
  | ⟨0, _⟩ => show win1_3.index t (0 : Fin 2) * 512 + 1 * p.val = 512 * t.val + p.val; rw [e0]; omega
  | ⟨1, _⟩ => show win1_3.index t (1 : Fin 2) * 400 + 1 * c.val = c.val; rw [e1]; omega

/-! ## The result's block -/

/-- Entry (p, s, j) of the result's block at point t is entry (512 t + p, s, j) of the result. -/
theorem emb_blk4 (t : Fin cfg1.N) (p : Fin 512) (s : Fin 50) (j : Fin 96) :
    ((cfg1.win 4).blk t).view.emb (ix3 p s j) = ix3 (rowOf (gOf t) p) s j := by
  obtain ⟨-, -, -, -, -, -, -, -, e0, e1, e2⟩ := idx_facts1 t
  funext a; apply Fin.ext
  match a with
  | ⟨0, _⟩ => show win1_4.index t (0 : Fin 3) * 512 + 1 * p.val = 512 * t.val + p.val; rw [e0]; omega
  | ⟨1, _⟩ => show win1_4.index t (1 : Fin 3) * 50 + 1 * s.val = s.val; rw [e1]; omega
  | ⟨2, _⟩ => show win1_4.index t (2 : Fin 3) * 96 + 1 * j.val = j.val; rw [e2]; omega

/-- **What point t stores, entry by entry**: the payload of the four fetched blocks at y is the assembled array at
    the index of the result that y of the block at t stands for. -/
theorem pay_blk (t : Fin cfg1.N) (A0 A1 : S4096x8.Idx → F .f32) (A4 : S4096x128.Idx → F .f32)
    (A2 : S4096x400.Idx → F .f32) (y : S512x50x96.Idx) :
    k1_pay1 (((cfg1.win 2).blk t).view.read (Elt F) A4) (((cfg1.win 0).blk t).view.read (Elt F) A0)
        (((cfg1.win 1).blk t).view.read (Elt F) A1) (((cfg1.win 3).blk t).view.read (Elt F) A2) y =
      Setup.asm A0 A1 A4 A2 (((cfg1.win 4).blk t).view.emb y) := by
  obtain ⟨p, s, j, rfl⟩ : ∃ (p : Fin 512) (s : Fin 50) (j : Fin 96), y = ix3 p s j := ⟨y 0, y 1, y 2, eq_ix3 y⟩
  rw [emb_blk4]
  exact k1_pay1_block A0 A1 A4 A2 (gOf t) _ _ _ _ (read_blk2 t A4) (read_blk0 t A0) (read_blk1 t A1)
    (read_blk3 t A2) p s j

/-- **What point t stores is block t of the assembled array.** -/
theorem pay_blk_eq_read (t : Fin cfg1.N) (A0 A1 : S4096x8.Idx → F .f32) (A4 : S4096x128.Idx → F .f32)
    (A2 : S4096x400.Idx → F .f32) :
    k1_pay1 (((cfg1.win 2).blk t).view.read (Elt F) A4) (((cfg1.win 0).blk t).view.read (Elt F) A0)
        (((cfg1.win 1).blk t).view.read (Elt F) A1) (((cfg1.win 3).blk t).view.read (Elt F) A2) =
      ((cfg1.win 4).blk t).view.read (Elt F) (Setup.asm A0 A1 A4 A2) :=
  funext fun y => pay_blk t A0 A1 A4 A2 y

/-! ## The result's blocks cover it -/

/-- An index of the result is in point t's block exactly when its row is one of the 512 rows from 512 t on. -/
theorem mem_blk4 (t : Fin cfg1.N) (i : S4096x50x96.Idx) :
    i ∈ ((cfg1.win 4).blk t).view.set ↔ 512 * t.val ≤ (i 0).val ∧ (i 0).val < 512 * t.val + 512 := by
  show i ∈ ((View.whole main_v5).slice (win1_4.rect t)).set ↔ _
  rw [View.set_slice_whole, Rect.mem_set_unit]
  obtain ⟨-, -, -, -, -, -, -, -, e0, e1, e2⟩ := idx_facts1 t
  constructor
  · intro h
    have h0 : win1_4.index t (0 : Fin 3) * 512 ≤ (i 0).val ∧ (i 0).val < win1_4.index t (0 : Fin 3) * 512 + 512 := h 0
    omega
  · intro h a
    match a with
    | ⟨0, _⟩ =>
      show win1_4.index t (0 : Fin 3) * 512 ≤ (i 0).val ∧ (i 0).val < win1_4.index t (0 : Fin 3) * 512 + 512
      omega
    | ⟨1, _⟩ =>
      show win1_4.index t (1 : Fin 3) * 50 ≤ (i 1).val ∧ (i 1).val < win1_4.index t (1 : Fin 3) * 50 + 50
      have h1 : (i 1).val < 50 := (i 1).isLt
      omega
    | ⟨2, _⟩ =>
      show win1_4.index t (2 : Fin 3) * 96 ≤ (i 2).val ∧ (i 2).val < win1_4.index t (2 : Fin 3) * 96 + 96
      have h2 : (i 2).val < 96 := (i 2).isLt
      omega

/-- **Every index of the result is in the block of some point that writes back**: the point (its row) / 512. -/
theorem cover4 (i : S4096x50x96.Idx) :
    ∃ t : Fin cfg1.N, (cfg1.win 4).flush t = true ∧ i ∈ ((cfg1.win 4).blk t).view.set := by
  have hi : (i 0).val < 4096 := (i 0).isLt
  have hN : cfg1.N = 8 := N_1
  refine ⟨⟨(i 0).val / 512, by omega⟩, flush1_4 _, ?_⟩
  rw [mem_blk4]
  show 512 * ((i 0).val / 512) ≤ (i 0).val ∧ (i 0).val < 512 * ((i 0).val / 512) + 512
  omega

end Cert.Kernel.KVal

end
-- ==== Proof.WRegionVal.lean ====
/-
  The output array after the assembling call, as one function of the four arrays it reads: point t writes back the
  body's store of the four input blocks at t, which is block t of the assembled array; the eight blocks tile the
  output, so the array ends holding the assembled array everywhere.
-/
import proofs.«208745_g22711787061521_fold_wed_m_611_20_alg».proof.Proof.WRegionDat
import proofs.«208745_g22711787061521_fold_wed_m_611_20_alg».proof.Proof.WValBlock
import Idealize.ShloMosaic.Lib.Pipeline.Value

set_option maxRecDepth 16384

noncomputable section

namespace Cert.Kernel.Region

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (a0 a1 : S4096x8.Idx → F .f32) (a4 : S4096x128.Idx → F .f32) (a2 : S4096x400.Idx → F .f32)
  (a5 : S4096x50x96.Idx → F .f32) (W : Finset (SemLoc sig × HIx 1))

theorem hz2 : (![0, 0] : Fin 2 → Nat) = fun _ => 0 := funext fun a => by fin_cases a <;> rfl
theorem hz3 : (![0, 0, 0] : Fin 3 → Nat) = fun _ => 0 := funext fun a => by fin_cases a <;> rfl

/-- Each input window's block is read off its own array. -/
theorem iblk_0 (c : Dev nD) (t : Fin cfg1.N) : iblk a0 a1 a4 a2 a5 c 0 t = ((cfg1.win 0).blk t).view.read (Elt F) a0 := rfl
theorem iblk_1 (c : Dev nD) (t : Fin cfg1.N) : iblk a0 a1 a4 a2 a5 c 1 t = ((cfg1.win 1).blk t).view.read (Elt F) a1 := rfl
theorem iblk_2 (c : Dev nD) (t : Fin cfg1.N) : iblk a0 a1 a4 a2 a5 c 2 t = ((cfg1.win 2).blk t).view.read (Elt F) a4 := rfl
theorem iblk_3 (c : Dev nD) (t : Fin cfg1.N) : iblk a0 a1 a4 a2 a5 c 3 t = ((cfg1.win 3).blk t).view.read (Elt F) a2 := rfl

set_option maxHeartbeats 1000000 in
/-- What point `t` writes back is block `t` of the assembled array. -/
theorem flushed4_eq (c : Dev nD) (t : Fin cfg1.N) :
    (dat a0 a1 a4 a2 a5 W c).flushed 4 t = ((cfg1.win 4).blk t).view.read (Elt F) (Setup.asm a0 a1 a4 a2) := by
  show (cfg1.win 4).cut (grid1.coords t) ((dat a0 a1 a4 a2 a5 W c).after 4 t) = _
  rw [after_4, iblk_0, iblk_1, iblk_2, iblk_3]
  unfold out4
  rw [View.canon_unit_zero hz3]
  simp only [View.ld_unit_zero (S := S512x8) hz2, View.ld_unit_zero (S := S512x128) hz2, View.ld_unit_zero (S := S512x400) hz2]
  funext j
  exact congrFun (KVal.pay_blk_eq_read t a0 a1 a4 a2) j

/-- The output array after the eight write-backs is the assembled array. -/
theorem arr4_final (c : Dev nD) : (dat a0 a1 a4 a2 a5 W c).arrAt 4 cfg1.N = Setup.asm a0 a1 a4 a2 :=
  (dat a0 a1 a4 a2 a5 W c).arrAt_eq_of_cover 4 _ (fun t _ => flushed4_eq a0 a1 a4 a2 a5 W c t) (fun i => KVal.cover4 i)

end Cert.Kernel.Region

end
-- ==== Proof.WRegionSeg.lean ====
/-
  The assembling call as a region of the host program: the pipeline library's region record over the thread state
  "the five windows' arrays whole at the full share, and the core owing nothing", entered with the output array at
  any contents and left with it at the assembled array; and the region's entry as a step of the
  program the SparseCore launch runs on the TensorCore.
-/
import proofs.«208745_g22711787061521_fold_wed_m_611_20_alg».proof.Proof.WRegionBody
import proofs.«208745_g22711787061521_fold_wed_m_611_20_alg».proof.Proof.WRegionVal
import Idealize.ShloMosaic.Lib.Pipeline.Regions
import Idealize.ShloMosaic.Lib.SparseCore.Threads

set_option maxRecDepth 16384

noncomputable section

namespace Cert.Kernel.Region

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (a0 a1 : S4096x8.Idx → F .f32) (a4 : S4096x128.Idx → F .f32) (a2 : S4096x400.Idx → F .f32)
  (a5 : S4096x50x96.Idx → F .f32) (W : Finset (SemLoc sig × HIx 1))

/-- The tables' admissible contents: the call prefetches none. -/
abbrev adm : (p : Fin 1) → (pcfgs (F := F) p).Adm := fun p => (cfgs p).toPCfg_adm

/-- The proof data per pipeline and core. -/
def pdats : (p : Fin 1) → (c : Dev nD) → Dat τ (Elt F) (HIx 1) ℕ UU ℕ (Pipeline.pin (pcfgs (F := F)) adm p) c :=
  fun _ c => dat a0 a1 a4 a2 a5 W c

/-- The thread state the call is entered from, -/
def PRE (c : Dev nD) : sProp 𝕄 :=
  iprop(((SparseCore.T c).loc main_v0 ↦{fullShare} a0) ∗ ((SparseCore.T c).loc main_v1 ↦{fullShare} a1) ∗ ((SparseCore.T c).loc main_v4 ↦{fullShare} a4)
    ∗ ((SparseCore.T c).loc main_v2 ↦{fullShare} a2) ∗ ((SparseCore.T c).loc main_v5 ↦{fullShare} a5) ∗ owes (SparseCore.T c) (0 : CellTallies nD τ sig (HIx 1)) W)

/-- and the one it leaves. -/
def POST (c : Dev nD) : sProp 𝕄 :=
  iprop(((SparseCore.T c).loc main_v0 ↦{fullShare} a0) ∗ ((SparseCore.T c).loc main_v1 ↦{fullShare} a1) ∗ ((SparseCore.T c).loc main_v4 ↦{fullShare} a4)
    ∗ ((SparseCore.T c).loc main_v2 ↦{fullShare} a2) ∗ ((SparseCore.T c).loc main_v5 ↦{fullShare} Setup.asm a0 a1 a4 a2)
    ∗ ∃ W' : Finset (SemLoc sig × HIx 1), ⌜∀ p ∈ W', p ∈ W ∨ p.2 = none⌝ ∗ owes (SparseCore.T c) (0 : CellTallies nD τ sig (HIx 1)) W')

set_option backward.isDefEq.respectTransparency.types false in
/-- The region record. Nothing enters the pipeline's invariant but the scoped buffers no window stages (there are
    none); the call has no semaphore of its own; nothing bypasses it. -/
def reg : Pipeline.RegionSeg (pcfgs (F := F)) adm (pdats a0 a1 a4 a2 a5 W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation a0 a1 a4 a2 a5 W c).loose
  hwaits := Pipeline.hwaits_of_owed_zero _ _ _ _ _ _ 0 fun _ _ => rfl
  pre := PRE a0 a1 a4 a2 a5 W
  post := POST a0 a1 a4 a2 W
  X _ := BI.emp
  Y _ := BI.emp
  Z _ := BI.emp
  hentry c := by
    rw [Pipeline.ownSems0_none, Pipeline.arrays_eq (Pipeline.pin (pcfgs (F := F)) adm) (pdats a0 a1 a4 a2 a5 W) 0 c launch1.arr_whole
      ((pdats a0 a1 a4 a2 a5 W 0 c).share_full fun _ => rfl), bigSep_W1]
    unfold PRE
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr <;> iempintro
  hin c := by
    rw [show (pdats a0 a1 a4 a2 a5 W 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats a0 a1 a4 a2 a5 W 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    rw [Pipeline.arrays_eq (Pipeline.pin (pcfgs (F := F)) adm) (pdats a0 a1 a4 a2 a5 W) 0 c launch1.arr_whole
      ((pdats a0 a1 a4 a2 a5 W 0 c).share_full fun _ => rfl), bigSep_W1]
    unfold POST
    rw [show (pdats a0 a1 a4 a2 a5 W 0 c).arrAt 0 (Pipeline.pin (pcfgs (F := F)) adm 0).N = a0 from
        ((dat a0 a1 a4 a2 a5 W c).arrAt_in 0 rfl _).trans (A_eq a0 a1 a4 a2 a5 W c 0),
      show (pdats a0 a1 a4 a2 a5 W 0 c).arrAt 1 (Pipeline.pin (pcfgs (F := F)) adm 0).N = a1 from
        ((dat a0 a1 a4 a2 a5 W c).arrAt_in 1 rfl _).trans (A_eq a0 a1 a4 a2 a5 W c 1),
      show (pdats a0 a1 a4 a2 a5 W 0 c).arrAt 2 (Pipeline.pin (pcfgs (F := F)) adm 0).N = a4 from
        ((dat a0 a1 a4 a2 a5 W c).arrAt_in 2 rfl _).trans (A_eq a0 a1 a4 a2 a5 W c 2),
      show (pdats a0 a1 a4 a2 a5 W 0 c).arrAt 3 (Pipeline.pin (pcfgs (F := F)) adm 0).N = a2 from
        ((dat a0 a1 a4 a2 a5 W c).arrAt_in 3 rfl _).trans (A_eq a0 a1 a4 a2 a5 W c 3),
      show (pdats a0 a1 a4 a2 a5 W 0 c).arrAt 4 (Pipeline.pin (pcfgs (F := F)) adm 0).N = Setup.asm a0 a1 a4 a2 from
        arr4_final a0 a1 a4 a2 a5 W c]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

set_option backward.isDefEq.respectTransparency.types false in
/-- THE CALL as a step of the program the launch runs on the TensorCore: from the boundary, the thread state `PRE`,
    the level facts and the pipeline's staging ghost state, the region's custom call runs to the boundary and `POST`
    for the continuation. The call of the program's own label is the lifted call of the pipeline's entry label,
    which the region record runs. -/
theorem region_wp (d : Dev nD) {α : Type} (k : PUnit → Prog (TpuEff nD τ sig (Elt F) (SparseCore.Sig (ΛP (F := F)) 1) .tc) α)
    (Q : α → sProp 𝕄) :
    iprop((iprop(boundary (SparseCore.T d) ∗ POST a0 a1 a4 a2 W d) -∗ wp frame (wpE ((K (F := F)).defs (D (F := F))) 𝒱 (SparseCore.T d) none) Set.univ (k ⟨⟩) Q)
        ∗ boundary (SparseCore.T d) ∗ PRE a0 a1 a4 a2 a5 W d ∗ levAts (K (F := F)).L (K (F := F)).lev
        ∗ Pipeline.cellsGhost cfgs EP 0 d ∗ Pipeline.toksInit cfgs EP 0 d)
      ⊢ wp frame (wpE ((K (F := F)).defs (D (F := F))) 𝒱 (SparseCore.T d) none) Set.univ
          (.op (.customCall (SparseCore.inner (Pipeline.entry 0)) ()) k) Q := by
  have hprog : (Prog.op (.customCall (SparseCore.inner (Pipeline.entry 0)) ()) k
        : Prog (TpuEff nD τ sig (Elt F) (SparseCore.Sig (ΛP (F := F)) 1) .tc) α)
      = (SparseCore.liftProg (Q := 1) (Prog.op (.customCall (Pipeline.entry (0 : Fin 1)) ()) fun _ => Prog.ret PUnit.unit
          : Prog (TpuEff nD τ sig (Elt F) (ΛP (F := F)) .tc) PUnit)) >>= k := rfl
  rw [hprog, wp_bind]
  refine .trans ?_ ((K (F := F)).wp_liftProg (D (F := F)) 𝒱 (SparseCore.T d) Set.univ none _ _)
  have hreg := Pipeline.RegionSeg.wp (pcfgs (F := F)) adm (pdats a0 a1 a4 a2 a5 W) (none : HIx 1) cellOf_inj EP defs₀ 𝒱₀
    (K (F := F)).L (K (F := F)).lev (reg a0 a1 a4 a2 a5 W) d none (fun _ h => (Option.not_mem_none _ h).elim) (fun _ => Prog.ret PUnit.unit)
    (fun x => wp frame (wpE ((K (F := F)).defs (D (F := F))) 𝒱 (SparseCore.T d) none) Set.univ (k x) Q)
  rw [show (reg a0 a1 a4 a2 a5 W).pre d = PRE a0 a1 a4 a2 a5 W d from rfl,
    show (reg a0 a1 a4 a2 a5 W).post d = POST a0 a1 a4 a2 W d from rfl] at hreg
  refine .trans ?_ hreg
  iintro ⟨Hk, Hb, Hpre, Hlev, Hg, Ht⟩
  isplitl [Hk]
  · iintro Hpost
    rw [wp_ret]
    imodintro
    iapply Hk; iexact Hpost
  isplitl [Hb]; · iexact Hb
  isplitl [Hpre]; · iexact Hpre
  isplitl [Hlev]; · iexact Hlev
  isplitl [Hg]; · iexact Hg
  iexact Ht

end Cert.Kernel.Region

end
-- ==== Proof.WRegionWp.lean ====
/-
  The assembling call's rule in the form @main's run takes it: the region's entry from the thread state "the four
  arrays read and the result array whole, nothing owed" to the same with the result at the assembled array.
-/
import proofs.«208745_g22711787061521_fold_wed_m_611_20_alg».proof.Proof.WRegionSeg
import proofs.«208745_g22711787061521_fold_wed_m_611_20_alg».proof.Proof.WHMain

noncomputable section

namespace Cert.Kernel.Region

open Cert.Kernel Cert.Kernel.Gen Cert.Kernel.Setup

open Idealize.ShloMosaic

variable {F : FTy → Type} [FloatOps F]

/-- The region's rule, for every device, contents and continuation. -/
theorem regionWp : Setup.RegionWp (F := F) :=
  fun d a0 a1 a4 a2 a5 W k Q => region_wp a0 a1 a4 a2 a5 W d k Q

end Cert.Kernel.Region

end
-- ==== Proof.RefRun.lean ====
/-
  The reference program's @main as the list of its 31 host operations, the two outlined functions'
  operations written in line at their calls, and its run read back: every weakly fair execution ends
  with the result buffer at `refOut` of the five argument arrays (the operations' composed pure
  term) and the arguments unchanged.
-/
import proofs.«208745_g22711787061521_fold_wed_m_611_20_alg».proof.Proof.Gen.ReferenceIdeal
import proofs.«208745_g22711787061521_fold_wed_m_611_20_alg».proof.Proof.RefTerm
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F]

/-! ## The operations -/

/-- @main's 31 operations, in order: the two reshapes, the 23 of `@_take` (the one of `@_where` among them, at
    the call's buffers), then the constant, its broadcast, the concatenation, the two broadcasts and the last
    concatenation. -/
abbrev ops : List (HloOp τ sig (Elt F)) :=
  [ reshape main_arg0 main_v0 rfl shapeCasts_S4096x1x8_S4096x8,
    reshape main_arg1 main_v1 rfl shapeCasts_S4096x1x8_S4096x8,
    TRef.nullary main_call0.c (constantI S_ 32 0#32),
    TRef.unary main_call0.c main_call0.v0 (broadcastInDim S4096 ![] bcast_S_S4096),
    TRef.binary (.of main_arg2) main_call0.v0 main_call0.v1 (cmpi .slt),
    TRef.nullary main_call0.c_0 (constantI S_ 32 1000#32),
    TRef.unary main_call0.c_0 main_call0.v2 (broadcastInDim S4096 ![] bcast_S_S4096),
    TRef.binary (.of main_arg2) main_call0.v2 main_call0.v3 addi,
    TRef.ternary main_call0.v1 main_call0.v3 (.of main_arg2) main_call0.call0.v0 select,
    TRef.unary main_call0.call0.v0 main_call0.v5 (broadcastInDim S4096x1 ![0] bcast_S4096_S4096x1_0),
    TRef.nullary main_call0.c_1 (constantI S1 32 999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg4) main_call0.v5 main_call0.v13 (fun x i => Host.gather gather_S1000x64_S4096x1_S4096x64_1_0_n_n_0_1_164 x i),
    TRef.unary main_call0.v12 main_call0.v14 (broadcastInDim S4096x64 ![0] bcast_S4096_S4096x64_0),
    TRef.nullary main_call0.cst (constant S_ .f32 0x7FC00000#32),
    TRef.unary main_call0.cst main_call0.v15 (broadcastInDim S4096x64 ![] bcast_S_S4096x64),
    TRef.ternary main_call0.v14 main_call0.v13 main_call0.v15 main_call0.v16 select,
    nullary main_cst (constant S_ .f32 0x3F800000#32),
    unary main_cst main_v3 (broadcastInDim S4096x8 ![] bcast_S_S4096x8 : (⟨S_, .f32⟩ : BufTy).Contents (Elt F) → (⟨S4096x8, .f32⟩ : BufTy).Contents (Elt F)),
    nary ![main_v3, main_v0, main_v1, main_v2] main_v4 (fun u => concatenate S4096x88 1 [⟨S4096x8, u 0⟩, ⟨S4096x8, u 1⟩, ⟨S4096x8, u 2⟩, ⟨S4096x64, u 3⟩] concatenates_S4096x8_S4096x8_S4096x8_S4096x64_S4096x88_d1),
    unary main_v4 main_v5 (broadcastInDim S4096x1x88 ![0, 2] bcast_S4096x88_S4096x1x88_0_2 : (⟨S4096x88, .f32⟩ : BufTy).Contents (Elt F) → (⟨S4096x1x88, .f32⟩ : BufTy).Contents (Elt F)),
    unary main_v5 main_v6 (broadcastInDim S4096x50x88 ![0, 1, 2] bcast_S4096x1x88_S4096x50x88_0_1_2 : (⟨S4096x1x88, .f32⟩ : BufTy).Contents (Elt F) → (⟨S4096x50x88, .f32⟩ : BufTy).Contents (Elt F)),
    binary main_v6 main_arg3 main_v7 ((fun a b => concatenate S4096x50x96 2 [⟨S4096x50x88, a⟩, ⟨S4096x50x8, b⟩] concatenates_S4096x50x88_S4096x50x8_S4096x50x96_d2) : (⟨S4096x50x88, .f32⟩ : BufTy).Contents (Elt F) → (⟨S4096x50x8, .f32⟩ : BufTy).Contents (Elt F) → (⟨S4096x50x96, .f32⟩ : BufTy).Contents (Elt F)) ]

set_option maxRecDepth 1024 in
/-- @main is that straight line: the two functions' definitions unfolded at their calls, both sides are one
    chain of `hlo` steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., nary_bufs_sub .., unary_bufs_sub .., unary_bufs_sub ..,
    binary_bufs_sub ..⟩

/-! ## The result, stage by stage

The 31 operations in five consecutive stages; each stage's results are read off as pure terms of the contents
`W` the stage starts from (any contents: the stages are stated apart from one another), and the buffers a later
stage reads pass through the stages that do not write them. -/

/-- The fold over a concatenation is the fold over the second list after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Stage A: the two reshapes. -/
abbrev segA : List (HloOp τ sig (Elt F)) :=
  [ reshape main_arg0 main_v0 rfl shapeCasts_S4096x1x8_S4096x8,
    reshape main_arg1 main_v1 rfl shapeCasts_S4096x1x8_S4096x8 ]
/-- Stage B: the wrap of the negative identifiers (`take`'s first six operations and `where`'s select). -/
abbrev segB : List (HloOp τ sig (Elt F)) :=
  [ TRef.nullary main_call0.c (constantI S_ 32 0#32),
    TRef.unary main_call0.c main_call0.v0 (broadcastInDim S4096 ![] bcast_S_S4096),
    TRef.binary (.of main_arg2) main_call0.v0 main_call0.v1 (cmpi .slt),
    TRef.nullary main_call0.c_0 (constantI S_ 32 1000#32),
    TRef.unary main_call0.c_0 main_call0.v2 (broadcastInDim S4096 ![] bcast_S_S4096),
    TRef.binary (.of main_arg2) main_call0.v2 main_call0.v3 addi,
    TRef.ternary main_call0.v1 main_call0.v3 (.of main_arg2) main_call0.call0.v0 select ]
/-- Stage C: the start indices and the in-range mask. -/
abbrev segC : List (HloOp τ sig (Elt F)) :=
  [ TRef.unary main_call0.call0.v0 main_call0.v5 (broadcastInDim S4096x1 ![0] bcast_S4096_S4096x1_0),
    TRef.nullary main_call0.c_1 (constantI S1 32 999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_) ]
/-- Stage D: the gather and the select against NaN. -/
abbrev segD : List (HloOp τ sig (Elt F)) :=
  [ TRef.binary (.of main_arg4) main_call0.v5 main_call0.v13 (fun x i => Host.gather gather_S1000x64_S4096x1_S4096x64_1_0_n_n_0_1_164 x i),
    TRef.unary main_call0.v12 main_call0.v14 (broadcastInDim S4096x64 ![0] bcast_S4096_S4096x64_0),
    TRef.nullary main_call0.cst (constant S_ .f32 0x7FC00000#32),
    TRef.unary main_call0.cst main_call0.v15 (broadcastInDim S4096x64 ![] bcast_S_S4096x64),
    TRef.ternary main_call0.v14 main_call0.v13 main_call0.v15 main_call0.v16 select ]
/-- Stage E: the ones, the concatenation, the two broadcasts and the last concatenation. -/
abbrev segE : List (HloOp τ sig (Elt F)) :=
  [ nullary main_cst (constant S_ .f32 0x3F800000#32),
    unary main_cst main_v3 (broadcastInDim S4096x8 ![] bcast_S_S4096x8 : (⟨S_, .f32⟩ : BufTy).Contents (Elt F) → (⟨S4096x8, .f32⟩ : BufTy).Contents (Elt F)),
    nary ![main_v3, main_v0, main_v1, main_v2] main_v4 (fun u => concatenate S4096x88 1 [⟨S4096x8, u 0⟩, ⟨S4096x8, u 1⟩, ⟨S4096x8, u 2⟩, ⟨S4096x64, u 3⟩] concatenates_S4096x8_S4096x8_S4096x8_S4096x64_S4096x88_d1),
    unary main_v4 main_v5 (broadcastInDim S4096x1x88 ![0, 2] bcast_S4096x88_S4096x1x88_0_2 : (⟨S4096x88, .f32⟩ : BufTy).Contents (Elt F) → (⟨S4096x1x88, .f32⟩ : BufTy).Contents (Elt F)),
    unary main_v5 main_v6 (broadcastInDim S4096x50x88 ![0, 1, 2] bcast_S4096x1x88_S4096x50x88_0_1_2 : (⟨S4096x1x88, .f32⟩ : BufTy).Contents (Elt F) → (⟨S4096x50x88, .f32⟩ : BufTy).Contents (Elt F)),
    binary main_v6 main_arg3 main_v7 ((fun a b => concatenate S4096x50x96 2 [⟨S4096x50x88, a⟩, ⟨S4096x50x8, b⟩] concatenates_S4096x50x88_S4096x50x8_S4096x50x96_d2) : (⟨S4096x50x88, .f32⟩ : BufTy).Contents (Elt F) → (⟨S4096x50x8, .f32⟩ : BufTy).Contents (Elt F) → (⟨S4096x50x96, .f32⟩ : BufTy).Contents (Elt F)) ]

theorem ops_split : (ops : List (HloOp τ sig (Elt F))) = segA ++ (segB ++ (segC ++ (segD ++ segE))) := rfl

section Stages
variable (W : Valuation τ sig (Elt F))

attribute [local irreducible] Host.reduce Host.gather

-- Stage A
theorem A_v0 : after segA W (main_v0 : DevRef τ sig)
    = (shapeCast S4096x8 (W (main_arg0 : DevRef τ sig) : FVec F S4096x1x8 .f32) shapeCasts_S4096x1x8_S4096x8 : FVec F S4096x8 .f32) := by
  simp only [after_cons, after_nil]; rfl
theorem A_v1 : after segA W (main_v1 : DevRef τ sig)
    = (shapeCast S4096x8 (W (main_arg1 : DevRef τ sig) : FVec F S4096x1x8 .f32) shapeCasts_S4096x1x8_S4096x8 : FVec F S4096x8 .f32) := by
  simp only [after_cons, after_nil]; rfl
theorem A_arg2 : after segA W (main_arg2 : DevRef τ sig) = W (main_arg2 : DevRef τ sig) := by
  simp only [after_cons, after_nil]; rfl
theorem A_arg3 : after segA W (main_arg3 : DevRef τ sig) = W (main_arg3 : DevRef τ sig) := by
  simp only [after_cons, after_nil]; rfl
theorem A_arg4 : after segA W (main_arg4 : DevRef τ sig) = W (main_arg4 : DevRef τ sig) := by
  simp only [after_cons, after_nil]; rfl

-- Stage B
theorem B_v4 : after segB W (main_call0_v4 : DevRef τ sig) = refIds (W (main_arg2 : DevRef τ sig)) := by
  simp only [after_cons, after_nil]; rfl
theorem B_v0 : after segB W (main_v0 : DevRef τ sig) = W (main_v0 : DevRef τ sig) := by
  simp only [after_cons, after_nil]; rfl
theorem B_v1 : after segB W (main_v1 : DevRef τ sig) = W (main_v1 : DevRef τ sig) := by
  simp only [after_cons, after_nil]; rfl
theorem B_arg3 : after segB W (main_arg3 : DevRef τ sig) = W (main_arg3 : DevRef τ sig) := by
  simp only [after_cons, after_nil]; rfl
theorem B_arg4 : after segB W (main_arg4 : DevRef τ sig) = W (main_arg4 : DevRef τ sig) := by
  simp only [after_cons, after_nil]; rfl

/-- The start indices of given identifiers. -/
def idxOf (v : IVec S4096 32) : IVec S4096x1 32 := broadcastInDim S4096x1 ![0] bcast_S4096_S4096x1_0 v
/-- The in-range mask of given start indices. -/
def maskOf (idx : IVec S4096x1 32) : IVec S4096 1 :=
  Host.reduce IntOp.andi
    (andi (cmpi .sge idx (broadcastInDim S4096x1 ![] bcast_S_S4096x1 (constantI S_ 32 0#32)))
      (cmpi .sle idx (broadcastInDim S4096x1 ![0, 1] bcast_S1x1_S4096x1_0_1
        (broadcastInDim S1x1 ![1] bcast_S1_S1x1_1 (constantI S1 32 999#32)))))
    (constantI S_ 1 1#1) reducesTo_S4096x1_S4096_d1 h_S_

-- Stage C
theorem C_v5 : after segC W (main_call0_v5 : DevRef τ sig) = idxOf (W (main_call0_v4 : DevRef τ sig)) := by
  simp only [after_cons, after_nil]; rfl
theorem C_v12 : after segC W (main_call0_v12 : DevRef τ sig) = maskOf (idxOf (W (main_call0_v4 : DevRef τ sig))) := by
  simp only [after_cons, after_nil]; rfl
theorem C_v0 : after segC W (main_v0 : DevRef τ sig) = W (main_v0 : DevRef τ sig) := by
  simp only [after_cons, after_nil]; rfl
theorem C_v1 : after segC W (main_v1 : DevRef τ sig) = W (main_v1 : DevRef τ sig) := by
  simp only [after_cons, after_nil]; rfl
theorem C_arg3 : after segC W (main_arg3 : DevRef τ sig) = W (main_arg3 : DevRef τ sig) := by
  simp only [after_cons, after_nil]; rfl
theorem C_arg4 : after segC W (main_arg4 : DevRef τ sig) = W (main_arg4 : DevRef τ sig) := by
  simp only [after_cons, after_nil]; rfl

/-- `take`'s result of a given mask, start indices and table. -/
def takeOf (mask : IVec S4096 1) (idx : IVec S4096x1 32) (a4 : FVec F S1000x64 .f32) : FVec F S4096x64 .f32 :=
  select (broadcastInDim S4096x64 ![0] bcast_S4096_S4096x64_0 mask)
    (Host.gather gather_S1000x64_S4096x1_S4096x64_1_0_n_n_0_1_164 a4 idx)
    (broadcastInDim S4096x64 ![] bcast_S_S4096x64 (constant S_ .f32 0x7FC00000#32))

-- Stage D
theorem D_v2 : after segD W (main_v2 : DevRef τ sig)
    = takeOf (W (main_call0_v12 : DevRef τ sig)) (W (main_call0_v5 : DevRef τ sig)) (W (main_arg4 : DevRef τ sig)) := by
  simp only [after_cons, after_nil]; rfl
theorem D_v0 : after segD W (main_v0 : DevRef τ sig) = W (main_v0 : DevRef τ sig) := by
  simp only [after_cons, after_nil]; rfl
theorem D_v1 : after segD W (main_v1 : DevRef τ sig) = W (main_v1 : DevRef τ sig) := by
  simp only [after_cons, after_nil]; rfl
theorem D_arg3 : after segD W (main_arg3 : DevRef τ sig) = W (main_arg3 : DevRef τ sig) := by
  simp only [after_cons, after_nil]; rfl

/-- The result of given reshaped y and x, taken rows and time features. -/
def outOf (v0 v1 : FVec F S4096x8 .f32) (v2 : FVec F S4096x64 .f32) (a3 : FVec F S4096x50x8 .f32) : FVec F S4096x50x96 .f32 :=
  concatenate S4096x50x96 2
    [⟨S4096x50x88, (broadcastInDim S4096x50x88 ![0, 1, 2] bcast_S4096x1x88_S4096x50x88_0_1_2
        (broadcastInDim S4096x1x88 ![0, 2] bcast_S4096x88_S4096x1x88_0_2
          (concatenate S4096x88 1
            [⟨S4096x8, (broadcastInDim S4096x8 ![] bcast_S_S4096x8 (constant S_ .f32 0x3F800000#32) : FVec F S4096x8 .f32)⟩,
             ⟨S4096x8, v0⟩, ⟨S4096x8, v1⟩, ⟨S4096x64, v2⟩]
            concatenates_S4096x8_S4096x8_S4096x8_S4096x64_S4096x88_d1)) : FVec F S4096x50x88 .f32)⟩,
     ⟨S4096x50x8, a3⟩]
    concatenates_S4096x50x88_S4096x50x8_S4096x50x96_d2

-- Stage E
theorem E_v7 : after segE W (main_v7 : DevRef τ sig)
    = outOf (W (main_v0 : DevRef τ sig)) (W (main_v1 : DevRef τ sig)) (W (main_v2 : DevRef τ sig)) (W (main_arg3 : DevRef τ sig)) := by
  simp only [after_cons, after_nil]; rfl

end Stages

/-- The fold of the 31 operations at the result buffer is `refOut` of the launch contents of the arguments. -/
theorem out_eq (V : Valuation τ sig (Elt F)) :
    after ops V (main_v7 : DevRef τ sig)
      = refOut (V (main_arg0 : DevRef τ sig)) (V (main_arg1 : DevRef τ sig)) (V (main_arg2 : DevRef τ sig))
          (V (main_arg3 : DevRef τ sig)) (V (main_arg4 : DevRef τ sig)) := by
  rw [ops_split, after_app, after_app, after_app, after_app]
  rw [E_v7, D_v0, D_v1, D_v2, D_arg3, C_v0, C_v1, C_v5, C_v12, C_arg3, C_arg4, B_v0, B_v1, B_v4, B_arg3, B_arg4,
    A_v0, A_v1, A_arg2, A_arg3, A_arg4]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- On the compiled mesh, for any float values, from any memory with zero counters: every weakly fair execution of
    @main terminates with the result at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v7)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v7).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.HandRun

end
-- ==== Proof.RefValue.lean ====
/-
  The reference's pure term, under the range of the identifiers, is the specified result.
  Index by index: each layout operation is read at an index; the in-range mask of `take` is all ones
  and its `where` keeps the identifier, since every identifier lies in [0, 999]; the select then takes
  the gathered row, and the gather's clamp of the start index is the specification's row.
  Generic in the float instance: no float operation is involved.
-/
import proofs.«208745_g22711787061521_fold_wed_m_611_20_alg».proof.Proof.RefTerm
import proofs.«208745_g22711787061521_fold_wed_m_611_20_alg».proof.Proof.Spec
import Idealize.ShloMosaic.Lib.ValueIdx
import Idealize.ShloMosaic.Lib.Pipeline.Value
import Idealize.ShloMosaic.Lib.ReduceAll

noncomputable section

namespace Cert.ReferenceIdeal.HandValue

open Cert.ReferenceIdeal Cert.ReferenceIdeal.HandRun Idealize.ShloMosaic Idealize.ShloMosaic.ValueIdx
open Cert.ReferenceIdeal.Facts₀

variable {F : FTy → Type} [FloatOps F]

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons n l ih =>
    rw [List.foldl_cons, hx, show IntOp.andi 1#1 1#1 = 1#1 from by decide]
    exact ih

/-- THE GATHER OF ROWS READ AT `(b, c)`: the table at the row the start index `idx[b, 0]` names, read signed and
    clamped into `[0, 999]`, and at column `c`. -/
theorem gather_row_apply {α : Type} (x : S1000x64.Idx → α) (idx : IVec S4096x1 32) (b : Fin 4096) (c : Fin 64) :
    Host.gather gather_S1000x64_S4096x1_S4096x64_1_0_n_n_0_1_164 x idx (ix2 b c)
      = x (ix2 (⟨min (idx (ix2 b (0 : Fin 1))).toInt.toNat 999, by omega⟩ : Fin 1000) c) := by
  unfold Host.gather
  congr 1
  funext a
  refine Fin.ext ?_
  match a with
  | ⟨0, _⟩ =>
    show gather_S1000x64_S4096x1_S4096x64_1_0_n_n_0_1_164.start (ix2 b c) idx 0
      + gather_S1000x64_S4096x1_S4096x64_1_0_n_n_0_1_164.batchCoord (ix2 b c) 0
      + gather_S1000x64_S4096x1_S4096x64_1_0_n_n_0_1_164.offCoord (ix2 b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x64_S4096x1_S4096x64_1_0_n_n_0_1_164.startIndexMap from List.mem_singleton.mpr rfl)]
    have hsi : gather_S1000x64_S4096x1_S4096x64_1_0_n_n_0_1_164.siIdx (ix2 b c)
        ⟨List.idxOf (0 : Fin 2) gather_S1000x64_S4096x1_S4096x64_1_0_n_n_0_1_164.startIndexMap,
          List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  | ⟨1, _⟩ =>
    show gather_S1000x64_S4096x1_S4096x64_1_0_n_n_0_1_164.start (ix2 b c) idx 1
      + gather_S1000x64_S4096x1_S4096x64_1_0_n_n_0_1_164.batchCoord (ix2 b c) 1
      + gather_S1000x64_S4096x1_S4096x64_1_0_n_n_0_1_164.offCoord (ix2 b c) 1 = c.val
    rw [GatherDims.batchCoord_eq_zero _ _ _ List.not_mem_nil]
    unfold GatherDims.start
    rw [dif_neg (show (1 : Fin 2) ∉ gather_S1000x64_S4096x1_S4096x64_1_0_n_n_0_1_164.startIndexMap from by decide)]
    simp only [Nat.add_zero, Nat.zero_add]
    unfold GatherDims.offCoord
    rw [dif_pos (show (1 : Fin 2) ∈ gather_S1000x64_S4096x1_S4096x64_1_0_n_n_0_1_164.sKept from by decide)]
    rfl

/-- A nonnegative word read signed is the word read unsigned. -/
theorem toInt_toNat (w : BitVec 32) (h0 : 0 ≤ w.toInt) : w.toInt.toNat = w.toNat := by
  have h32 := w.isLt
  unfold BitVec.toInt at h0 ⊢
  split at h0 <;> split <;> omega

section Range
variable (a2 : IVec S4096 32) (h : ∀ b : S4096.Idx, 0 ≤ (a2 b).toInt ∧ (a2 b).toInt ≤ 999)
include h

/-- No identifier is negative: the wrap leaves them as they are. -/
theorem refIds_eq : refIds a2 = a2 := by
  funext b
  unfold refIds
  rw [select_apply]
  have hc : cmpi .slt a2 (broadcastInDim S4096 ![] bcast_S_S4096 (constantI S_ 32 0#32)) b = 0#1 := by
    refine eq_zero_of_ne_one fun h1 => ?_
    have h2 : (a2 b).toInt < (0#32 : BitVec 32).toInt := IntOp.cmpi_slt.1 h1
    have z0 : (0#32 : BitVec 32).toInt = 0 := by decide
    have := (h b).1
    omega
  rw [hc, select_zero]

/-- The start index of row `b` is identifier `b`. -/
theorem refIdx_apply (y : S4096x1.Idx) : refIdx a2 y = a2 (ix1 (y 0)) := by
  unfold refIdx
  rw [refIds_eq a2 h]
  refine broadcastInDim_apply _ _ _ _ (ix1 (y 0)) (fun a => ?_)
  match a with
  | ⟨0, _⟩ => rfl

/-- Every start index is in range: the mask is all ones. -/
theorem refMask_eq : refMask a2 = fun _ => 1#1 := by
  funext j
  unfold refMask
  refine reduce_andi_ones _ _ _ _ (fun y => ?_) rfl j
  show IntOp.andi (IntOp.cmpi .sge (refIdx a2 y) (0#32)) (IntOp.cmpi .sle (refIdx a2 y) (999#32)) = 1#1
  rw [refIdx_apply a2 h y]
  have z0 : (0#32 : BitVec 32).toInt = 0 := by decide
  have z1 : (999#32 : BitVec 32).toInt = 999 := by decide
  refine IntOp.andi_eq_one.2 ⟨IntOp.cmpi_sge.2 ?_, IntOp.cmpi_sle.2 ?_⟩
  · rw [z0]; exact (h _).1
  · rw [z1]; exact (h _).2

/-- `take` at `(b, c)`: the table at the identifier's row. -/
theorem refTake_apply (a4 : FVec F S1000x64 .f32) (b : Fin 4096) (c : Fin 64) :
    refTake a2 a4 (ix2 b c) = a4 (ix2 (Cert.Spec.row (a2 (ix1 b))) c) := by
  unfold refTake
  rw [select_apply, refMask_eq a2 h]
  show Scalar.select 1#1 _ _ = _
  rw [select_one]
  unfold refGather
  rw [gather_row_apply]
  refine congrArg a4 (congrArg (fun r => ix2 r c) (Fin.ext ?_))
  show min (refIdx a2 (ix2 b (0 : Fin 1))).toInt.toNat 999 = min (a2 (ix1 b)).toNat 999
  rw [refIdx_apply a2 h, toInt_toNat _ (h _).1]

end Range

/-! ## The layout operations at an index -/

/-- The reshape [4096, 1, 8] → [4096, 8] read at `(b, c)`. -/
theorem shapeCast_b8 (a : FVec F S4096x1x8 .f32) (b : Fin 4096) (c : Fin 8) :
    (shapeCast S4096x8 a shapeCasts_S4096x1x8_S4096x8 : FVec F S4096x8 .f32) (ix2 b c) = a (ix3 b (0 : Fin 1) c) := by
  refine shapeCast_apply _ _ _ _ ?_
  rw [Shape.rowMajor_val_three, Shape.rowMajor_val_two]
  show (b.val * 1 + 0) * 8 + c.val = b.val * 8 + c.val
  omega

section Query
variable (a0 a1 : FVec F S4096x1x8 .f32) (a2 : IVec S4096 32) (a4 : FVec F S1000x64 .f32)
  (h : ∀ b : S4096.Idx, 0 ≤ (a2 b).toInt ∧ (a2 b).toInt ≤ 999)

/-- Columns 0–7 of the query: ones. -/
theorem refQuery_ones (b : Fin 4096) (j : Fin 88) (hj : j.val < 8) :
    refQuery a0 a1 a2 a4 (ix2 b j) = Cert.Spec.one := by
  unfold refQuery
  refine (concatenate_apply_piece (t := S4096x88) 1 _ _ (ix2 b j) 0 (by show (0 : Nat) < 4; omega) S4096x8 _ rfl rfl 0 rfl
    (ix2 b (⟨j.val, hj⟩ : Fin 8)) (fun d hd => ?_) ?_).trans ?_
  · match d with
    | ⟨0, _⟩ => rfl
    | ⟨1, _⟩ => exact absurd rfl hd
  · exact Nat.zero_add _
  · rfl

/-- Columns 8–15 of the query: y. -/
theorem refQuery_y (b : Fin 4096) (j : Fin 88) (h0 : 8 ≤ j.val) (hj : j.val < 16) :
    refQuery a0 a1 a2 a4 (ix2 b j) = a0 (ix3 b (0 : Fin 1) (⟨j.val - 8, by omega⟩ : Fin 8)) := by
  unfold refQuery
  refine (concatenate_apply_piece (t := S4096x88) 1 _ _ (ix2 b j) 1 (by show (1 : Nat) < 4; omega) S4096x8 _ rfl rfl 8 rfl
    (ix2 b (⟨j.val - 8, by omega⟩ : Fin 8)) (fun d hd => ?_) ?_).trans ?_
  · match d with
    | ⟨0, _⟩ => rfl
    | ⟨1, _⟩ => exact absurd rfl hd
  · show 8 + (j.val - 8) = j.val
    omega
  · exact shapeCast_b8 a0 b _

/-- Columns 16–23 of the query: x. -/
theorem refQuery_x (b : Fin 4096) (j : Fin 88) (h0 : 16 ≤ j.val) (hj : j.val < 24) :
    refQuery a0 a1 a2 a4 (ix2 b j) = a1 (ix3 b (0 : Fin 1) (⟨j.val - 16, by omega⟩ : Fin 8)) := by
  unfold refQuery
  refine (concatenate_apply_piece (t := S4096x88) 1 _ _ (ix2 b j) 2 (by show (2 : Nat) < 4; omega) S4096x8 _ rfl rfl 16 rfl
    (ix2 b (⟨j.val - 16, by omega⟩ : Fin 8)) (fun d hd => ?_) ?_).trans ?_
  · match d with
    | ⟨0, _⟩ => rfl
    | ⟨1, _⟩ => exact absurd rfl hd
  · show 16 + (j.val - 16) = j.val
    omega
  · exact shapeCast_b8 a1 b _

include h in
/-- Columns 24–87 of the query: the table's row. -/
theorem refQuery_table (b : Fin 4096) (j : Fin 88) (h0 : 24 ≤ j.val) :
    refQuery a0 a1 a2 a4 (ix2 b j)
      = a4 (ix2 (Cert.Spec.row (a2 (ix1 b))) (⟨j.val - 24, by have := j.isLt; omega⟩ : Fin 64)) := by
  unfold refQuery
  refine (concatenate_apply_piece (t := S4096x88) 1 _ _ (ix2 b j) 3 (by show (3 : Nat) < 4; omega) S4096x64 _ rfl rfl 24 rfl
    (ix2 b (⟨j.val - 24, by have := j.isLt; omega⟩ : Fin 64)) (fun d hd => ?_) ?_).trans ?_
  · match d with
    | ⟨0, _⟩ => rfl
    | ⟨1, _⟩ => exact absurd rfl hd
  · show 24 + (j.val - 24) = j.val
    omega
  · exact refTake_apply a2 h a4 b _

end Query

/-- The query broadcast over the time steps, read at `(b, t, j)`. -/
theorem bcast_query (q : FVec F S4096x88 .f32) (b : Fin 4096) (t : Fin 50) (j : Fin 88) :
    (broadcastInDim S4096x50x88 ![0, 1, 2] bcast_S4096x1x88_S4096x50x88_0_1_2
      (broadcastInDim S4096x1x88 ![0, 2] bcast_S4096x88_S4096x1x88_0_2 q) : FVec F S4096x50x88 .f32) (ix3 b t j)
      = q (ix2 b j) := by
  refine (broadcastInDim_apply _ _ _ (ix3 b t j) (ix3 b (0 : Fin 1) j) (fun a => ?_)).trans ?_
  · match a with
    | ⟨0, _⟩ => rfl
    | ⟨1, _⟩ => rfl
    | ⟨2, _⟩ => rfl
  · refine broadcastInDim_apply _ _ _ (ix3 b (0 : Fin 1) j) (ix2 b j) (fun a => ?_)
    match a with
    | ⟨0, _⟩ => rfl
    | ⟨1, _⟩ => rfl

/-- THE VALUE: under the range of the identifiers the reference's term is the specified result. -/
theorem refOut_eq_spec (a0 a1 : FVec F S4096x1x8 .f32) (a2 : IVec S4096 32) (a3 : FVec F S4096x50x8 .f32)
    (a4 : FVec F S1000x64 .f32) (h : ∀ b : S4096.Idx, 0 ≤ (a2 b).toInt ∧ (a2 b).toInt ≤ 999) :
    refOut a0 a1 a2 a3 a4 = Cert.Spec.out (F := F) a0 a1 a2 a3 a4 := by
  refine Cert.Spec.eq_out _ _ _ _ _ _ (fun b t j => ?_)
  unfold refOut
  by_cases h88 : j.val < 88
  · -- the first piece: the query, whatever the time step
    refine (concatenate_pair_apply_left (t := S4096x50x96) (s₁ := S4096x50x88) (s₂ := S4096x50x8) 2 _ _ _ (ix3 b t j) rfl
      (ix3 b t (⟨j.val, h88⟩ : Fin 88)) (fun d => ?_)).trans ?_
    · match d with
      | ⟨0, _⟩ => rfl
      | ⟨1, _⟩ => rfl
      | ⟨2, _⟩ => rfl
    rw [bcast_query]
    by_cases h8 : j.val < 8
    · rw [Cert.Spec.outAt_ones _ _ _ _ _ _ _ _ h8]
      exact refQuery_ones a0 a1 a2 a4 b _ h8
    by_cases h16 : j.val < 16
    · rw [Cert.Spec.outAt_y _ _ _ _ _ _ _ _ (by omega) h16]
      exact refQuery_y a0 a1 a2 a4 b _ (by show 8 ≤ j.val; omega) h16
    by_cases h24 : j.val < 24
    · rw [Cert.Spec.outAt_x _ _ _ _ _ _ _ _ (by omega) h24]
      exact refQuery_x a0 a1 a2 a4 b _ (by show 16 ≤ j.val; omega) h24
    · rw [Cert.Spec.outAt_table _ _ _ _ _ _ _ _ (by omega) h88]
      exact refQuery_table a0 a1 a2 a4 h b _ (by show 24 ≤ j.val; omega)
  · -- the second piece: the time features
    rw [Cert.Spec.outAt_time _ _ _ _ _ _ _ _ (by omega)]
    refine concatenate_pair_apply_right (t := S4096x50x96) (s₁ := S4096x50x88) (s₂ := S4096x50x8) 2 _ _ _ (ix3 b t j) rfl rfl
      (ix3 b t (⟨j.val - 88, by have := j.isLt; omega⟩ : Fin 8)) (fun d hd => ?_) ?_
    · match d with
      | ⟨0, _⟩ => rfl
      | ⟨1, _⟩ => rfl
      | ⟨2, _⟩ => exact absurd rfl hd
    · show (j.val - 88) + 88 = j.val
      omega

end Cert.ReferenceIdeal.HandValue

end
-- ==== Proof.lean ====
/-
  The proof of the claim.

  The operator: out[b, t, :] is the concatenation of eight ones, the eight coordinate features y[b, 0, :], the eight
  coordinate features x[b, 0, :], row ids[b] of the 1000 x 64 table, and the eight time features time[b, t, :]; the
  result has shape 4096 x 50 x 96. Nothing is computed with the floats: every entry of the result is a constant or a
  copy of one entry of an argument, so the claim is an equation between indices, and it holds for every float
  instance.

  The kernel. The host widens the table to 128 columns and re-indexes the feature arrays. Thirty-two vector subcores
  then gather the table's rows: the 4096 identifiers are cut into 32 blocks of 128, subcore s of SparseCore c takes
  block 2 s + c, fetches its 128 identifiers, gathers the 128 rows they name and writes them to rows
  [128 (2 s + c), + 128) of a 4096 x 128 array. The blocks are pairwise disjoint and cover the array, so after the
  call row b of that array is row ids[b] of the widened table, whose first 64 columns are the table's own. A second
  call, on a grid of eight blocks of 512 rows, assembles the result block by block: ones, y, x, the first 64 columns of
  the gathered row, and the time features of step t. The identifiers must name rows of the table for the gather to
  be served: the precondition says 0 ≤ ids ≤ 999, and that is all it is used for.

  The reference takes the rows in fill mode: negative identifiers are wrapped by 1000, an in-range mask is computed,
  the rows are gathered at the clamped start indices, and rows out of range are replaced by NaN. Under
  0 ≤ ids ≤ 999 no identifier is wrapped, the mask is all ones, the clamp changes nothing, and the select keeps the
  gathered row: the reference's term is the same index equation. Both sides are read against one specification of
  the result, index by index; memories that agree on the five arguments give the same specified result.

  The frames are the two runs with the result forgotten: every weakly fair execution of the kernel's threads (the
  TensorCore, the two sequencers and the 32 vector subcores) ends, with the five arguments as launched; the
  reference's one thread likewise. The kernel's run is proved once for any float instance and used at the word
  level and at the ideal instance.
-/
import proofs.«208745_g22711787061521_fold_wed_m_611_20_alg».proof.Defs
import proofs.«208745_g22711787061521_fold_wed_m_611_20_alg».proof.Proof.Gen.Kernel
import proofs.«208745_g22711787061521_fold_wed_m_611_20_alg».proof.Proof.Gen.Kernel.Skeleton
import proofs.«208745_g22711787061521_fold_wed_m_611_20_alg».proof.Proof.Gen.Kernel.Launch
import proofs.«208745_g22711787061521_fold_wed_m_611_20_alg».proof.Proof.Gen.Kernel.Points
import proofs.«208745_g22711787061521_fold_wed_m_611_20_alg».proof.Proof.Gen.KernelIdeal
import proofs.«208745_g22711787061521_fold_wed_m_611_20_alg».proof.Proof.Gen.KernelIdeal.Skeleton
import proofs.«208745_g22711787061521_fold_wed_m_611_20_alg».proof.Proof.Gen.KernelIdeal.Launch
import proofs.«208745_g22711787061521_fold_wed_m_611_20_alg».proof.Proof.Gen.KernelIdeal.Points
import proofs.«208745_g22711787061521_fold_wed_m_611_20_alg».proof.Proof.Gen.ReferenceIdeal
import proofs.«208745_g22711787061521_fold_wed_m_611_20_alg».proof.Proof.Gen.Pre_input_domain
import proofs.«208745_g22711787061521_fold_wed_m_611_20_alg».proof.Proof.KClaims
import proofs.«208745_g22711787061521_fold_wed_m_611_20_alg».proof.Proof.WClaims
import proofs.«208745_g22711787061521_fold_wed_m_611_20_alg».proof.Proof.KRun
import proofs.«208745_g22711787061521_fold_wed_m_611_20_alg».proof.Proof.WRun
import proofs.«208745_g22711787061521_fold_wed_m_611_20_alg».proof.Proof.KHMain
import proofs.«208745_g22711787061521_fold_wed_m_611_20_alg».proof.Proof.WHMain
import proofs.«208745_g22711787061521_fold_wed_m_611_20_alg».proof.Proof.KRegionWp
import proofs.«208745_g22711787061521_fold_wed_m_611_20_alg».proof.Proof.WRegionWp
import proofs.«208745_g22711787061521_fold_wed_m_611_20_alg».proof.Proof.RefRun
import proofs.«208745_g22711787061521_fold_wed_m_611_20_alg».proof.Proof.RefValue
import Idealize.ShloMosaic.Adequacy
import Idealize.ShloMosaic.Init

noncomputable section

namespace Cert.Proof

open Idealize.ShloMosaic Idealize.SL.Sem

/-- The kernel's run at the ideal instance: the launch theorem's run, @main's proof on the TensorCore supplied with
    the assembling call's rule. -/
theorem kernelIdealRun : Cert.Claims.KernelRun := fun m ρ hin =>
  Cert.KernelIdeal.Setup.run_main m ρ
    (fun κ d => Cert.KernelIdeal.Setup.hmain m ρ Cert.KernelIdeal.Region.regionWp κ d) hin

/-- The same run at the word level. -/
theorem kernelRun : Cert.WClaims.KernelRun := fun m ρ hin =>
  Cert.Kernel.Setup.run_main m ρ
    (fun κ d => Cert.Kernel.Setup.hmain m ρ Cert.Kernel.Region.regionWp κ d) hin

/-- The reference's run: its result at its own pure term of the arguments, the arguments unchanged. -/
theorem referenceRun : Cert.Claims.ReferenceRun := fun m' g' => Cert.ReferenceIdeal.HandRun.run m' g'

/-- The reference's term is the specified result when every identifier lies in [0, 999]. -/
theorem referenceValue : Cert.Claims.ReferenceValue := fun a0 a1 a2 a3 a4 h =>
  Cert.ReferenceIdeal.HandValue.refOut_eq_spec a0 a1 a2 a3 a4 h

theorem claim : Cert.Claim :=
  ⟨Cert.Kernel.Gen.facts, Cert.KernelIdeal.Gen.facts, Cert.ReferenceIdeal.Gen.facts, Cert.Pre_input_domain.Gen.facts,
    Cert.WClaims.frame_Kernel kernelRun,
    Cert.Claims.frame_KernelIdeal kernelIdealRun,
    Cert.Claims.frame_ReferenceIdeal referenceRun,
    Cert.Claims.preserves,
    Cert.Claims.algebraic kernelIdealRun referenceRun referenceValue⟩

end Cert.Proof

end
